-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S3x304 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2x256x128x128 : Shape := ⟨5, ![3, 2, 256, 128, 128]⟩
abbrev S3x2x1x128x128 : Shape := ⟨5, ![3, 2, 1, 128, 128]⟩
abbrev S_ : Shape := ⟨0, ![]⟩

class Facts : Prop where
  bcast_S_S3x2x256x128x128 : S_.BroadcastsInDim S3x2x256x128x128 (![] : Fin 0 → Fin S3x2x256x128x128.rank)
  reducesTo_S3x2x256x128x128_S_d0_1_2_3_4 : S3x2x256x128x128.ReducesTo [0, 1, 2, 3, 4] S_
  h_S_ : 0 < S_.numel
  bcast_S_S3x2x1x128x128 : S_.BroadcastsInDim S3x2x1x128x128 (![] : Fin 0 → Fin S3x2x1x128x128.rank)
  reducesTo_S3x2x1x128x128_S_d0_1_2_3_4 : S3x2x1x128x128.ReducesTo [0, 1, 2, 3, 4] S_

variable [Facts]

def fn {F : FTy → Type} [FloatOps F] (main_arg0 : FVec F S3x2x256x128x128 .f32) (main_arg1 : IVec S3x2x1x128x128 32) : IVec S_ 1 :=
  let main_v0 : FVec F S3x2x256x128x128 .f32 := Host.absf main_arg0
  let main_cst : FVec F S_ .f32 := constant S_ .f32 0x7F800000#32
  let main_v1 : FVec F S3x2x256x128x128 .f32 := broadcastInDim S3x2x256x128x128 ![] bcast_S_S3x2x256x128x128 main_cst
  let main_v2 : IVec S3x2x256x128x128 1 := cmpf .olt main_v0 main_v1
  let main_c : IVec S_ 1 := constantI S_ 1 1#1
  let main_v3 : IVec S_ 1 := (fun x v => Host.reduce IntOp.andi x v reducesTo_S3x2x256x128x128_S_d0_1_2_3_4 h_S_) main_v2 main_c
  let main_c_0 : IVec S_ 32 := constantI S_ 32 0#32
  let main_v4 : IVec S3x2x1x128x128 32 := broadcastInDim S3x2x1x128x128 ![] bcast_S_S3x2x1x128x128 main_c_0
  let main_v5 : IVec S3x2x1x128x128 1 := cmpi .sge main_arg1 main_v4
  let main_c_1 : IVec S_ 32 := constantI S_ 32 19#32
  let main_v6 : IVec S3x2x1x128x128 32 := broadcastInDim S3x2x1x128x128 ![] bcast_S_S3x2x1x128x128 main_c_1
  let main_v7 : IVec S3x2x1x128x128 1 := cmpi .slt main_arg1 main_v6
  let main_v8 : IVec S3x2x1x128x128 1 := andi main_v5 main_v7
  let main_c_2 : IVec S_ 1 := constantI S_ 1 1#1
  let main_v9 : IVec S_ 1 := (fun x v => Host.reduce IntOp.andi x v reducesTo_S3x2x1x128x128_S_d0_1_2_3_4 h_S_) main_v8 main_c_2
  let main_v10 : IVec S_ 1 := andi main_v3 main_v9
  main_v10
-- ==== Kernel.lean ====
abbrev S3x2x256x128x128 : Shape := ⟨5, ![3, 2, 256, 128, 128]⟩
abbrev S3x2x1x128x128 : Shape := ⟨5, ![3, 2, 1, 128, 128]⟩
abbrev S2x8x128 : Shape := ⟨3, ![2, 8, 128]⟩
abbrev S3x1x256x8x128 : Shape := ⟨5, ![3, 1, 256, 8, 128]⟩
abbrev S3x1x1x8x128 : Shape := ⟨5, ![3, 1, 1, 8, 128]⟩
abbrev S1x8x128 : Shape := ⟨3, ![1, 8, 128]⟩
abbrev S8x128 : Shape := ⟨2, ![8, 128]⟩
abbrev S3x256x8x128 : Shape := ⟨4, ![3, 256, 8, 128]⟩
abbrev S3x8x128 : Shape := ⟨3, ![3, 8, 128]⟩
abbrev S3x1x8x128 : Shape := ⟨4, ![3, 1, 8, 128]⟩
abbrev S3x256x1024 : Shape := ⟨3, ![3, 256, 1024]⟩
abbrev S3x304x8x128 : Shape := ⟨4, ![3, 304, 8, 128]⟩
abbrev S3x304x1024 : Shape := ⟨3, ![3, 304, 1024]⟩
abbrev S3x256x304 : Shape := ⟨3, ![3, 256, 304]⟩
abbrev S3x304 : Shape := ⟨2, ![3, 304]⟩
abbrev S3x1x304 : Shape := ⟨3, ![3, 1, 304]⟩
abbrev S1x256x304 : Shape := ⟨3, ![1, 256, 304]⟩
abbrev S256x304 : Shape := ⟨2, ![256, 304]⟩
abbrev S304 : Shape := ⟨1, ![304]⟩
abbrev S1x304 : Shape := ⟨2, ![1, 304]⟩
abbrev S304x16 : Shape := ⟨2, ![304, 16]⟩
abbrev S1x16 : Shape := ⟨2, ![1, 16]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S3x2x256x128x128, .f32⟩
  | .hbm, ⟨1, _⟩ => ⟨S3x2x1x128x128, .i32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S3x1x256x8x128, .f32⟩
  | .local _ .vmem, ⟨1, _⟩ => ⟨S3x1x256x8x128, .f32⟩
  | .local _ .vmem, ⟨2, _⟩ => ⟨S3x1x1x8x128, .i32⟩
  | .local _ .vmem, ⟨3, _⟩ => ⟨S3x1x1x8x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S3x2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S3x1x256x8x128_S3x1x256x8x128_0_0_0_0_0 : ∀ a, (![0, 0, 0, 0, 0] : Fin 5 → Nat) a + S3x1x256x8x128.size a ≤ S3x1x256x8x128.size a
  h_S3x1x256x8x128 : 0 < S3x1x256x8x128.numel
  shapeCasts_S3x1x256x8x128_S3x256x8x128 : S3x1x256x8x128.ShapeCasts S3x256x8x128
  inb_S3x1x1x8x128_S3x1x1x8x128_0_0_0_0_0 : ∀ a, (![0, 0, 0, 0, 0] : Fin 5 → Nat) a + S3x1x1x8x128.size a ≤ S3x1x1x8x128.size a
  h_S3x1x1x8x128 : 0 < S3x1x1x8x128.numel
  shapeCasts_S3x1x1x8x128_S3x8x128 : S3x1x1x8x128.ShapeCasts S3x8x128
  reduces_S3x256x8x128_S3x8x128 : S3x256x8x128.Reduces [1] S3x8x128
  shapeCasts_S3x8x128_S3x1x8x128 : S3x8x128.ShapeCasts S3x1x8x128
  broadcasts_S3x1x8x128_S3x256x8x128 : S3x1x8x128.Broadcasts S3x256x8x128
  iota_S8x128_d1_w32 : S8x128.Iotas .tc 32 [1]
  natLt_1_32 : 1 < 32
  broadcasts_S1x8x128_S3x8x128 : S1x8x128.Broadcasts S3x8x128
  shapeCasts_S3x256x8x128_S3x256x1024 : S3x256x8x128.ShapeCasts S3x256x1024
  bitsLt_bf16_f32 : FTy.bits .bf16 < FTy.bits .f32
  iota_S3x304x8x128_d1_w32 : S3x304x8x128.Iotas .tc 32 [1]
  broadcasts_S3x1x8x128_S3x304x8x128 : S3x1x8x128.Broadcasts S3x304x8x128
  shapeCasts_S3x304x8x128_S3x304x1024 : S3x304x8x128.ShapeCasts S3x304x1024
  reduces_S3x304x1024_S3x304 : S3x304x1024.Reduces [2] S3x304
  shapeCasts_S3x304_S3x1x304 : S3x304.ShapeCasts S3x1x304
  broadcasts_S3x1x304_S3x256x304 : S3x1x304.Broadcasts S3x256x304
  slices_S3x256x304_o0_0_0_S1x256x304 : S3x256x304.Slices ![0, 0, 0] S1x256x304
  shapeCasts_S1x256x304_S256x304 : S1x256x304.ShapeCasts S256x304
  slices_S3x256x304_o1_0_0_S1x256x304 : S3x256x304.Slices ![1, 0, 0] S1x256x304
  slices_S3x256x304_o2_0_0_S1x256x304 : S3x256x304.Slices ![2, 0, 0] S1x256x304
  reduces_S256x304_S304 : S256x304.Reduces [0] S304
  slices_S3x304_o0_0_S1x304 : S3x304.Slices ![0, 0] S1x304
  shapeCasts_S1x304_S304 : S1x304.ShapeCasts S304
  slices_S3x304_o1_0_S1x304 : S3x304.Slices ![1, 0] S1x304
  slices_S3x304_o2_0_S1x304 : S3x304.Slices ![2, 0] S1x304
  iota_S304x16_d0_w32 : S304x16.Iotas .tc 32 [0]
  iota_S304x16_d1_w32 : S304x16.Iotas .tc 32 [1]
  shapeCasts_S304_S1x304 : S304.ShapeCasts S1x304
  reduces_S1x16_S1 : S1x16.Reduces [1] S1
  shapeCasts_S1_S1x1 : S1.ShapeCasts S1x1
  reduces_S1x1_S1 : S1x1.Reduces [0] S1
  shapeCasts_S1x1_S1x1 : S1x1.ShapeCasts S1x1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S3x256x1024_S3x304x1024_S3x256x304_2_2_1_1_0_0_wf : DotDims.WF S3x256x1024 S3x304x1024 S3x256x304 [2] [2] [1] [1] [0] [0]
  dot_S1x304_S304x16_S1x16_1_0_0_1_n_n_wf : DotDims.WF S1x304 S304x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x256x8x128.size a ≤ S3x2x256x128x128.size a
  hwx0_0 : ∀ i : grid0.Coords, EltTy.bits .f32 = 32 ∨ (Rect.block (s := S3x2x256x128x128) S3x1x256x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1x1x8x128.size a ≤ S3x2x1x128x128.size a
  hwx0_1 : ∀ i : grid0.Coords, EltTy.bits .i32 = 32 ∨ (Rect.block (s := S3x2x1x128x128) S3x1x1x8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S3x256x1024_S3x304x1024_S3x256x304_2_2_1_1_0_0 : DotDims S3x256x1024 S3x304x1024 S3x256x304 where
  lhsContracting := [2]
  rhsContracting := [2]
  lhsNonContracting := [1]
  rhsNonContracting := [1]
  lhsBatch := [0]
  rhsBatch := [0]
  wf := dot_S3x256x1024_S3x304x1024_S3x256x304_2_2_1_1_0_0_wf
def dot_S1x304_S304x16_S1x16_1_0_0_1_n_n : DotDims S1x304 S304x16 S1x16 where
  lhsContracting := [1]
  rhsContracting := [0]
  lhsNonContracting := [0]
  rhsNonContracting := [1]
  lhsBatch := []
  rhsBatch := []
  wf := dot_S1x304_S304x16_S1x16_1_0_0_1_n_n_wf

abbrev win0_0 : Pipeline.Window sig grid0 :=
  Pipeline.Window.ofSpec (Memref.whole main_arg0) S3x1x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1x1x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x2x256x128x128 : Shape := ⟨5, ![3, 2, 256, 128, 128]⟩
abbrev S3x2x1x128x128 : Shape := ⟨5, ![3, 2, 1, 128, 128]⟩
abbrev S_ : Shape := ⟨0, ![]⟩
abbrev S3x2x128x128 : Shape := ⟨4, ![3, 2, 128, 128]⟩
abbrev S3x2x256x16x8x16x8 : Shape := ⟨7, ![3, 2, 256, 16, 8, 16, 8]⟩
abbrev S3x2x16x16x256x8x8 : Shape := ⟨7, ![3, 2, 16, 16, 256, 8, 8]⟩
abbrev S3x2x256x256x64 : Shape := ⟨5, ![3, 2, 256, 256, 64]⟩
abbrev S3x2x1x16x8x16x8 : Shape := ⟨7, ![3, 2, 1, 16, 8, 16, 8]⟩
abbrev S3x2x16x16x1x8x8 : Shape := ⟨7, ![3, 2, 16, 16, 1, 8, 8]⟩
abbrev S3x2x256x1x64 : Shape := ⟨5, ![3, 2, 256, 1, 64]⟩
abbrev S3x2x256x64 : Shape := ⟨4, ![3, 2, 256, 64]⟩
abbrev S3x2x256x64x1 : Shape := ⟨5, ![3, 2, 256, 64, 1]⟩
abbrev S19 : Shape := ⟨1, ![19]⟩
abbrev S1x1x1x1x19 : Shape := ⟨5, ![1, 1, 1, 1, 19]⟩
abbrev S3x2x256x64x19 : Shape := ⟨5, ![3, 2, 256, 64, 19]⟩
abbrev S3x2x256x19 : Shape := ⟨4, ![3, 2, 256, 19]⟩
abbrev S3x2x256x19x256 : Shape := ⟨5, ![3, 2, 256, 19, 256]⟩
abbrev S3x2x256x19x1 : Shape := ⟨5, ![3, 2, 256, 19, 1]⟩
abbrev S2x256x19 : Shape := ⟨3, ![2, 256, 19]⟩
abbrev S1x2x256x19x256 : Shape := ⟨5, ![1, 2, 256, 19, 256]⟩
abbrev S1x2x256x19 : Shape := ⟨4, ![1, 2, 256, 19]⟩
abbrev S2x256 : Shape := ⟨2, ![2, 256]⟩

abbrev nBuf : Space → Nat
  | .hbm => 95
  | .vmem => 0
  | .smem => 0
  | _ => 0

abbrev bufTy : (tb : Table) → Fin (tcTables nBuf tb) → BufTy
  | .hbm, ⟨0, _⟩ => ⟨S3x2x256x128x128, .f32⟩
  | .hbm, ⟨1, _⟩ => ⟨S3x2x1x128x128, .i32⟩
  | .hbm, ⟨2, _⟩ => ⟨S3x2x256x128x128, .f32⟩
  | .hbm, ⟨3, _⟩ => ⟨S_, .f32⟩
  | .hbm, ⟨4, _⟩ => ⟨S3x2x128x128, .f32⟩
  | .hbm, ⟨5, _⟩ => ⟨S3x2x1x128x128, .f32⟩
  | .hbm, ⟨6, _⟩ => ⟨S3x2x1x128x128, .f32⟩
  | .hbm, ⟨7, _⟩ => ⟨S_, .f32⟩
  | .hbm, ⟨8, _⟩ => ⟨S3x2x1x128x128, .f32⟩
  | .hbm, ⟨9, _⟩ => ⟨S3x2x1x128x128, .f32⟩
  | .hbm, ⟨10, _⟩ => ⟨S3x2x256x128x128, .f32⟩
  | .hbm, ⟨11, _⟩ => ⟨S3x2x256x128x128, .f32⟩
  | .hbm, ⟨12, _⟩ => ⟨S3x2x256x16x8x16x8, .f32⟩
  | .hbm, ⟨13, _⟩ => ⟨S3x2x16x16x256x8x8, .f32⟩
  | .hbm, ⟨14, _⟩ => ⟨S3x2x256x256x64, .f32⟩
  | .hbm, ⟨15, _⟩ => ⟨S3x2x1x16x8x16x8, .i32⟩
  | .hbm, ⟨16, _⟩ => ⟨S3x2x16x16x1x8x8, .i32⟩
  | .hbm, ⟨17, _⟩ => ⟨S3x2x256x1x64, .i32⟩
  | .hbm, ⟨18, _⟩ => ⟨S3x2x256x64, .i32⟩
  | .hbm, ⟨19, _⟩ => ⟨S3x2x256x64x1, .i32⟩
  | .hbm, ⟨20, _⟩ => ⟨S19, .i32⟩
  | .hbm, ⟨21, _⟩ => ⟨S1x1x1x1x19, .i32⟩
  | .hbm, ⟨22, _⟩ => ⟨S3x2x256x64x19, .i32⟩
  | .hbm, ⟨23, _⟩ => ⟨S3x2x256x64x19, .i32⟩
  | .hbm, ⟨24, _⟩ => ⟨S3x2x256x64x19, .i1⟩
  | .hbm, ⟨25, _⟩ => ⟨S3x2x256x64x19, .f32⟩
  | .hbm, ⟨26, _⟩ => ⟨S_, .f32⟩
  | .hbm, ⟨27, _⟩ => ⟨S3x2x256x19, .f32⟩
  | .hbm, ⟨28, _⟩ => ⟨S3x2x256x19x256, .f32⟩
  | .hbm, ⟨29, _⟩ => ⟨S_, .f32⟩
  | .hbm, ⟨30, _⟩ => ⟨S3x2x256x19, .f32⟩
  | .hbm, ⟨31, _⟩ => ⟨S3x2x256x19, .f32⟩
  | .hbm, ⟨32, _⟩ => ⟨S3x2x256x19x1, .f32⟩
  | .hbm, ⟨33, _⟩ => ⟨S3x2x256x19x256, .f32⟩
  | .hbm, ⟨34, _⟩ => ⟨S3x2x256x19x256, .f32⟩
  | .hbm, ⟨35, _⟩ => ⟨S_, .f32⟩
  | .hbm, ⟨36, _⟩ => ⟨S3x2x256x19, .f32⟩
  | .hbm, ⟨37, _⟩ => ⟨S3x2x256x19, .i1⟩
  | .hbm, ⟨38, _⟩ => ⟨S_, .i1⟩
  | .hbm, ⟨39, _⟩ => ⟨S2x256x19, .i1⟩
  | .hbm, ⟨40, _⟩ => ⟨S2x256x19, .f32⟩
  | .hbm, ⟨41, _⟩ => ⟨S1x2x256x19x256, .f32⟩
  | .hbm, ⟨42, _⟩ => ⟨S1x2x256x19x256, .f32⟩
  | .hbm, ⟨43, _⟩ => ⟨S_, .f32⟩
  | .hbm, ⟨44, _⟩ => ⟨S1x2x256x19x256, .f32⟩
  | .hbm, ⟨45, _⟩ => ⟨S1x2x256x19x256, .f32⟩
  | .hbm, ⟨46, _⟩ => ⟨S1x2x256x19x256, .f32⟩
  | .hbm, ⟨47, _⟩ => ⟨S1x2x256x19x256, .f32⟩
  | .hbm, ⟨48, _⟩ => ⟨S1x2x256x19x256, .f32⟩
  | .hbm, ⟨49, _⟩ => ⟨S1x2x256x19x256, .f32⟩
  | .hbm, ⟨50, _⟩ => ⟨S_, .f32⟩
  | .hbm, ⟨51, _⟩ => ⟨S1x2x256x19, .f32⟩
  | .hbm, ⟨52, _⟩ => ⟨S_, .f32⟩
  | .hbm, ⟨53, _⟩ => ⟨S1x2x256x19, .f32⟩
  | .hbm, ⟨54, _⟩ => ⟨S1x2x256x19, .f32⟩
  | .hbm, ⟨55, _⟩ => ⟨S_, .f32⟩
  | .hbm, ⟨56, _⟩ => ⟨S2x256x19, .f32⟩
  | .hbm, ⟨57, _⟩ => ⟨S2x256x19, .f32⟩
  | .hbm, ⟨58, _⟩ => ⟨S_, .f32⟩
  | .hbm, ⟨59, _⟩ => ⟨S2x256, .f32⟩
  | .hbm, ⟨60, _⟩ => ⟨S_, .f32⟩
  | .hbm, ⟨61, _⟩ => ⟨S2x256, .f32⟩
  | .hbm, ⟨62, _⟩ => ⟨S_, .f32⟩
  | .hbm, ⟨63, _⟩ => ⟨S2x256, .f32⟩
  | .hbm, ⟨64, _⟩ => ⟨S2x256, .f32⟩
  | .hbm, ⟨65, _⟩ => ⟨S_, .f32⟩
  | .hbm, ⟨66, _⟩ => ⟨S2x256, .f32⟩
  | .hbm, ⟨67, _⟩ => ⟨S2x256, .f32⟩
  | .hbm, ⟨68, _⟩ => ⟨S_, .f32⟩
  | .hbm, ⟨69, _⟩ => ⟨S2x256, .f32⟩
  | .hbm, ⟨70, _⟩ => ⟨S2x256, .i1⟩
  | .hbm, ⟨71, _⟩ => ⟨S2x256, .f32⟩
  | .hbm, ⟨72, _⟩ => ⟨S_, .f32⟩
  | .hbm, ⟨73, _⟩ => ⟨S_, .f32⟩
  | .hbm, ⟨74, _⟩ => ⟨S2x256, .f32⟩
  | .hbm, ⟨75, _⟩ => ⟨S2x256, .f32⟩
  | .hbm, ⟨76, _⟩ => ⟨S_, .f32⟩
  | .hbm, ⟨77, _⟩ => ⟨S2x256, .f32⟩
  | .hbm, ⟨78, _⟩ => ⟨S2x256, .i1⟩
  | .hbm, ⟨79, _⟩ => ⟨S2x256, .i32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S3x2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_call2_v0 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  reducesTo_S3x2x256x128x128_S3x2x128x128_d2 : S3x2x256x128x128.ReducesTo [2] S3x2x128x128
  h_S_ : 0 < S_.numel
  bcast_S3x2x128x128_S3x2x1x128x128_0_1_3_4 : S3x2x128x128.BroadcastsInDim S3x2x1x128x128 (![0, 1, 3, 4] : Fin 4 → Fin S3x2x1x128x128.rank)
  bcast_S_S3x2x1x128x128 : S_.BroadcastsInDim S3x2x1x128x128 (![] : Fin 0 → Fin S3x2x1x128x128.rank)
  bcast_S3x2x1x128x128_S3x2x256x128x128_0_1_2_3_4 : S3x2x1x128x128.BroadcastsInDim S3x2x256x128x128 (![0, 1, 2, 3, 4] : Fin 5 → Fin S3x2x256x128x128.rank)
  shapeCasts_S3x2x256x128x128_S3x2x256x16x8x16x8 : S3x2x256x128x128.ShapeCasts S3x2x256x16x8x16x8
  transposes_S3x2x256x16x8x16x8_S3x2x16x16x256x8x8_0_1_3_5_2_4_6 : S3x2x256x16x8x16x8.Transposes [0, 1, 3, 5, 2, 4, 6] S3x2x16x16x256x8x8
  shapeCasts_S3x2x16x16x256x8x8_S3x2x256x256x64 : S3x2x16x16x256x8x8.ShapeCasts S3x2x256x256x64
  shapeCasts_S3x2x1x128x128_S3x2x1x16x8x16x8 : S3x2x1x128x128.ShapeCasts S3x2x1x16x8x16x8
  transposes_S3x2x1x16x8x16x8_S3x2x16x16x1x8x8_0_1_3_5_2_4_6 : S3x2x1x16x8x16x8.Transposes [0, 1, 3, 5, 2, 4, 6] S3x2x16x16x1x8x8
  shapeCasts_S3x2x16x16x1x8x8_S3x2x256x1x64 : S3x2x16x16x1x8x8.ShapeCasts S3x2x256x1x64
  shapeCasts_S3x2x256x1x64_S3x2x256x64 : S3x2x256x1x64.ShapeCasts S3x2x256x64
  bcast_S3x2x256x64_S3x2x256x64x1_0_1_2_3 : S3x2x256x64.BroadcastsInDim S3x2x256x64x1 (![0, 1, 2, 3] : Fin 4 → Fin S3x2x256x64x1.rank)
  bcast_S19_S1x1x1x1x19_4 : S19.BroadcastsInDim S1x1x1x1x19 (![4] : Fin 1 → Fin S1x1x1x1x19.rank)
  bcast_S3x2x256x64x1_S3x2x256x64x19_0_1_2_3_4 : S3x2x256x64x1.BroadcastsInDim S3x2x256x64x19 (![0, 1, 2, 3, 4] : Fin 5 → Fin S3x2x256x64x19.rank)
  bcast_S1x1x1x1x19_S3x2x256x64x19_0_1_2_3_4 : S1x1x1x1x19.BroadcastsInDim S3x2x256x64x19 (![0, 1, 2, 3, 4] : Fin 5 → Fin S3x2x256x64x19.rank)
  reducesTo_S3x2x256x64x19_S3x2x256x19_d3 : S3x2x256x64x19.ReducesTo [3] S3x2x256x19
  bcast_S_S3x2x256x19 : S_.BroadcastsInDim S3x2x256x19 (![] : Fin 0 → Fin S3x2x256x19.rank)
  bcast_S3x2x256x19_S3x2x256x19x1_0_1_2_3 : S3x2x256x19.BroadcastsInDim S3x2x256x19x1 (![0, 1, 2, 3] : Fin 4 → Fin S3x2x256x19x1.rank)
  bcast_S3x2x256x19x1_S3x2x256x19x256_0_1_2_3_4 : S3x2x256x19x1.BroadcastsInDim S3x2x256x19x256 (![0, 1, 2, 3, 4] : Fin 5 → Fin S3x2x256x19x256.rank)
  reducesTo_S3x2x256x19_S2x256x19_d0 : S3x2x256x19.ReducesTo [0] S2x256x19
  slices_S3x2x256x19x256_S1x2x256x19x256_0_0_0_0_0 : S3x2x256x19x256.Slices ![0, 0, 0, 0, 0] S1x2x256x19x256
  slices_S3x2x256x19x256_S1x2x256x19x256_1_0_0_0_0 : S3x2x256x19x256.Slices ![1, 0, 0, 0, 0] S1x2x256x19x256
  bcast_S_S1x2x256x19x256 : S_.BroadcastsInDim S1x2x256x19x256 (![] : Fin 0 → Fin S1x2x256x19x256.rank)
  slices_S3x2x256x19x256_S1x2x256x19x256_2_0_0_0_0 : S3x2x256x19x256.Slices ![2, 0, 0, 0, 0] S1x2x256x19x256
  reducesTo_S1x2x256x19x256_S1x2x256x19_d4 : S1x2x256x19x256.ReducesTo [4] S1x2x256x19
  bcast_S_S1x2x256x19 : S_.BroadcastsInDim S1x2x256x19 (![] : Fin 0 → Fin S1x2x256x19.rank)
  reducesTo_S1x2x256x19_S2x256x19_d0 : S1x2x256x19.ReducesTo [0] S2x256x19
  reducesTo_S2x256x19_S2x256_d2 : S2x256x19.ReducesTo [2] S2x256
  bcast_S_S2x256 : S_.BroadcastsInDim S2x256 (![] : Fin 0 → Fin S2x256.rank)
  natLt_1_32 : 1 < 32
  reducesTo_S2x256_S_d0_1 : S2x256.ReducesTo [0, 1] S_
  dot_S3x2x256x64x19_S3x2x256x256x64_S3x2x256x19x256_3_4_4_3_012_012_wf : DotDims.WF S3x2x256x64x19 S3x2x256x256x64 S3x2x256x19x256 [3] [4] [4] [3] [0, 1, 2] [0, 1, 2]

variable [Facts₀]

def dot_S3x2x256x64x19_S3x2x256x256x64_S3x2x256x19x256_3_4_4_3_012_012 : DotDims S3x2x256x64x19 S3x2x256x256x64 S3x2x256x19x256 where
  lhsContracting := [3]
  rhsContracting := [4]
  lhsNonContracting := [4]
  rhsNonContracting := [3]
  lhsBatch := [0, 1, 2]
  rhsBatch := [0, 1, 2]
  wf := dot_S3x2x256x64x19_S3x2x256x256x64_S3x2x256x19x256_3_4_4_3_012_012_wf

class Facts : Prop extends Facts₀ where

variable [Facts]
-- ==== Proof.KernelPieces.lean ====
import proofs.«155187_j89309549953719_2_alg».proof.Proof.Gen.KernelIdeal.Frame
import Idealize.ShloMosaic.Lib.Pipeline.Value
import Idealize.ShloMosaic.Lib.Tactic

/-!
# What one grid point leaves in the two accumulator blocks

The kernel visits the grid points (image n, row of blocks rb) in order. At a point it computes two numbers from the
point's input blocks, the summed block losses of the row and the number of its blocks that have a valid class,
and adds them to every entry of the two [1,8,128] accumulator blocks; at the first point of an image (rb = 0) the
accumulators are first set to zero. So after a point an accumulator holds the old accumulator (or zero) plus the
point's number, entry by entry. The two numbers are named here as functions of the input blocks; their values are
computed elsewhere.
-/

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The counts of every (frame, column block, class) among the point's labels. -/
abbrev counts (x1 : Vec F S3x1x1x8x128 .i32) : FVec F S3x304 .f32 := k0_pay10 (F := F) (k0_pay5 (F := F) x1) k0_pay7 k0_pay8
/-- The prototype distances of every (column block, class). -/
abbrev dists (x0 : Vec F S3x1x256x8x128 .f32) (x1 : Vec F S3x1x1x8x128 .i32) : FVec F S304 .f32 :=
  k0_pay11 (F := F) (k0_pay5 (F := F) x1) (k0_pay6 (F := F) x0) k0_pay7 k0_pay8
abbrev seen0 (x1 : Vec F S3x1x1x8x128 .i32) : IVec S304 1 := k0_pay12 (F := F) (k0_pay5 (F := F) x1) k0_pay7 k0_pay8
abbrev seen1 (x1 : Vec F S3x1x1x8x128 .i32) : IVec S304 1 := k0_pay13 (F := F) (k0_pay5 (F := F) x1) k0_pay7 k0_pay8

/-- The loss accumulator after the point: the old accumulator plus the row's summed block losses. -/
def lossAcc (x0 : Vec F S3x1x256x8x128 .f32) (x1 : Vec F S3x1x1x8x128 .i32) (acc : Vec F S1x8x128 .f32) : Vec F S1x8x128 .f32 :=
  k0_pay1 (F := F) (k0_pay16 (counts x1) (dists x0 x1) (seen0 x1) (seen1 x1)) (k0_pay17 (counts x1) (seen0 x1) (seen1 x1))
    (k0_pay18 (counts x1) (seen0 x1) (seen1 x1)) (k0_pay19 (F := F)) acc

/-- The hit accumulator after the point: the old accumulator plus the number of the row's blocks with a valid class. -/
def hitAcc (x1 : Vec F S3x1x1x8x128 .i32) (acc : Vec F S1x8x128 .f32) : Vec F S1x8x128 .f32 :=
  k0_pay2 (F := F) (k0_pay17 (counts x1) (seen0 x1) (seen1 x1)) acc

/-- A later point of an image: the loss accumulator is read, increased and stored. -/
theorem out_B_2 (c : Dev nD) (i : grid0.Coords) (arg2 : Memref sig .tc .vmem S3x1x256x8x128 .f32) (harg2 : arg2.IsWhole) (arg3 : Memref sig .tc .vmem S3x1x1x8x128 .i32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S3x1x256x8x128 .f32) (x1 : Vec F S3x1x1x8x128 .i32) (xo2 : Vec F S1x8x128 .f32) (xo3 : Vec F S1x8x128 .f32) :
    out0_B_2 c i arg2 harg2 arg3 harg3 arg4 harg4 arg5 harg5 hc0 x0 x1 xo2 xo3 = lossAcc x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  unfold lossAcc
  simp only [View.readAt_eq_ld, harg2.read_unread, harg3.read_unread, harg4.read_unread,
    View.ld_unit_zero (S := S1x8x128) hz3, View.ld_unit_zero (S := S3x1x256x8x128) hz5, View.ld_unit_zero (S := S3x1x1x8x128) hz5]

/-- A later point of an image: the hit accumulator is read, increased and stored. -/
theorem out_B_3 (c : Dev nD) (i : grid0.Coords) (arg2 : Memref sig .tc .vmem S3x1x256x8x128 .f32) (harg2 : arg2.IsWhole) (arg3 : Memref sig .tc .vmem S3x1x1x8x128 .i32) (harg3 : arg3.IsWhole) (arg4 : Memref sig .tc .vmem S1x8x128 .f32) (harg4 : arg4.IsWhole) (arg5 : Memref sig .tc .vmem S1x8x128 .f32) (harg5 : arg5.IsWhole) (hc0 : ¬cond0_0 i)
    (x0 : Vec F S3x1x256x8x128 .f32) (x1 : Vec F S3x1x1x8x128 .i32) (xo2 : Vec F S1x8x128 .f32) (xo3 : Vec F S1x8x128 .f32) :
    out0_B_3 c i arg2 harg2 arg3 harg3 arg4 harg4 arg5 harg5 hc0 x0 x1 xo2 xo3 = hitAcc x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  unfold hitAcc
  simp only [View.readAt_eq_ld, harg3.read_unread, harg5.read_unread,
    View.ld_unit_zero (S := S1x8x128) hz3, View.ld_unit_zero (S := S3x1x1x8x128) hz5]

/-- The first point of an image: the loss accumulator is set to zero, read back, increased and stored. -/
theorem out_A_2 (c : Dev nD) (i : grid0.Coords) (arg2 : Memref sig .tc .vmem S3x1x256x8x128 .f32) (harg2 : arg2.IsWhole) (arg3 : Memref sig .tc .vmem S3x1x1x8x128 .i32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S3x1x256x8x128 .f32) (x1 : Vec F S3x1x1x8x128 .i32) :
    out0_A_2 c i arg2 harg2 arg3 harg3 arg4 harg4 arg5 harg5 hc0 x0 x1 = lossAcc x0 x1 (k0_pay3 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x8x128) hz3, View.readCov_unit_zero (S := S1x8x128) _ hz3]
  unfold lossAcc
  simp only [View.readAt_eq_ld, harg2.read_unread, harg3.read_unread,
    View.ld_unit_zero (S := S3x1x256x8x128) hz5, View.ld_unit_zero (S := S3x1x1x8x128) hz5]

/-- The first point of an image: the hit accumulator is set to zero, read back, increased and stored. -/
theorem out_A_3 (c : Dev nD) (i : grid0.Coords) (arg2 : Memref sig .tc .vmem S3x1x256x8x128 .f32) (harg2 : arg2.IsWhole) (arg3 : Memref sig .tc .vmem S3x1x1x8x128 .i32) (harg3 : arg3.IsWhole) (arg4 : Memref sig .tc .vmem S1x8x128 .f32) (harg4 : arg4.IsWhole) (arg5 : Memref sig .tc .vmem S1x8x128 .f32) (harg5 : arg5.IsWhole) (hc0 : cond0_0 i)
    (x0 : Vec F S3x1x256x8x128 .f32) (x1 : Vec F S3x1x1x8x128 .i32) :
    out0_A_3 c i arg2 harg2 arg3 harg3 arg4 harg4 arg5 harg5 hc0 x0 x1 = hitAcc x1 (k0_pay4 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x8x128) hz3, View.readCov_unit_zero (S := S1x8x128) _ hz3]
  unfold hitAcc
  simp only [View.readAt_eq_ld, harg3.read_unread, View.ld_unit_zero (S := S3x1x1x8x128) hz5]

end Cert.KernelIdeal.Pieces

end
-- ==== Proof.Spec.lean ====
import Idealize.ShloMosaic.PureOps.Ideal
import Idealize.ShloMosaic.Lib.ValueIdx

/-!
# The temporal prototype loss of three frames, block by block

X holds three frames of two images with 256 channels on a 128 x 128 pixel grid, L a class label (a 32-bit
word) per frame, image and pixel. The pixel grid is cut into 16 x 16 blocks of 8 x 8 pixels.

* Every pixel's channel vector is scaled to unit length (the length floored at a small positive constant).
* For a frame, a block and a class k < 19, the prototype is the mean of the unit vectors of the block's pixels
  labelled k (the number of such pixels floored at one).
* A class is valid in a block when it occurs there in all three frames.
* A block's loss is the mean over its valid classes of the mean over channels of the absolute second difference
  p0 - 2 p1 + p2 of the three prototypes; a block with no valid class contributes nothing.
* The result is the mean of the block losses over the blocks that have a valid class.

Everything is stated on the extended reals with the exact operations; sums are finite sums in a commutative
monoid, so their order never matters.
-/

noncomputable section

namespace Cert.Spec

open Idealize.ShloMosaic Idealize.ShloMosaic.ValueIdx

/-- frames x images x channels x rows x columns -/
abbrev SX : Shape := ⟨5, ![3, 2, 256, 128, 128]⟩
/-- frames x images x 1 x rows x columns -/
abbrev SL : Shape := ⟨5, ![3, 2, 1, 128, 128]⟩

/-- Pixel i of block b along an axis of 16 blocks of 8 pixels: 8 b + i. -/
def px (b : Fin 16) (i : Fin 8) : Fin 128 := ⟨8 * b.val + i.val, by omega⟩

/-- Block (hb, wb) in row-major numbering of the 16 x 16 blocks: 16 hb + wb. -/
def blk (hb wb : Fin 16) : Fin 256 := ⟨16 * hb.val + wb.val, by omega⟩

/-- Pixel (i, j) of a block in row-major numbering of its 8 x 8 pixels: 8 i + j. -/
def pix (i j : Fin 8) : Fin 64 := ⟨8 * i.val + j.val, by omega⟩

/-- Class k of column block cb in the joint numbering of (column block, class) pairs: 19 cb + k. -/
def cls (cb : Fin 16) (k : Fin 19) : Fin 304 := ⟨19 * cb.val + k.val, by omega⟩

/-- The floor of a channel vector's length (the word of 1e-12 in single precision). -/
def eps : EReal := Ideal.ofBits .f32 0x2B8CBCCC#32
def one : EReal := Ideal.ofBits .f32 0x3F800000#32
def two : EReal := Ideal.ofBits .f32 0x40000000#32
def nChan : EReal := Ideal.ofBits .f32 0x43800000#32

variable (X : SX.Idx → EReal) (L : SL.Idx → BitVec 32)

/-- The floored length of pixel (h, w)'s channel vector. -/
def len (f : Fin 3) (n : Fin 2) (h w : Fin 128) : EReal :=
  max (Ideal.sqrt (∑ c : Fin 256, X (ix5 f n c h w) * X (ix5 f n c h w))) eps

/-- Channel c of the pixel's unit vector. -/
def dir (f : Fin 3) (n : Fin 2) (c : Fin 256) (h w : Fin 128) : EReal :=
  Ideal.div (X (ix5 f n c h w)) (len X f n h w)

/-- 1 when the pixel is labelled k, else 0. -/
def hot (f : Fin 3) (n : Fin 2) (h w : Fin 128) (k : Fin 19) : EReal :=
  if L (ix5 f n 0 h w) = BitVec.ofNat 32 k.val then 1 else 0

/-- How many pixels of block (hb, wb) are labelled k in frame f. -/
def cnt (f : Fin 3) (n : Fin 2) (hb wb : Fin 16) (k : Fin 19) : EReal :=
  ∑ i : Fin 8, ∑ j : Fin 8, hot L f n (px hb i) (px wb j) k

/-- The sum of channel c of the unit vectors of those pixels. -/
def psum (f : Fin 3) (n : Fin 2) (hb wb : Fin 16) (k : Fin 19) (c : Fin 256) : EReal :=
  ∑ i : Fin 8, ∑ j : Fin 8, hot L f n (px hb i) (px wb j) k * dir X f n c (px hb i) (px wb j)

/-- The prototype: their mean. -/
def proto (f : Fin 3) (n : Fin 2) (hb wb : Fin 16) (k : Fin 19) (c : Fin 256) : EReal :=
  Ideal.div (psum X L f n hb wb k c) (max (cnt L f n hb wb k) one)

/-- The second difference of the three frames' prototypes. -/
def diff2 (n : Fin 2) (hb wb : Fin 16) (k : Fin 19) (c : Fin 256) : EReal :=
  proto X L 0 n hb wb k c - two * proto X L 1 n hb wb k c + proto X L 2 n hb wb k c

/-- Its mean absolute value over the channels. -/
def l1 (n : Fin 2) (hb wb : Fin 16) (k : Fin 19) : EReal :=
  Ideal.div (∑ c : Fin 256, max (diff2 X L n hb wb k c) (-diff2 X L n hb wb k c)) nChan

/-- 1 when class k occurs in the block in every frame, else 0. -/
def valid (n : Fin 2) (hb wb : Fin 16) (k : Fin 19) : EReal :=
  if ∀ f : Fin 3, 0 < cnt L f n hb wb k then 1 else 0

/-- The number of valid classes of the block. -/
def ncls (n : Fin 2) (hb wb : Fin 16) : EReal := ∑ k : Fin 19, valid L n hb wb k

/-- The valid classes' summed distances. -/
def perProp (n : Fin 2) (hb wb : Fin 16) : EReal := ∑ k : Fin 19, l1 X L n hb wb k * valid L n hb wb k

/-- The block's loss. -/
def blockLoss (n : Fin 2) (hb wb : Fin 16) : EReal :=
  if 0 < ncls L n hb wb then Ideal.div (perProp X L n hb wb) (max (ncls L n hb wb) one * one) else 0

/-- 1 when the block has a valid class. -/
def blockHit (n : Fin 2) (hb wb : Fin 16) : EReal := if 0 < ncls L n hb wb then 1 else 0

/-- The summed block losses of image n's row of blocks hb. -/
def rowLoss (n : Fin 2) (hb : Fin 16) : EReal := ∑ wb : Fin 16, blockLoss X L n hb wb
/-- How many blocks of that row have a valid class. -/
def rowHit (n : Fin 2) (hb : Fin 16) : EReal := ∑ wb : Fin 16, blockHit L n hb wb

def total : EReal := ∑ n : Fin 2, ∑ hb : Fin 16, rowLoss X L n hb
def hits : EReal := ∑ n : Fin 2, ∑ hb : Fin 16, rowHit L n hb

/-- The loss: the mean block loss over the blocks with a valid class. -/
def loss : EReal := (if 0 < hits L then Ideal.div (total X L) (max (hits L) one) else 0) * one

/-- The labels are class labels: every label is one of the 19 classes. -/
def Labelled : Prop := ∀ i : SL.Idx, ∃ k : Fin 19, L i = BitVec.ofNat 32 k.val

end Cert.Spec

end
-- ==== Proof.KernelAcc.lean ====
import proofs.«155187_j89309549953719_2_alg».proof.Proof.KernelPieces
import proofs.«155187_j89309549953719_2_alg».proof.Proof.Spec
import Idealize.ShloMosaic.PureOps.Ideal.Laws

/-!
# The accumulators over the grid

Grid point t = 16 n + rb sees image n and its row of blocks rb. After the point the loss accumulator holds, at every
entry, the summed block losses of the rows 0 .. rb of image n, and the hit accumulator the number of their blocks with
a valid class; the accumulators are written back after the last row of an image, so the two result arrays end holding,
at every entry of slab n, the sums over all sixteen rows of image n.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pieces

/-- Where the windows' blocks sit at point t: the inputs at image t / 16 and row of blocks t % 16, the outputs at slab t / 16. -/
theorem idx_facts : ∀ t : Fin cfg0.N,
    win0_0.index t (0 : Fin 5) = 0 ∧ win0_0.index t (1 : Fin 5) = t.val / 16 ∧ win0_0.index t (2 : Fin 5) = 0
    ∧ win0_0.index t (3 : Fin 5) = t.val % 16 ∧ win0_0.index t (4 : Fin 5) = 0
    ∧ win0_1.index t (0 : Fin 5) = 0 ∧ win0_1.index t (1 : Fin 5) = t.val / 16 ∧ win0_1.index t (2 : Fin 5) = 0
    ∧ win0_1.index t (3 : Fin 5) = t.val % 16 ∧ win0_1.index t (4 : Fin 5) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

section Blocks

variable {F : FTy → Type} [FloatOps F]
variable (m : (ℓ : Loc nD τ sig) → Buf (Elt F) ℓ)

/-- The feature block of point t holds image t / 16, pixel rows 8 (t % 16) + i. -/
theorem iblk0_apply (c : Dev nD) (t : Fin cfg0.N) (f : Fin 3) (ch : Fin 256) (i : Fin 8) (w : Fin 128)
    (hn : t.val / 16 < 2) (hr : 8 * (t.val % 16) + i.val < 128) :
    (iblk m c 0 t : Vec F S3x1x256x8x128 .f32) (ix5 f 0 ch i w)
      = (V m c main_arg0 : S3x2x256x128x128.Idx → Elt F .f32) (ix5 f ⟨t.val / 16, hn⟩ ch ⟨8 * (t.val % 16) + i.val, hr⟩ w) := by
  obtain ⟨e0, e1, e2, e3, e4, -⟩ := idx_facts t
  unfold iblk
  rw [View.read_apply]
  show V m c main_arg0 _ = V m c main_arg0 _
  congr 1
  funext a
  apply Fin.ext
  match a with
  | ⟨0, _⟩ => show win0_0.index t (0 : Fin 5) * 3 + 1 * f.val = f.val; rw [e0]; omega
  | ⟨1, _⟩ => show win0_0.index t (1 : Fin 5) * 1 + 1 * 0 = t.val / 16; rw [e1]; omega
  | ⟨2, _⟩ => show win0_0.index t (2 : Fin 5) * 256 + 1 * ch.val = ch.val; rw [e2]; omega
  | ⟨3, _⟩ => show win0_0.index t (3 : Fin 5) * 8 + 1 * i.val = 8 * (t.val % 16) + i.val; rw [e3]; omega
  | ⟨4, _⟩ => show win0_0.index t (4 : Fin 5) * 128 + 1 * w.val = w.val; rw [e4]; omega

/-- The label block of point t, likewise. -/
theorem iblk1_apply (c : Dev nD) (t : Fin cfg0.N) (f : Fin 3) (i : Fin 8) (w : Fin 128)
    (hn : t.val / 16 < 2) (hr : 8 * (t.val % 16) + i.val < 128) :
    (iblk m c 1 t : Vec F S3x1x1x8x128 .i32) (ix5 f 0 0 i w)
      = (V m c main_arg1 : S3x2x1x128x128.Idx → Elt F .i32) (ix5 f ⟨t.val / 16, hn⟩ 0 ⟨8 * (t.val % 16) + i.val, hr⟩ w) := by
  obtain ⟨-, -, -, -, -, e0, e1, e2, e3, e4, -⟩ := idx_facts t
  unfold iblk
  rw [View.read_apply]
  show V m c main_arg1 _ = V m c main_arg1 _
  congr 1
  funext a
  apply Fin.ext
  match a with
  | ⟨0, _⟩ => show win0_1.index t (0 : Fin 5) * 3 + 1 * f.val = f.val; rw [e0]; omega
  | ⟨1, _⟩ => show win0_1.index t (1 : Fin 5) * 1 + 1 * 0 = t.val / 16; rw [e1]; omega
  | ⟨2, _⟩ => show win0_1.index t (2 : Fin 5) * 1 + 1 * 0 = 0; rw [e2]
  | ⟨3, _⟩ => show win0_1.index t (3 : Fin 5) * 8 + 1 * i.val = 8 * (t.val % 16) + i.val; rw [e3]; omega
  | ⟨4, _⟩ => show win0_1.index t (4 : Fin 5) * 128 + 1 * w.val = w.val; rw [e4]; omega

end Blocks

section Sums

variable (m : (ℓ : Loc nD τ sig) → Buf (Elt Ideal) ℓ)

/-- The features and the labels as the region finds them. -/
abbrev feats (c : Dev nD) : Cert.Spec.SX.Idx → EReal := V m c main_arg0
abbrev labels (c : Dev nD) : Cert.Spec.SL.Idx → BitVec 32 := V m c main_arg1

/-- What the two numbers of a point are: for input blocks that hold image n's row of blocks rb, the loss accumulator grows
    by the row's summed block losses and the hit accumulator by the number of its blocks with a valid class. -/
structure PointValues (X : Cert.Spec.SX.Idx → EReal) (L : Cert.Spec.SL.Idx → BitVec 32) : Prop where
  loss : ∀ (n : Fin 2) (rb : Fin 16) (x0 : Vec Ideal S3x1x256x8x128 .f32) (x1 : Vec Ideal S3x1x1x8x128 .i32),
    (∀ (f : Fin 3) (ch : Fin 256) (i : Fin 8) (w : Fin 128), x0 (ix5 f 0 ch i w) = X (ix5 f n ch (Cert.Spec.px rb i) w)) →
    (∀ (f : Fin 3) (i : Fin 8) (w : Fin 128), x1 (ix5 f 0 0 i w) = L (ix5 f n 0 (Cert.Spec.px rb i) w)) →
    ∀ (acc : Vec Ideal S1x8x128 .f32) (y : S1x8x128.Idx), lossAcc (F := Ideal) x0 x1 acc y = acc y + Cert.Spec.rowLoss X L n rb
  hit : ∀ (n : Fin 2) (rb : Fin 16) (x1 : Vec Ideal S3x1x1x8x128 .i32),
    (∀ (f : Fin 3) (i : Fin 8) (w : Fin 128), x1 (ix5 f 0 0 i w) = L (ix5 f n 0 (Cert.Spec.px rb i) w)) →
    ∀ (acc : Vec Ideal S1x8x128 .f32) (y : S1x8x128.Idx), hitAcc (F := Ideal) x1 acc y = acc y + Cert.Spec.rowHit L n rb

/-- The row sums with natural-number arguments (zero outside the grid), so that partial sums over rows can be written
    over ranges of natural numbers. -/
def rowLossN (X : Cert.Spec.SX.Idx → EReal) (L : Cert.Spec.SL.Idx → BitVec 32) (n s : ℕ) : EReal :=
  if h : n < 2 ∧ s < 16 then Cert.Spec.rowLoss X L ⟨n, h.1⟩ ⟨s, h.2⟩ else 0
def rowHitN (L : Cert.Spec.SL.Idx → BitVec 32) (n s : ℕ) : EReal :=
  if h : n < 2 ∧ s < 16 then Cert.Spec.rowHit L ⟨n, h.1⟩ ⟨s, h.2⟩ else 0

/-- The zero blocks the first point of an image stores. -/
theorem zeroLoss_apply (y : S1x8x128.Idx) : (k0_pay3 (F := Ideal)) y = 0 := Ideal.ofBits_zero_f32
theorem zeroHit_apply (y : S1x8x128.Idx) : (k0_pay4 (F := Ideal)) y = 0 := Ideal.ofBits_zero_f32

/-- The blocks point T reads are image T / 16's row of blocks T % 16. -/
theorem blocks_at (c : Dev nD) (T : Fin cfg0.N) (hn : T.val / 16 < 2) (hr : T.val % 16 < 16) :
    (∀ (f : Fin 3) (ch : Fin 256) (i : Fin 8) (w : Fin 128),
      (iblk m c 0 T : Vec Ideal S3x1x256x8x128 .f32) (ix5 f 0 ch i w)
        = feats m c (ix5 f ⟨T.val / 16, hn⟩ ch (Cert.Spec.px ⟨T.val % 16, hr⟩ i) w))
    ∧ (∀ (f : Fin 3) (i : Fin 8) (w : Fin 128),
      (iblk m c 1 T : Vec Ideal S3x1x1x8x128 .i32) (ix5 f 0 0 i w)
        = labels m c (ix5 f ⟨T.val / 16, hn⟩ 0 (Cert.Spec.px ⟨T.val % 16, hr⟩ i) w)) :=
  ⟨fun f ch i w => iblk0_apply m c T f ch i w hn (by have := i.isLt; omega),
   fun f i w => iblk1_apply m c T f i w hn (by have := i.isLt; omega)⟩

/-- The first point of an image leaves the first row's numbers. -/
theorem stepA (c : Dev nD) (hv : PointValues (feats m c) (labels m c)) (T : Fin cfg0.N) (h0 : T.val % 16 = 0) (y : S1x8x128.Idx) :
    (outsAt0 m c T.val T.isLt).1 y = rowLossN (feats m c) (labels m c) (T.val / 16) (T.val % 16)
    ∧ (outsAt0 m c T.val T.isLt).2 y = rowHitN (labels m c) (T.val / 16) (T.val % 16) := by
  have hN : T.val < 32 := lt_of_lt_of_eq T.isLt (show cfg0.N = 32 from N_0)
  have hn : T.val / 16 < 2 := by omega
  have hr : T.val % 16 < 16 := by omega
  obtain ⟨hx0, hx1⟩ := blocks_at m c T hn hr
  rw [outsAt0_A m c T h0, out_A_2, out_A_3]
  dsimp only
  rw [hv.loss ⟨T.val / 16, hn⟩ ⟨T.val % 16, hr⟩ _ _ hx0 hx1, hv.hit ⟨T.val / 16, hn⟩ ⟨T.val % 16, hr⟩ _ hx1,
    zeroLoss_apply, zeroHit_apply, zero_add, zero_add]
  unfold rowLossN rowHitN
  rw [dif_pos ⟨hn, hr⟩, dif_pos ⟨hn, hr⟩]
  exact ⟨rfl, rfl⟩

/-- A later point adds its row's numbers to what the point before left. -/
theorem stepB (c : Dev nD) (hv : PointValues (feats m c) (labels m c)) (T : Fin cfg0.N) (h0 : ¬T.val % 16 = 0) (y : S1x8x128.Idx) :
    (outsAt0 m c T.val T.isLt).1 y
      = (outsAt0 m c (T.val - 1) (Nat.lt_of_le_of_lt (Nat.sub_le _ _) T.isLt)).1 y + rowLossN (feats m c) (labels m c) (T.val / 16) (T.val % 16)
    ∧ (outsAt0 m c T.val T.isLt).2 y
      = (outsAt0 m c (T.val - 1) (Nat.lt_of_le_of_lt (Nat.sub_le _ _) T.isLt)).2 y + rowHitN (labels m c) (T.val / 16) (T.val % 16) := by
  have hN : T.val < 32 := lt_of_lt_of_eq T.isLt (show cfg0.N = 32 from N_0)
  have hn : T.val / 16 < 2 := by omega
  have hr : T.val % 16 < 16 := by omega
  obtain ⟨hx0, hx1⟩ := blocks_at m c T hn hr
  rw [outsAt0_B m c T h0, out_B_2, out_B_3]
  dsimp only
  rw [hv.loss ⟨T.val / 16, hn⟩ ⟨T.val % 16, hr⟩ _ _ hx0 hx1, hv.hit ⟨T.val / 16, hn⟩ ⟨T.val % 16, hr⟩ _ hx1]
  unfold rowLossN rowHitN
  rw [dif_pos ⟨hn, hr⟩, dif_pos ⟨hn, hr⟩]
  exact ⟨rfl, rfl⟩

/-- After point t the accumulators hold the partial sums over the rows 0 .. t % 16 of image t / 16. -/
theorem outsAt_eq (c : Dev nD) (hv : PointValues (feats m c) (labels m c)) :
    ∀ (t : ℕ) (ht : t < cfg0.N) (y : S1x8x128.Idx),
      (outsAt0 m c t ht).1 y = ∑ s ∈ Finset.range (t % 16 + 1), rowLossN (feats m c) (labels m c) (t / 16) s
      ∧ (outsAt0 m c t ht).2 y = ∑ s ∈ Finset.range (t % 16 + 1), rowHitN (labels m c) (t / 16) s := by
  intro t
  induction t with
  | zero =>
    intro ht y
    obtain ⟨a, b⟩ := stepA m c hv ⟨0, ht⟩ rfl y
    exact ⟨a.trans (by simp), b.trans (by simp)⟩
  | succ t ih =>
    intro ht y
    have hN : t + 1 < 32 := lt_of_lt_of_eq ht (show cfg0.N = 32 from N_0)
    by_cases h0 : (t + 1) % 16 = 0
    · obtain ⟨a, b⟩ := stepA m c hv ⟨t + 1, ht⟩ h0 y
      refine ⟨a.trans ?_, b.trans ?_⟩ <;> (show _ = ∑ s ∈ Finset.range ((t + 1) % 16 + 1), _) <;> rw [h0] <;> simp
    · obtain ⟨a, b⟩ := stepB m c hv ⟨t + 1, ht⟩ h0 y
      obtain ⟨ia, ib⟩ := ih (Nat.lt_of_succ_lt ht) y
      have e1 : (t + 1) / 16 = t / 16 := by omega
      have e2 : (t + 1) % 16 = t % 16 + 1 := by omega
      refine ⟨a.trans ?_, b.trans ?_⟩
      · show (outsAt0 m c t _).1 y + rowLossN _ _ ((t + 1) / 16) ((t + 1) % 16) = ∑ s ∈ Finset.range ((t + 1) % 16 + 1), rowLossN _ _ ((t + 1) / 16) s
        rw [ia, e1, e2, Finset.sum_range_succ _ (t % 16 + 1)]
      · show (outsAt0 m c t _).2 y + rowHitN _ ((t + 1) / 16) ((t + 1) % 16) = ∑ s ∈ Finset.range ((t + 1) % 16 + 1), rowHitN _ ((t + 1) / 16) s
        rw [ib, e1, e2, Finset.sum_range_succ _ (t % 16 + 1)]

end Sums

section Arrays

variable (m : (ℓ : Loc nD τ sig) → Buf (Elt Ideal) ℓ)

/-- What the loss array ends holding: at every entry of slab n the summed block losses of all sixteen rows of image n. -/
def lossArr (X : Cert.Spec.SX.Idx → EReal) (L : Cert.Spec.SL.Idx → BitVec 32) : S2x8x128.Idx → EReal :=
  fun i => ∑ s : Fin 16, Cert.Spec.rowLoss X L ⟨(i 0).val, (i 0).isLt⟩ s
/-- What the hit array ends holding: the number of blocks of image n with a valid class. -/
def hitArr (L : Cert.Spec.SL.Idx → BitVec 32) : S2x8x128.Idx → EReal :=
  fun i => ∑ s : Fin 16, Cert.Spec.rowHit L ⟨(i 0).val, (i 0).isLt⟩ s

theorem sum_rowLossN (X : Cert.Spec.SX.Idx → EReal) (L : Cert.Spec.SL.Idx → BitVec 32) (n : Fin 2) :
    ∑ s ∈ Finset.range 16, rowLossN X L n.val s = ∑ s : Fin 16, Cert.Spec.rowLoss X L n s := by
  rw [Finset.sum_range]
  refine Finset.sum_congr rfl fun s _ => ?_
  unfold rowLossN
  rw [dif_pos ⟨n.isLt, s.isLt⟩]

theorem sum_rowHitN (L : Cert.Spec.SL.Idx → BitVec 32) (n : Fin 2) :
    ∑ s ∈ Finset.range 16, rowHitN L n.val s = ∑ s : Fin 16, Cert.Spec.rowHit L n s := by
  rw [Finset.sum_range]
  refine Finset.sum_congr rfl fun s _ => ?_
  unfold rowHitN
  rw [dif_pos ⟨n.isLt, s.isLt⟩]

/-- The last point of an image writes back the sums over all its rows. -/
theorem flushed2_eq (c : Dev nD) (hv : PointValues (feats m c) (labels m c)) (t : Fin cfg0.N) (hf : (cfg0.win 2).flush t = true) :
    (dats m 0 c).flushed 2 t = ((cfg0.win 2).blk t).view.read (Elt Ideal) (lossArr (feats m c) (labels m c)) := by
  have h15 : t.val % 16 = 15 := (flush0_2 t).mp hf
  have hN : t.val < 32 := lt_of_lt_of_eq t.isLt (show cfg0.N = 32 from N_0)
  have hn : t.val / 16 < 2 := by omega
  obtain ⟨-, -, -, -, -, -, -, -, -, -, e0, -⟩ := idx_facts t
  show (cfg0.win 2).cut (grid0.coords t) ((dats m 0 c).after 2 t) = _
  rw [after0_2]
  funext y
  show (outsAt0 m c t.val t.isLt).1 y = lossArr (feats m c) (labels m c) (((cfg0.win 2).blk t).view.emb y)
  rw [(outsAt_eq m c hv t.val t.isLt y).1, h15]
  have hi : (⟨((((cfg0.win 2).blk t).view.emb y) 0).val, ((((cfg0.win 2).blk t).view.emb y) 0).isLt⟩ : Fin 2) = ⟨t.val / 16, hn⟩ := by
    apply Fin.ext
    show win0_2.index t (0 : Fin 3) * 1 + 1 * (y 0).val = t.val / 16
    have hy : (y 0).val < 1 := (y 0).isLt
    rw [e0]; omega
  unfold lossArr
  rw [hi]
  exact sum_rowLossN (feats m c) (labels m c) ⟨t.val / 16, hn⟩

theorem flushed3_eq (c : Dev nD) (hv : PointValues (feats m c) (labels m c)) (t : Fin cfg0.N) (hf : (cfg0.win 3).flush t = true) :
    (dats m 0 c).flushed 3 t = ((cfg0.win 3).blk t).view.read (Elt Ideal) (hitArr (labels m c)) := by
  have h15 : t.val % 16 = 15 := (flush0_3 t).mp hf
  have hN : t.val < 32 := lt_of_lt_of_eq t.isLt (show cfg0.N = 32 from N_0)
  have hn : t.val / 16 < 2 := by omega
  obtain ⟨-, -, -, -, -, -, -, -, -, -, -, -, -, e0, -⟩ := idx_facts t
  show (cfg0.win 3).cut (grid0.coords t) ((dats m 0 c).after 3 t) = _
  rw [after0_3]
  funext y
  show (outsAt0 m c t.val t.isLt).2 y = hitArr (labels m c) (((cfg0.win 3).blk t).view.emb y)
  rw [(outsAt_eq m c hv t.val t.isLt y).2, h15]
  have hi : (⟨((((cfg0.win 3).blk t).view.emb y) 0).val, ((((cfg0.win 3).blk t).view.emb y) 0).isLt⟩ : Fin 2) = ⟨t.val / 16, hn⟩ := by
    apply Fin.ext
    show win0_3.index t (0 : Fin 3) * 1 + 1 * (y 0).val = t.val / 16
    have hy : (y 0).val < 1 := (y 0).isLt
    rw [e0]; omega
  unfold hitArr
  rw [hi]
  exact sum_rowHitN (labels m c) ⟨t.val / 16, hn⟩

/-- Slab n of either result array is the block the last point of image n writes back. -/
theorem cover2 (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  let t : Fin cfg0.N := ⟨16 * (i 0).val + 15, by rw [show cfg0.N = 32 from N_0]; omega⟩
  obtain ⟨-, -, -, -, -, -, -, -, -, -, e0, e1, e2, -⟩ := idx_facts t
  have ht : t.val = 16 * (i 0).val + 15 := rfl
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 8 ≤ (i 1).val ∧ (i 1).val < win0_2.index t (1 : Fin 3) * 8 + 8; rw [e1]; omega
  | ⟨2, _⟩ => show win0_2.index t (2 : Fin 3) * 128 ≤ (i 2).val ∧ (i 2).val < win0_2.index t (2 : Fin 3) * 128 + 128; rw [e2]; omega

theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  let t : Fin cfg0.N := ⟨16 * (i 0).val + 15, by rw [show cfg0.N = 32 from N_0]; omega⟩
  obtain ⟨-, -, -, -, -, -, -, -, -, -, -, -, -, e0, e1, e2⟩ := idx_facts t
  have ht : t.val = 16 * (i 0).val + 15 := rfl
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 8 ≤ (i 1).val ∧ (i 1).val < win0_3.index t (1 : Fin 3) * 8 + 8; rw [e1]; omega
  | ⟨2, _⟩ => show win0_3.index t (2 : Fin 3) * 128 ≤ (i 2).val ∧ (i 2).val < win0_3.index t (2 : Fin 3) * 128 + 128; rw [e2]; omega

/-- The two result arrays after the region. -/
theorem final2 (c : Dev nD) (hv : PointValues (feats m c) (labels m c)) :
    (dats m 0 c).arrAt 2 cfg0.N = lossArr (feats m c) (labels m c) :=
  (dats m 0 c).arrAt_eq_of_cover 2 (lossArr (feats m c) (labels m c)) (flushed2_eq m c hv) cover2

theorem final3 (c : Dev nD) (hv : PointValues (feats m c) (labels m c)) :
    (dats m 0 c).arrAt 3 cfg0.N = hitArr (labels m c) :=
  (dats m 0 c).arrAt_eq_of_cover 3 (hitArr (labels m c)) (flushed3_eq m c hv) cover3

end Arrays

end Cert.KernelIdeal.Acc

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.KernelTail.lean ====
import proofs.«155187_j89309549953719_2_alg».proof.Proof.KernelAcc
import proofs.«155187_j89309549953719_2_alg».proof.Proof.LibTypedRefCasts
import Idealize.ShloMosaic.Lib.StableHlo.Run

/-!
# The lines after the region

After the region the program takes entry (0, 0) of each slab of the two result arrays, sums the two slabs' entries
(the total loss and the total number of blocks with a valid class) and returns the guarded mean: total / max(hits, 1)
when hits > 0 and 0 otherwise, times the word of 1.0. Since every entry of slab n holds image n's sum over its
sixteen rows, the two sums are the sums over all images and rows.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Acc Idealize.ShloMosaic.StableHlo

section Run

variable {F : FTy → Type} [FloatOps F]

/-- The sum of the two slabs' entries (0, 0). -/
def slabSum (a : FVec F S2x8x128 .f32) : FVec F S_ .f32 :=
  Host.reduceAdd (shapeCast S2 (extractStridedSlice S2x1x1 ![0, 0, 0] a slices_S2x8x128_S2x1x1_0_0_0) shapeCasts_S2x1x1_S2)
    (constant S_ .f32 0x00000000#32) reducesTo_S2_S_d0 h_S_

/-- The guarded mean of the lines after the region, as one function of the two result arrays. -/
def tail (a b : FVec F S2x8x128 .f32) : FVec F S_ .f32 :=
  mulf (select (cmpf .ogt (slabSum b) (constant S_ .f32 0x00000000#32))
      (Host.divf (slabSum a) (maximumf (slabSum b) (constant S_ .f32 0x3F800000#32)))
      (constant S_ .f32 0x00000000#32))
    (constant S_ .f32 0x3F800000#32)

variable (m : (ℓ : Loc nD τ sig) → Buf (Elt F) ℓ)

/-- The result buffer after the lines that follow the region. -/
theorem tail_run (c : Dev nD) :
    Pipeline.afterTail₀ cfgs (dats m) 0 (V0 m) [hostOps1, hostOps1_1, hostOps1_2] c main_v11
      = tail ((dats m 0 c).arrAt 2 cfg0.N) ((dats m 0 c).arrAt 3 cfg0.N) := by
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  refine Eq.trans ?_ (congrArg₂ (tail (F := F)) e2 e3)
  unfold Pipeline.afterTail₀
  simp only [hostOps1, hostOps1_1, hostOps1_2, List.flatten_cons, List.flatten_nil, List.append_nil, List.cons_append, List.nil_append]
  after_results_simp
  rfl

end Run

section Value

/-- An index of a one-axis shape of extent 2 is its coordinate. -/
def idxEquiv1 : S2.Idx ≃ Fin 2 where
  toFun i := i 0
  invFun k := ix1 k
  left_inv i := (eq_ix1 i).symm
  right_inv _ := rfl

/-- The sum of the two slabs' entries (0, 0), on the extended reals. -/
theorem slabSum_apply (a : S2x8x128.Idx → EReal) (i : S_.Idx) :
    slabSum (F := Ideal) a i = a (ix3 0 0 0) + a (ix3 1 0 0) := by
  unfold slabSum
  generalize hx : shapeCast S2 (extractStridedSlice S2x1x1 ![0, 0, 0] a slices_S2x8x128_S2x1x1_0_0_0) shapeCasts_S2x1x1_S2 = x
  simp only [Host.reduceAdd, Ideal.hostReduceAdd_def]
  rw [Ideal.hostReduceAdd_total reducesTo_S2_S_d0 (fun b => b.elim0) x _ i]
  have e : ∀ k : Fin 2, x (ix1 k) = a (ix3 k 0 0) := fun k => by
    rw [← hx]
    refine (shapeCast_apply _ _ (ix1 k) (ix3 k 0 0) ?_).trans ?_
    · rw [Shape.rowMajor_val_three, Shape.rowMajor_val_one]
      show (k.val * 1 + 0) * 1 + 0 = k.val
      omega
    · exact extractStridedSlice_apply _ a _ (ix3 k 0 0) (ix3 k 0 0) (fun ax => by
        match ax with
        | ⟨0, _⟩ => show k.val = 0 + k.val; omega
        | ⟨1, _⟩ => rfl
        | ⟨2, _⟩ => rfl)
  rw [← Equiv.sum_comp idxEquiv1.symm x, Fin.sum_univ_two]
  show Ideal.ofBits .f32 0x00000000#32 + (x (ix1 0) + x (ix1 1)) = _
  rw [e 0, e 1, Ideal.ofBits_zero_f32, zero_add]

/-- The lines after the region, of arrays whose slab n holds image n's sums at every entry: the loss. -/
theorem tail_value (X : Cert.Spec.SX.Idx → EReal) (L : Cert.Spec.SL.Idx → BitVec 32) (i : S_.Idx) :
    tail (F := Ideal) (lossArr X L) (hitArr L) i = Cert.Spec.loss X L := by
  have hT : slabSum (F := Ideal) (lossArr X L) i = Cert.Spec.total X L := by
    rw [slabSum_apply]; unfold lossArr Cert.Spec.total; rw [Fin.sum_univ_two]
  have hH : slabSum (F := Ideal) (hitArr L) i = Cert.Spec.hits L := by
    rw [slabSum_apply]; unfold hitArr Cert.Spec.hits; rw [Fin.sum_univ_two]
  show FloatOps.mulf (Scalar.select (FloatOps.cmpf .ogt (slabSum (F := Ideal) (hitArr L) i) (Ideal.ofBits .f32 0x00000000#32))
      (FloatOps.hostDivf (slabSum (F := Ideal) (lossArr X L) i) (FloatOps.maximumf (slabSum (F := Ideal) (hitArr L) i) (Ideal.ofBits .f32 0x3F800000#32)))
      (Ideal.ofBits .f32 0x00000000#32)) (Ideal.ofBits .f32 0x3F800000#32) = _
  rw [hT, hH, Ideal.ofBits_zero_f32]
  unfold Cert.Spec.loss
  simp only [Ideal.mulf_def, Ideal.hostDivf_def, Ideal.maximumf_def, Ideal.cmpf_def]
  show Scalar.select (Ideal.cmp .ogt (Cert.Spec.hits L) 0) _ 0 * Cert.Spec.one = _
  by_cases h : 0 < Cert.Spec.hits L
  · have hb : Ideal.cmp .ogt (Cert.Spec.hits L) 0 = 1#1 := by unfold Ideal.cmp; simp [h]
    rw [hb, select_one, if_pos h]; rfl
  · have hb : Ideal.cmp .ogt (Cert.Spec.hits L) 0 = 0#1 := by unfold Ideal.cmp; simp [h]
    rw [hb, select_zero, if_neg h]

end Value

end Cert.KernelIdeal.Tail

end
-- ==== Proof.LibGridSum.lean ====
import Idealize.ShloMosaic.Lib.ValueIdx

/-!
# Tiling a double sum over a square grid

A double sum over an `8192 × 8192` square of indices equals the sum, over the `64` tiles of an
`8 × 8` grid taken in row-major order, of the double sums over each `1024 × 1024` tile.

The argument is pure reindexing, so it holds in any commutative additive monoid: an index
`i < A * K` is written uniquely as `K * a + r` with `a < A` and `r < K`, which splits a sum over
`Fin (A * K)` into a sum over `a` of sums over `r`.  Doing this for the rows, the columns and the
tile number, and then exchanging the two middle sums, gives the statement.
-/

namespace Cert.GridSum

/-- A sum over `Fin (A * K)` splits into `A` consecutive blocks of length `K`:
the index `(a, r)` stands for `K * a + r`. -/
theorem sum_fin_mul {M : Type*} [AddCommMonoid M] (A K : ℕ) (g : Fin (A * K) → M) :
    ∑ i : Fin (A * K), g i = ∑ a : Fin A, ∑ r : Fin K, g (finProdFinEquiv (a, r)) := by
  exact (Equiv.sum_comp finProdFinEquiv g).symm.trans (Fintype.sum_prod_type _)

/-- Row `r` of tile `s` (tiles numbered row-major in an `8 × 8` grid):
global row `1024 * (s / 8) + r`. -/
def rowOf (s : Fin 64) (r : Fin 1024) : Fin 8192 := ⟨1024 * (s.val / 8) + r.val, by omega⟩

/-- Column `c` of tile `s`: global column `1024 * (s % 8) + c`. -/
def colOf (s : Fin 64) (c : Fin 1024) : Fin 8192 := ⟨1024 * (s.val % 8) + c.val, by omega⟩

/-- The row of tile `8 * a + b` at offset `r` is the global row `1024 * a + r`. -/
theorem rowOf_pair (a b : Fin 8) (r : Fin 1024) :
    rowOf (finProdFinEquiv (a, b) : Fin (8 * 8)) r = (finProdFinEquiv (a, r) : Fin (8 * 1024)) := by
  apply Fin.ext
  have ha := a.isLt
  have hb := b.isLt
  simp only [rowOf, finProdFinEquiv, Equiv.coe_fn_mk]
  omega

/-- The column of tile `8 * a + b` at offset `c` is the global column `1024 * b + c`. -/
theorem colOf_pair (a b : Fin 8) (c : Fin 1024) :
    colOf (finProdFinEquiv (a, b) : Fin (8 * 8)) c = (finProdFinEquiv (b, c) : Fin (8 * 1024)) := by
  apply Fin.ext
  have ha := a.isLt
  have hb := b.isLt
  simp only [colOf, finProdFinEquiv, Equiv.coe_fn_mk]
  omega

/-- The double sum over the `8192 × 8192` square is the sum over the `64` tiles, in row-major
order, of the double sums over the `1024 × 1024` tiles. -/
theorem sum_tiles {M : Type*} [AddCommMonoid M] (f : Fin 8192 → Fin 8192 → M) :
    ∑ s : Fin 64, ∑ r : Fin 1024, ∑ c : Fin 1024, f (rowOf s r) (colOf s c)
      = ∑ i : Fin 8192, ∑ j : Fin 8192, f i j := by
  -- left side: split the tile number `s = 8 * a + b`
  have hL : ∑ s : Fin 64, ∑ r : Fin 1024, ∑ c : Fin 1024, f (rowOf s r) (colOf s c)
      = ∑ a : Fin 8, ∑ b : Fin 8, ∑ r : Fin 1024, ∑ c : Fin 1024,
          f (finProdFinEquiv (a, r) : Fin (8 * 1024)) (finProdFinEquiv (b, c) : Fin (8 * 1024)) := by
    have h := sum_fin_mul (M := M) 8 8
      (fun s : Fin (8 * 8) => ∑ r : Fin 1024, ∑ c : Fin 1024, f (rowOf s r) (colOf s c))
    refine h.trans ?_
    refine Finset.sum_congr rfl fun a _ => Finset.sum_congr rfl fun b _ => ?_
    refine Finset.sum_congr rfl fun r _ => Finset.sum_congr rfl fun c _ => ?_
    rw [rowOf_pair, colOf_pair]
  -- right side: split the row `i = 1024 * a + r` and the column `j = 1024 * b + c`
  have hR : ∑ i : Fin 8192, ∑ j : Fin 8192, f i j
      = ∑ a : Fin 8, ∑ r : Fin 1024, ∑ b : Fin 8, ∑ c : Fin 1024,
          f (finProdFinEquiv (a, r) : Fin (8 * 1024)) (finProdFinEquiv (b, c) : Fin (8 * 1024)) := by
    have h := sum_fin_mul (M := M) 8 1024 (fun i : Fin (8 * 1024) => ∑ j : Fin 8192, f i j)
    refine h.trans ?_
    refine Finset.sum_congr rfl fun a _ => Finset.sum_congr rfl fun r _ => ?_
    exact sum_fin_mul (M := M) 8 1024
      (fun j : Fin (8 * 1024) => f (finProdFinEquiv (a, r) : Fin (8 * 1024)) j)
  rw [hL, hR]
  -- exchange the sum over the tile column `b` with the sum over the row offset `r`
  refine Finset.sum_congr rfl fun a _ => ?_
  exact Finset.sum_comm

end Cert.GridSum
-- ==== Proof.KernelLayout.lean ====
import proofs.«155187_j89309549953719_2_alg».proof.Proof.Gen.KernelIdeal.Skeleton
import proofs.«155187_j89309549953719_2_alg».proof.Proof.Spec
import proofs.«155187_j89309549953719_2_alg».proof.Proof.LibGridSum
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-! # The kernel body's layout operations, each read at one index

Every reshaping, broadcasting, slicing, summing and contracting step of the kernel body is read here at an index
given by its coordinates: the value there is the operand's value at the coordinates with the same meaning
(frame, class code, channel, pixel row, column). A pixel (i, w) of the 8 x 128 strip sits at position
128 i + w of the flattened axis of 1024 pixels. -/

section Layout
variable {α : Type}

/-- Dropping the two unit axes of the label strip. -/
theorem sc_lab (x : S3x1x1x8x128.Idx → α) (f : Fin 3) (i : Fin 8) (w : Fin 128) :
    shapeCast S3x8x128 x shapeCasts_S3x1x1x8x128_S3x8x128 (ix3 f i w) = x (ix5 f (0 : Fin 1) (0 : Fin 1) i w) :=
  shapeCast_apply _ _ _ _ (by
    rw [Shape.rowMajor_val_five, Shape.rowMajor_val_three]
    show (((f.val * 1 + 0) * 1 + 0) * 8 + i.val) * 128 + w.val = (f.val * 8 + i.val) * 128 + w.val
    omega)

/-- Adding a leading unit axis to a strip. -/
theorem sc_strip1 (x : S8x128.Idx → α) (i : Fin 8) (w : Fin 128) :
    shapeCast S1x8x128 x shapeCasts_S8x128_S1x8x128 (ix3 (0 : Fin 1) i w) = x (ix2 i w) :=
  shapeCast_apply _ _ _ _ (by
    rw [Shape.rowMajor_val_two, Shape.rowMajor_val_three]
    show i.val * 128 + w.val = (0 * 8 + i.val) * 128 + w.val
    omega)

/-- Adding a unit axis after the frame axis. -/
theorem sc_frame1 (x : S3x8x128.Idx → α) (f : Fin 3) (i : Fin 8) (w : Fin 128) :
    shapeCast S3x1x8x128 x shapeCasts_S3x8x128_S3x1x8x128 (ix4 f (0 : Fin 1) i w) = x (ix3 f i w) :=
  shapeCast_apply _ _ _ _ (by
    rw [Shape.rowMajor_val_three, Shape.rowMajor_val_four]
    show (f.val * 8 + i.val) * 128 + w.val = ((f.val * 1 + 0) * 8 + i.val) * 128 + w.val
    omega)

/-- Flattening the strip's pixels of the one-hot: pixel (i, w) is position 128 i + w. -/
theorem sc_hot (x : S3x304x8x128.Idx → α) (f : Fin 3) (q : Fin 304) (i : Fin 8) (w : Fin 128) :
    shapeCast S3x304x1024 x shapeCasts_S3x304x8x128_S3x304x1024 (ix3 f q (finProdFinEquiv (i, w) : Fin (8 * 128)))
      = x (ix4 f q i w) :=
  shapeCast_apply _ _ _ _ (by
    rw [Shape.rowMajor_val_three, Shape.rowMajor_val_four]
    show ((f.val * 304 + q.val) * 8 + i.val) * 128 + w.val = (f.val * 304 + q.val) * 1024 + (w.val + 128 * i.val)
    omega)

/-- Dropping the unit image axis of the feature strip. -/
theorem sc_feat (x : S3x1x256x8x128.Idx → α) (f : Fin 3) (c : Fin 256) (i : Fin 8) (w : Fin 128) :
    shapeCast S3x256x8x128 x shapeCasts_S3x1x256x8x128_S3x256x8x128 (ix4 f c i w) = x (ix5 f (0 : Fin 1) c i w) :=
  shapeCast_apply _ _ _ _ (by
    rw [Shape.rowMajor_val_five, Shape.rowMajor_val_four]
    show (((f.val * 1 + 0) * 256 + c.val) * 8 + i.val) * 128 + w.val = ((f.val * 256 + c.val) * 8 + i.val) * 128 + w.val
    omega)

/-- Flattening the strip's pixels of the unit vectors. -/
theorem sc_dir (x : S3x256x8x128.Idx → α) (f : Fin 3) (c : Fin 256) (i : Fin 8) (w : Fin 128) :
    shapeCast S3x256x1024 x shapeCasts_S3x256x8x128_S3x256x1024 (ix3 f c (finProdFinEquiv (i, w) : Fin (8 * 128)))
      = x (ix4 f c i w) :=
  shapeCast_apply _ _ _ _ (by
    rw [Shape.rowMajor_val_three, Shape.rowMajor_val_four]
    show ((f.val * 256 + c.val) * 8 + i.val) * 128 + w.val = (f.val * 256 + c.val) * 1024 + (w.val + 128 * i.val)
    omega)

/-- Adding a unit channel axis to the counts. -/
theorem sc_cnt1 (x : S3x304.Idx → α) (f : Fin 3) (q : Fin 304) :
    shapeCast S3x1x304 x shapeCasts_S3x304_S3x1x304 (ix3 f (0 : Fin 1) q) = x (ix2 f q) :=
  shapeCast_apply _ _ _ _ (by
    rw [Shape.rowMajor_val_two, Shape.rowMajor_val_three]
    show f.val * 304 + q.val = (f.val * 1 + 0) * 304 + q.val
    omega)

/-- Dropping the unit frame axis of one frame's prototypes. -/
theorem sc_proto (x : S1x256x304.Idx → α) (c : Fin 256) (q : Fin 304) :
    shapeCast S256x304 x shapeCasts_S1x256x304_S256x304 (ix2 c q) = x (ix3 (0 : Fin 1) c q) :=
  shapeCast_apply _ _ _ _ (by
    rw [Shape.rowMajor_val_three, Shape.rowMajor_val_two]
    show (0 * 256 + c.val) * 304 + q.val = c.val * 304 + q.val
    omega)

/-- Repeating one strip for the three frames. -/
theorem bc_frames (x : S1x8x128.Idx → α) (f : Fin 3) (i : Fin 8) (w : Fin 128) :
    broadcastTo S3x8x128 x broadcasts_S1x8x128_S3x8x128 (ix3 f i w) = x (ix3 (0 : Fin 1) i w) :=
  broadcastTo_apply _ _ _ _ (fun a => match a with | ⟨0, _⟩ => rfl | ⟨1, _⟩ => rfl | ⟨2, _⟩ => rfl)

/-- Repeating the pixel codes for the 304 class codes. -/
theorem bc_codes (x : S3x1x8x128.Idx → α) (f : Fin 3) (q : Fin 304) (i : Fin 8) (w : Fin 128) :
    broadcastTo S3x304x8x128 x broadcasts_S3x1x8x128_S3x304x8x128 (ix4 f q i w) = x (ix4 f (0 : Fin 1) i w) :=
  broadcastTo_apply _ _ _ _ (fun a => match a with | ⟨0, _⟩ => rfl | ⟨1, _⟩ => rfl | ⟨2, _⟩ => rfl | ⟨3, _⟩ => rfl)

/-- Repeating the pixel lengths for the 256 channels. -/
theorem bc_chan (x : S3x1x8x128.Idx → α) (f : Fin 3) (c : Fin 256) (i : Fin 8) (w : Fin 128) :
    broadcastTo S3x256x8x128 x broadcasts_S3x1x8x128_S3x256x8x128 (ix4 f c i w) = x (ix4 f (0 : Fin 1) i w) :=
  broadcastTo_apply _ _ _ _ (fun a => match a with | ⟨0, _⟩ => rfl | ⟨1, _⟩ => rfl | ⟨2, _⟩ => rfl | ⟨3, _⟩ => rfl)

/-- Repeating the floored counts for the 256 channels. -/
theorem bc_cnt (x : S3x1x304.Idx → α) (f : Fin 3) (c : Fin 256) (q : Fin 304) :
    broadcastTo S3x256x304 x broadcasts_S3x1x304_S3x256x304 (ix3 f c q) = x (ix3 f (0 : Fin 1) q) :=
  broadcastTo_apply _ _ _ _ (fun a => match a with | ⟨0, _⟩ => rfl | ⟨1, _⟩ => rfl | ⟨2, _⟩ => rfl)

/-- Frame 0 of the prototypes. -/
theorem sl_frame0 (x : S3x256x304.Idx → α) (c : Fin 256) (q : Fin 304) :
    extractStridedSlice S1x256x304 ![0, 0, 0] x slices_S3x256x304_o0_0_0_S1x256x304 (ix3 (0 : Fin 1) c q)
      = x (ix3 (0 : Fin 3) c q) :=
  extractStridedSlice_apply _ _ _ _ _ (fun a => match a with
    | ⟨0, _⟩ => rfl
    | ⟨1, _⟩ => by show c.val = 0 + c.val; omega
    | ⟨2, _⟩ => by show q.val = 0 + q.val; omega)

/-- Frame 1 of the prototypes. -/
theorem sl_frame1 (x : S3x256x304.Idx → α) (c : Fin 256) (q : Fin 304) :
    extractStridedSlice S1x256x304 ![1, 0, 0] x slices_S3x256x304_o1_0_0_S1x256x304 (ix3 (0 : Fin 1) c q)
      = x (ix3 (1 : Fin 3) c q) :=
  extractStridedSlice_apply _ _ _ _ _ (fun a => match a with
    | ⟨0, _⟩ => rfl
    | ⟨1, _⟩ => by show c.val = 0 + c.val; omega
    | ⟨2, _⟩ => by show q.val = 0 + q.val; omega)

/-- Frame 2 of the prototypes. -/
theorem sl_frame2 (x : S3x256x304.Idx → α) (c : Fin 256) (q : Fin 304) :
    extractStridedSlice S1x256x304 ![2, 0, 0] x slices_S3x256x304_o2_0_0_S1x256x304 (ix3 (0 : Fin 1) c q)
      = x (ix3 (2 : Fin 3) c q) :=
  extractStridedSlice_apply _ _ _ _ _ (fun a => match a with
    | ⟨0, _⟩ => rfl
    | ⟨1, _⟩ => by show c.val = 0 + c.val; omega
    | ⟨2, _⟩ => by show q.val = 0 + q.val; omega)

end Layout

/-- The sum over the channels of a strip of pixel vectors. -/
theorem red_chan (src : FVec Ideal S3x256x8x128 .f32) (f : Fin 3) (i : Fin 8) (w : Fin 128) :
    multiReduction .add [1] S3x8x128 src 0x00000000#32 reduces_S3x256x8x128_S3x8x128 (.inl rfl) rfl (ix3 f i w)
      = ∑ c : Fin 256, src (ix4 f c i w) :=
  (Ideal.multiReduction_add_single src _ reduces_S3x256x8x128_S3x8x128 _ _ (ix3 f i w)).trans
    (Finset.sum_congr rfl fun c _ => congrArg src (funext fun a => match a with
      | ⟨0, _⟩ => Fin.ext rfl | ⟨1, _⟩ => Fin.ext rfl | ⟨2, _⟩ => Fin.ext rfl | ⟨3, _⟩ => Fin.ext rfl))

/-- The sum over the strip's 1024 pixels. -/
theorem red_pix (src : FVec Ideal S3x304x1024 .f32) (f : Fin 3) (q : Fin 304) :
    multiReduction .add [2] S3x304 src 0x00000000#32 reduces_S3x304x1024_S3x304 (.inl rfl) rfl (ix2 f q)
      = ∑ p : Fin 1024, src (ix3 f q p) :=
  (Ideal.multiReduction_add_single src _ reduces_S3x304x1024_S3x304 _ _ (ix2 f q)).trans
    (Finset.sum_congr rfl fun p _ => congrArg src (funext fun a => match a with
      | ⟨0, _⟩ => Fin.ext rfl | ⟨1, _⟩ => Fin.ext rfl | ⟨2, _⟩ => Fin.ext rfl))

/-- The sum over the channels of the absolute differences. -/
theorem red_abs (src : FVec Ideal S256x304 .f32) (q : Fin 304) :
    multiReduction .add [0] S304 src 0x00000000#32 reduces_S256x304_S304 (.inl rfl) rfl (ix1 q)
      = ∑ c : Fin 256, src (ix2 c q) :=
  (Ideal.multiReduction_add_single src _ reduces_S256x304_S304 _ _ (ix1 q)).trans
    (Finset.sum_congr rfl fun c _ => congrArg src (funext fun a => match a with
      | ⟨0, _⟩ => Fin.ext rfl | ⟨1, _⟩ => Fin.ext rfl))

/-- The contraction of the unit vectors with the one-hot over the strip's 1024 pixels, frame by frame. -/
theorem mm_apply (lhs : FVec Ideal S3x256x1024 .bf16) (rhs : FVec Ideal S3x304x1024 .bf16)
    (f : Fin 3) (c : Fin 256) (q : Fin 304) :
    matmul dot_S3x256x1024_S3x304x1024_S3x256x304_2_2_1_1_0_0 none lhs rhs (constant S3x256x304 .f32 0x00000000#32) (ix3 f c q)
      = ∑ p : Fin 1024, lhs (ix3 f c p) * rhs (ix3 f q p) := by
  refine (Ideal.matmul_constant_zero_apply dot_S3x256x1024_S3x304x1024_S3x256x304_2_2_1_1_0_0 none lhs rhs (ix3 f c q)).trans ?_
  refine (Equiv.sum_comp (contrEquiv1 dot_S3x256x1024_S3x304x1024_S3x256x304_2_2_1_1_0_0 1024 rfl rfl).symm _).symm.trans ?_
  refine Finset.sum_congr rfl fun p _ => ?_
  refine congrArg₂ (· * ·) (congrArg lhs ?_) (congrArg rhs ?_)
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl
    | ⟨2, _⟩ => exact Fin.ext rfl

end Cert.KernelValue

end
-- ==== Proof.KernelWords.lean ====
import proofs.«155187_j89309549953719_2_alg».proof.Proof.Gen.KernelIdeal.Skeleton
import proofs.«155187_j89309549953719_2_alg».proof.Proof.Spec
import proofs.«155187_j89309549953719_2_alg».proof.Proof.LibGridSum
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-! # The integer side of the kernel: the column block of a column and the joint code of a pixel

Column w of the strip lies in column block w / 8. The kernel computes it by a signed division of the column
number by 8 followed by the floor-division correction (subtract one when the signs differ and the remainder is
not zero); for a column number 0 <= w < 128 the correction is never applied. The code of a pixel is
19 (w / 8) + label, and for a label l < 19 it equals the code 19 cb + k of (column block cb, class k) exactly
when w / 8 = cb and l = k: both are the quotient and remainder of the code by 19. All numbers stay far below
2^31, so the 32-bit words never wrap. -/

/-- The quotient word: the signed quotient of the column number by 8 is w / 8. -/
theorem pay7_apply (i : Fin 8) (w : Fin 128) : k0_pay7 (ix2 i w) = BitVec.ofNat 32 (w.val / 8) := by
  have hi : iota .tc S8x128 32 [1] iota_S8x128_d1_w32 (ix2 i w) = BitVec.ofNat 32 w.val :=
    iota_single_apply _ _ _ _ _ _
  simp only [k0_pay7, divsi, broadcast]
  rw [hi]
  clear hi
  revert w; decide

/-- The correction flag of floor division is never set: for w > 0 the sign of w agrees with the sign of 8,
    and for w = 0 the remainder is zero. -/
theorem pay8_apply (i : Fin 8) (w : Fin 128) : k0_pay8 (ix2 i w) = 0#1 := by
  have hi : iota .tc S8x128 32 [1] iota_S8x128_d1_w32 (ix2 i w) = BitVec.ofNat 32 w.val :=
    iota_single_apply _ _ _ _ _ _
  simp only [k0_pay8, andi, cmpi, subi, extui, remsi, broadcast]
  rw [hi]
  clear hi
  revert w; decide

/-- The code word 19 a + l against the word of q, compared as words, is the comparison of the numbers. -/
theorem code_word (a l q : Nat) (ha : a < 16) (hl : l < 19) (hq : q < 304) :
    IntOp.cmpi .eq (IntOp.addi (IntOp.muli (BitVec.ofNat 32 a) 19#32) (BitVec.ofNat 32 l)) (BitVec.ofNat 32 q)
      = if 19 * a + l = q then 1#1 else 0#1 := by
  have e : IntOp.addi (IntOp.muli (BitVec.ofNat 32 a) 19#32) (BitVec.ofNat 32 l) = BitVec.ofNat 32 (19 * a + l) := by
    apply BitVec.eq_of_toNat_eq
    simp only [IntOp.addi, IntOp.muli, BitVec.toNat_add, BitVec.toNat_mul, BitVec.toNat_ofNat]
    omega
  rw [e]
  by_cases h : 19 * a + l = q
  · rw [if_pos h, h]; simp [IntOp.cmpi]
  · rw [if_neg h]
    have : ¬ BitVec.ofNat 32 (19 * a + l) = BitVec.ofNat 32 q := by
      intro hh
      have := congrArg BitVec.toNat hh
      simp only [BitVec.toNat_ofNat] at this
      omega
    show BitVec.ofBool (BitVec.ofNat 32 (19 * a + l) == BitVec.ofNat 32 q) = 0#1
    rw [beq_false_of_ne this]; rfl

/-- A one-bit comparison result, widened to 32 bits and converted to a float, is 1 or 0. -/
theorem onehot_val (b : Prop) [Decidable b] :
    (FloatOps.sitofp (F := Ideal) .f32 (BitVec.setWidth 32 (if b then 1#1 else 0#1)) : EReal) = if b then 1 else 0 := by
  by_cases h : b
  · rw [if_pos h, if_pos h]; simp [FloatOps.sitofp]
  · rw [if_neg h, if_neg h]; simp [FloatOps.sitofp]

/-- Two class labels are equal as 32-bit words exactly when they are equal. -/
theorem lab_eq_iff (l k : Fin 19) : BitVec.ofNat 32 l.val = BitVec.ofNat 32 k.val ↔ l = k := by
  constructor
  · intro h
    have h' := congrArg BitVec.toNat h
    simp only [BitVec.toNat_ofNat] at h'
    have := l.isLt
    have := k.isLt
    exact Fin.ext (by omega)
  · intro h; rw [h]

/-- The one-hot of a pixel in column w with class label l, at the code of (column block cb, class k):
    1 when the column lies in block cb and l = k, else 0. -/
theorem onehot_word (i : Fin 8) (w : Fin 128) (l k : Fin 19) (cb : Fin 16) :
    (FloatOps.sitofp (F := Ideal) .f32 (BitVec.setWidth 32 (IntOp.cmpi .eq
        (IntOp.addi (IntOp.muli (Scalar.select (k0_pay8 (ix2 i w)) (IntOp.subi (k0_pay7 (ix2 i w)) 1#32)
          (k0_pay7 (ix2 i w))) 19#32) (BitVec.ofNat 32 l.val))
        (BitVec.ofNat 32 (Cert.Spec.cls cb k).val))) : EReal)
      = if w.val / 8 = cb.val ∧ l = k then 1 else 0 := by
  have hw := w.isLt
  have hl := l.isLt
  have hk := k.isLt
  have hcb := cb.isLt
  rw [pay8_apply, pay7_apply, select_zero, code_word _ _ _ (by omega) hl (Cert.Spec.cls cb k).isLt, onehot_val]
  refine if_congr ?_ rfl rfl
  show 19 * (w.val / 8) + l.val = 19 * cb.val + k.val ↔ _
  constructor
  · intro h; exact ⟨by omega, Fin.ext (by omega)⟩
  · rintro ⟨h1, h2⟩; rw [h1, h2]

/-- The same for a label word known to be a class label: 0 outside column block cb, and inside it 1 exactly
    when the label word is the word of k. An out-of-range label would be counted in a neighbouring block:
    this is where the labels' range is used. -/
theorem onehot_lab (i : Fin 8) (w : Fin 128) (lab : BitVec 32) (hlab : ∃ l : Fin 19, lab = BitVec.ofNat 32 l.val)
    (cb : Fin 16) (k : Fin 19) :
    (FloatOps.sitofp (F := Ideal) .f32 (BitVec.setWidth 32 (IntOp.cmpi .eq
        (IntOp.addi (IntOp.muli (Scalar.select (k0_pay8 (ix2 i w)) (IntOp.subi (k0_pay7 (ix2 i w)) 1#32)
          (k0_pay7 (ix2 i w))) 19#32) lab)
        (BitVec.ofNat 32 (Cert.Spec.cls cb k).val))) : EReal)
      = if w.val / 8 = cb.val then (if lab = BitVec.ofNat 32 k.val then 1 else 0) else 0 := by
  obtain ⟨l, rfl⟩ := hlab
  rw [onehot_word]
  by_cases h1 : w.val / 8 = cb.val
  · rw [if_pos h1]
    by_cases h2 : l = k
    · rw [if_pos ⟨h1, h2⟩, if_pos ((lab_eq_iff l k).mpr h2)]
    · rw [if_neg (fun h => h2 h.2), if_neg (fun h => h2 ((lab_eq_iff l k).mp h))]
  · rw [if_neg h1, if_neg (fun h => h1 h.1)]

end Cert.KernelValue

end
-- ==== Proof.KernelCounts.lean ====
import proofs.«155187_j89309549953719_2_alg».proof.Proof.Gen.KernelIdeal.Skeleton
import proofs.«155187_j89309549953719_2_alg».proof.Proof.Spec
import proofs.«155187_j89309549953719_2_alg».proof.Proof.LibGridSum
import proofs.«155187_j89309549953719_2_alg».proof.Proof.KernelLayout
import proofs.«155187_j89309549953719_2_alg».proof.Proof.KernelWords
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-! # The kernel's counts from one row of blocks

One grid point sees, of one image, the strip of 8 pixel rows and 128 columns that makes up a row of 16 blocks.
The kernel marks every pixel (i, w) of the strip with the joint code 19 (w / 8) + label, compares it with each of
the 304 codes 19 cb + k, and sums the resulting one-hot over the 1024 pixels. Because every label is a class
label, the one-hot at code 19 cb + k is 1 exactly at the pixels of column block cb labelled k; the pixels of the
other fifteen blocks contribute 0, and what remains is the count of the 64 pixels of block cb labelled k. -/

/-- The one-hot at frame f, code q and pixel (i, w): the pixel's code word compared with the word of q. -/
theorem pay9_apply (v6 : IVec S3x8x128 32) (v17 : IVec S8x128 32) (v36 : IVec S8x128 1)
    (f : Fin 3) (q : Fin 304) (i : Fin 8) (w : Fin 128) :
    k0_pay9 (F := Ideal) v6 v17 v36 (ix3 f q (finProdFinEquiv (i, w) : Fin (8 * 128)))
      = (FloatOps.sitofp (F := Ideal) .f32 (BitVec.setWidth 32 (IntOp.cmpi .eq
          (IntOp.addi (IntOp.muli (Scalar.select (v36 (ix2 i w)) (IntOp.subi (v17 (ix2 i w)) 1#32) (v17 (ix2 i w))) 19#32)
            (v6 (ix3 f i w)))
          (BitVec.ofNat 32 q.val))) : EReal) := by
  simp only [k0_pay9]
  rw [sc_hot]
  show FloatOps.sitofp (F := Ideal) .f32 (BitVec.setWidth 32 (IntOp.cmpi .eq
      (broadcastTo S3x304x8x128 _ broadcasts_S3x1x8x128_S3x304x8x128 (ix4 f q i w))
      (iota Kind.tc S3x304x8x128 32 [1] iota_S3x304x8x128_d1_w32 (ix4 f q i w)))) = _
  rw [bc_codes, sc_frame1, iota_single_apply]
  simp only [addi]
  rw [bc_frames]
  simp only [muli, broadcast]
  rw [sc_strip1]
  rfl

/-- The count at frame f and code q is the sum of the one-hot over the strip's pixels (i, w). -/
theorem pay10_apply (v6 : IVec S3x8x128 32) (v17 : IVec S8x128 32) (v36 : IVec S8x128 1) (f : Fin 3) (q : Fin 304) :
    k0_pay10 (F := Ideal) v6 v17 v36 (ix2 f q)
      = ∑ i : Fin 8, ∑ w : Fin 128, k0_pay9 (F := Ideal) v6 v17 v36 (ix3 f q (finProdFinEquiv (i, w) : Fin (8 * 128))) := by
  simp only [k0_pay10]
  rw [red_pix]
  exact Cert.GridSum.sum_fin_mul 8 128 (fun p => k0_pay9 (F := Ideal) v6 v17 v36 (ix3 f q p))

/-- A sum over the strip's pixels of a term that vanishes outside column block cb is the sum over the 8 x 8 pixels
    of that block: the columns split as w = 8 wb + j, and only wb = cb contributes. -/
theorem sum_strip_block {M : Type*} [AddCommMonoid M] (cb : Fin 16) (g : Fin 8 → Fin 128 → M)
    (h0 : ∀ (i : Fin 8) (w : Fin 128), w.val / 8 ≠ cb.val → g i w = 0) :
    ∑ i : Fin 8, ∑ w : Fin 128, g i w = ∑ i : Fin 8, ∑ j : Fin 8, g i (Cert.Spec.px cb j) := by
  refine Finset.sum_congr rfl fun i _ => ?_
  refine (Cert.GridSum.sum_fin_mul 16 8 (fun w => g i w)).trans ?_
  refine (Finset.sum_eq_single cb (fun wb _ hne => ?_) (fun h => absurd (Finset.mem_univ cb) h)).trans ?_
  · refine Finset.sum_eq_zero fun j _ => h0 i _ ?_
    have hj := j.isLt
    have hv : wb.val ≠ cb.val := fun h => hne (Fin.ext h)
    show (j.val + 8 * wb.val) / 8 ≠ cb.val
    omega
  · refine Finset.sum_congr rfl fun j _ => congrArg (g i) (Fin.ext ?_)
    show j.val + 8 * cb.val = 8 * cb.val + j.val
    omega

/-- A pixel of block cb lies in column block cb. -/
theorem px_div (cb : Fin 16) (j : Fin 8) : (Cert.Spec.px cb j).val / 8 = cb.val := by
  have hj := j.isLt
  show (8 * cb.val + j.val) / 8 = cb.val
  omega

/-- The label the kernel reads at pixel (i, w) of the strip is the image's label at row 8 rb + i, column w. -/
theorem pay5_apply (L : Cert.Spec.SL.Idx → BitVec 32) (n : Fin 2) (rb : Fin 16) (x1 : Vec Ideal S3x1x1x8x128 .i32)
    (hx1 : ∀ (f : Fin 3) (i : Fin 8) (w : Fin 128), x1 (ix5 f 0 0 i w) = L (ix5 f n 0 (Cert.Spec.px rb i) w))
    (f : Fin 3) (i : Fin 8) (w : Fin 128) :
    k0_pay5 (F := Ideal) x1 (ix3 f i w) = L (ix5 f n 0 (Cert.Spec.px rb i) w) :=
  (sc_lab x1 f i w).trans (hx1 f i w)

/-- The one-hot at the code of (column block cb, class k): 0 outside column block cb, and inside it the indicator
    that the pixel is labelled k. -/
theorem onehot_eq (L : Cert.Spec.SL.Idx → BitVec 32) (hL : Cert.Spec.Labelled L) (n : Fin 2) (rb : Fin 16)
    (x1 : Vec Ideal S3x1x1x8x128 .i32)
    (hx1 : ∀ (f : Fin 3) (i : Fin 8) (w : Fin 128), x1 (ix5 f 0 0 i w) = L (ix5 f n 0 (Cert.Spec.px rb i) w))
    (f : Fin 3) (cb : Fin 16) (k : Fin 19) (i : Fin 8) (w : Fin 128) :
    k0_pay9 (F := Ideal) (k0_pay5 (F := Ideal) x1) k0_pay7 k0_pay8
        (ix3 f (Cert.Spec.cls cb k) (finProdFinEquiv (i, w) : Fin (8 * 128)))
      = if w.val / 8 = cb.val then Cert.Spec.hot L f n (Cert.Spec.px rb i) w k else 0 := by
  rw [pay9_apply, pay5_apply L n rb x1 hx1]
  exact onehot_lab i w _ (hL _) cb k

/-- The kernel's count at the code of (column block cb, class k) is the number of pixels of block (rb, cb)
    labelled k. -/
theorem cnt_eq (L : Cert.Spec.SL.Idx → BitVec 32) (hL : Cert.Spec.Labelled L) (n : Fin 2) (rb : Fin 16)
    (x1 : Vec Ideal S3x1x1x8x128 .i32)
    (hx1 : ∀ (f : Fin 3) (i : Fin 8) (w : Fin 128), x1 (ix5 f 0 0 i w) = L (ix5 f n 0 (Cert.Spec.px rb i) w))
    (f : Fin 3) (cb : Fin 16) (k : Fin 19) :
    k0_pay10 (F := Ideal) (k0_pay5 (F := Ideal) x1) (k0_pay7) (k0_pay8) (ix2 f (Cert.Spec.cls cb k))
      = Cert.Spec.cnt L f n rb cb k := by
  rw [pay10_apply]
  refine (Finset.sum_congr rfl fun i _ => Finset.sum_congr rfl fun w _ =>
    onehot_eq L hL n rb x1 hx1 f cb k i w).trans ?_
  refine (sum_strip_block cb
    (fun i w => if w.val / 8 = cb.val then Cert.Spec.hot L f n (Cert.Spec.px rb i) w k else 0)
    (fun i w h => if_neg h)).trans ?_
  exact Finset.sum_congr rfl fun i _ => Finset.sum_congr rfl fun j _ => if_pos (px_div cb j)

end Cert.KernelValue

end
-- ==== Proof.KernelDist.lean ====
import proofs.«155187_j89309549953719_2_alg».proof.Proof.Gen.KernelIdeal.Skeleton
import proofs.«155187_j89309549953719_2_alg».proof.Proof.Spec
import proofs.«155187_j89309549953719_2_alg».proof.Proof.LibGridSum
import proofs.«155187_j89309549953719_2_alg».proof.Proof.KernelLayout
import proofs.«155187_j89309549953719_2_alg».proof.Proof.KernelWords
import proofs.«155187_j89309549953719_2_alg».proof.Proof.KernelCounts
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-! # The kernel's prototype distances from one row of blocks

The kernel scales every pixel's channel vector of the strip to unit length, contracts the unit vectors with the
one-hot over the strip's 1024 pixels and divides by the floored counts: at the code 19 cb + k this is the
prototype of class k in block (rb, cb), because the one-hot vanishes outside column block cb and a product with
0 is 0 for every extended real. The second difference of the three frames' prototypes, its absolute value summed
over the channels and divided by the number of channels, is the distance of the specification. -/

/-- The kernel's unit vector at channel c of pixel (i, w) of the strip is the image's at row 8 rb + i, column w. -/
theorem pay6_apply (X : Cert.Spec.SX.Idx → EReal) (n : Fin 2) (rb : Fin 16) (x0 : Vec Ideal S3x1x256x8x128 .f32)
    (hx0 : ∀ (f : Fin 3) (c : Fin 256) (i : Fin 8) (w : Fin 128),
      x0 (ix5 f 0 c i w) = X (ix5 f n c (Cert.Spec.px rb i) w))
    (f : Fin 3) (c : Fin 256) (i : Fin 8) (w : Fin 128) :
    k0_pay6 (F := Ideal) x0 (ix4 f c i w) = Cert.Spec.dir X f n c (Cert.Spec.px rb i) w := by
  have hv4 : ∀ c' : Fin 256, shapeCast S3x256x8x128 x0 shapeCasts_S3x1x256x8x128_S3x256x8x128 (ix4 f c' i w)
      = X (ix5 f n c' (Cert.Spec.px rb i) w) := fun c' => (sc_feat x0 f c' i w).trans (hx0 f c' i w)
  simp only [k0_pay6]
  show Ideal.div (shapeCast S3x256x8x128 x0 shapeCasts_S3x1x256x8x128_S3x256x8x128 (ix4 f c i w))
      (broadcastTo S3x256x8x128 _ broadcasts_S3x1x8x128_S3x256x8x128 (ix4 f c i w)) = _
  rw [hv4, bc_chan, sc_frame1]
  show Ideal.div _ (max (Ideal.sqrt (multiReduction (F := Ideal) .add [1] S3x8x128 _ 0x00000000#32
      reduces_S3x256x8x128_S3x8x128 (.inl rfl) rfl (ix3 f i w))) (Ideal.ofBits .f32 0x2B8CBCCC#32)) = _
  rw [red_chan]
  have hsum : ∑ c' : Fin 256, mulf (F := Ideal) (φ := .f32) (shapeCast S3x256x8x128 x0 shapeCasts_S3x1x256x8x128_S3x256x8x128)
        (shapeCast S3x256x8x128 x0 shapeCasts_S3x1x256x8x128_S3x256x8x128) (ix4 f c' i w)
      = ∑ c' : Fin 256, X (ix5 f n c' (Cert.Spec.px rb i) w) * X (ix5 f n c' (Cert.Spec.px rb i) w) :=
    Finset.sum_congr rfl fun c' _ => by
      show shapeCast S3x256x8x128 x0 shapeCasts_S3x1x256x8x128_S3x256x8x128 (ix4 f c' i w)
        * shapeCast S3x256x8x128 x0 shapeCasts_S3x1x256x8x128_S3x256x8x128 (ix4 f c' i w) = _
      rw [hv4 c']
  rw [hsum]
  rfl

/-- The kernel's prototypes for all frames, channels and codes: the contraction of the unit vectors with the
    one-hot, divided by the counts floored at one. -/
def protoK (v6 : IVec S3x8x128 32) (v14 : FVec Ideal S3x256x8x128 .f32) (v17 : IVec S8x128 32) (v36 : IVec S8x128 1) :
    FVec Ideal S3x256x304 .f32 :=
  divf
    (matmul dot_S3x256x1024_S3x304x1024_S3x256x304_2_2_1_1_0_0 none
      (truncf .bf16 (shapeCast S3x256x1024 v14 shapeCasts_S3x256x8x128_S3x256x1024) bitsLt_bf16_f32)
      (k0_pay9 (F := Ideal) v6 v17 v36) (constant S3x256x304 .f32 0x00000000#32))
    (broadcastTo S3x256x304
      (shapeCast S3x1x304 (maximumf (k0_pay10 (F := Ideal) v6 v17 v36)
        (broadcast S3x304 (Scalar.ofBits (F := Ideal) .f32 0x3F800000#32))) shapeCasts_S3x304_S3x1x304)
      broadcasts_S3x1x304_S3x256x304)

/-- At frame f, channel c and code q: the sum over the strip's pixels of unit vector times one-hot, divided by
    the floored count. -/
theorem protoK_apply (v6 : IVec S3x8x128 32) (v14 : FVec Ideal S3x256x8x128 .f32) (v17 : IVec S8x128 32)
    (v36 : IVec S8x128 1) (f : Fin 3) (c : Fin 256) (q : Fin 304) :
    protoK v6 v14 v17 v36 (ix3 f c q)
      = Ideal.div (∑ i : Fin 8, ∑ w : Fin 128,
          v14 (ix4 f c i w) * k0_pay9 (F := Ideal) v6 v17 v36 (ix3 f q (finProdFinEquiv (i, w) : Fin (8 * 128))))
        (max (k0_pay10 (F := Ideal) v6 v17 v36 (ix2 f q)) (Ideal.ofBits .f32 0x3F800000#32)) := by
  unfold protoK
  show Ideal.div (matmul dot_S3x256x1024_S3x304x1024_S3x256x304_2_2_1_1_0_0 none
      (truncf .bf16 (shapeCast S3x256x1024 v14 shapeCasts_S3x256x8x128_S3x256x1024) bitsLt_bf16_f32)
      (k0_pay9 (F := Ideal) v6 v17 v36) (constant S3x256x304 .f32 0x00000000#32) (ix3 f c q))
    (broadcastTo S3x256x304 _ broadcasts_S3x1x304_S3x256x304 (ix3 f c q)) = _
  rw [mm_apply, bc_cnt, sc_cnt1]
  refine congrArg₂ Ideal.div ?_ rfl
  refine (Cert.GridSum.sum_fin_mul 8 128 _).trans ?_
  refine Finset.sum_congr rfl fun i _ => Finset.sum_congr rfl fun w _ => ?_
  show shapeCast S3x256x1024 v14 shapeCasts_S3x256x8x128_S3x256x1024
      (ix3 f c (finProdFinEquiv (i, w) : Fin (8 * 128))) * _ = _
  rw [sc_dir]

section Frames
variable (P : FVec Ideal S3x256x304 .f32) (c : Fin 256) (q : Fin 304)

/-- Frame 0 of a prototype tensor, read at channel c and code q. -/
theorem frame0_apply :
    shapeCast S256x304 (extractStridedSlice S1x256x304 ![0, 0, 0] P slices_S3x256x304_o0_0_0_S1x256x304)
      shapeCasts_S1x256x304_S256x304 (ix2 c q) = P (ix3 (0 : Fin 3) c q) :=
  (sc_proto _ c q).trans (sl_frame0 P c q)
/-- Frame 1. -/
theorem frame1_apply :
    shapeCast S256x304 (extractStridedSlice S1x256x304 ![1, 0, 0] P slices_S3x256x304_o1_0_0_S1x256x304)
      shapeCasts_S1x256x304_S256x304 (ix2 c q) = P (ix3 (1 : Fin 3) c q) :=
  (sc_proto _ c q).trans (sl_frame1 P c q)
/-- Frame 2. -/
theorem frame2_apply :
    shapeCast S256x304 (extractStridedSlice S1x256x304 ![2, 0, 0] P slices_S3x256x304_o2_0_0_S1x256x304)
      shapeCasts_S1x256x304_S256x304 (ix2 c q) = P (ix3 (2 : Fin 3) c q) :=
  (sc_proto _ c q).trans (sl_frame2 P c q)

end Frames

/-- The kernel's distance at code q: the absolute second difference of the three frames' prototypes, summed over
    the channels and divided by the word of 256. -/
theorem pay11_apply (v6 : IVec S3x8x128 32) (v14 : FVec Ideal S3x256x8x128 .f32) (v17 : IVec S8x128 32)
    (v36 : IVec S8x128 1) (q : Fin 304) :
    k0_pay11 (F := Ideal) v6 v14 v17 v36 (ix1 q)
      = Ideal.div (∑ c : Fin 256,
          max (protoK v6 v14 v17 v36 (ix3 (0 : Fin 3) c q)
                - Ideal.ofBits .f32 0x40000000#32 * protoK v6 v14 v17 v36 (ix3 (1 : Fin 3) c q)
                + protoK v6 v14 v17 v36 (ix3 (2 : Fin 3) c q))
            (-(protoK v6 v14 v17 v36 (ix3 (0 : Fin 3) c q)
                - Ideal.ofBits .f32 0x40000000#32 * protoK v6 v14 v17 v36 (ix3 (1 : Fin 3) c q)
                + protoK v6 v14 v17 v36 (ix3 (2 : Fin 3) c q))))
        (Ideal.ofBits .f32 0x43800000#32) := by
  simp only [k0_pay11]
  show Ideal.div (multiReduction (F := Ideal) .add [0] S304 _ 0x00000000#32 reduces_S256x304_S304 (.inl rfl) rfl (ix1 q))
      (Ideal.ofBits .f32 0x43800000#32) = _
  rw [red_abs]
  refine congrArg (fun s => Ideal.div s (Ideal.ofBits .f32 0x43800000#32)) (Finset.sum_congr rfl fun c _ => ?_)
  show max
      (shapeCast S256x304 (extractStridedSlice S1x256x304 ![0, 0, 0] (protoK v6 v14 v17 v36)
          slices_S3x256x304_o0_0_0_S1x256x304) shapeCasts_S1x256x304_S256x304 (ix2 c q)
        - Ideal.ofBits .f32 0x40000000#32
          * shapeCast S256x304 (extractStridedSlice S1x256x304 ![1, 0, 0] (protoK v6 v14 v17 v36)
              slices_S3x256x304_o1_0_0_S1x256x304) shapeCasts_S1x256x304_S256x304 (ix2 c q)
        + shapeCast S256x304 (extractStridedSlice S1x256x304 ![2, 0, 0] (protoK v6 v14 v17 v36)
            slices_S3x256x304_o2_0_0_S1x256x304) shapeCasts_S1x256x304_S256x304 (ix2 c q))
      (-(shapeCast S256x304 (extractStridedSlice S1x256x304 ![0, 0, 0] (protoK v6 v14 v17 v36)
          slices_S3x256x304_o0_0_0_S1x256x304) shapeCasts_S1x256x304_S256x304 (ix2 c q)
        - Ideal.ofBits .f32 0x40000000#32
          * shapeCast S256x304 (extractStridedSlice S1x256x304 ![1, 0, 0] (protoK v6 v14 v17 v36)
              slices_S3x256x304_o1_0_0_S1x256x304) shapeCasts_S1x256x304_S256x304 (ix2 c q)
        + shapeCast S256x304 (extractStridedSlice S1x256x304 ![2, 0, 0] (protoK v6 v14 v17 v36)
            slices_S3x256x304_o2_0_0_S1x256x304) shapeCasts_S1x256x304_S256x304 (ix2 c q))) = _
  rw [frame0_apply, frame1_apply, frame2_apply]

/-- The kernel's prototype at the code of (column block cb, class k) is the prototype of class k in block (rb, cb):
    outside column block cb the one-hot is 0 and the product vanishes; inside it the product is the indicator times
    the unit vector. -/
theorem proto_eq (X : Cert.Spec.SX.Idx → EReal) (L : Cert.Spec.SL.Idx → BitVec 32) (hL : Cert.Spec.Labelled L)
    (n : Fin 2) (rb : Fin 16) (x0 : Vec Ideal S3x1x256x8x128 .f32) (x1 : Vec Ideal S3x1x1x8x128 .i32)
    (hx0 : ∀ (f : Fin 3) (c : Fin 256) (i : Fin 8) (w : Fin 128),
      x0 (ix5 f 0 c i w) = X (ix5 f n c (Cert.Spec.px rb i) w))
    (hx1 : ∀ (f : Fin 3) (i : Fin 8) (w : Fin 128), x1 (ix5 f 0 0 i w) = L (ix5 f n 0 (Cert.Spec.px rb i) w))
    (f : Fin 3) (cb : Fin 16) (k : Fin 19) (c : Fin 256) :
    protoK (k0_pay5 (F := Ideal) x1) (k0_pay6 (F := Ideal) x0) k0_pay7 k0_pay8 (ix3 f c (Cert.Spec.cls cb k))
      = Cert.Spec.proto X L f n rb cb k c := by
  rw [protoK_apply, cnt_eq L hL n rb x1 hx1 f cb k]
  have hnum : ∑ i : Fin 8, ∑ w : Fin 128, k0_pay6 (F := Ideal) x0 (ix4 f c i w)
        * k0_pay9 (F := Ideal) (k0_pay5 (F := Ideal) x1) k0_pay7 k0_pay8
            (ix3 f (Cert.Spec.cls cb k) (finProdFinEquiv (i, w) : Fin (8 * 128)))
      = Cert.Spec.psum X L f n rb cb k c := by
    refine (Finset.sum_congr rfl fun i _ => Finset.sum_congr rfl fun w _ => by
      rw [pay6_apply X n rb x0 hx0, onehot_eq L hL n rb x1 hx1]).trans ?_
    refine (sum_strip_block cb
      (fun i w => Cert.Spec.dir X f n c (Cert.Spec.px rb i) w
        * (if w.val / 8 = cb.val then Cert.Spec.hot L f n (Cert.Spec.px rb i) w k else 0))
      (fun i w h => by rw [if_neg h, mul_zero])).trans ?_
    refine Finset.sum_congr rfl fun i _ => Finset.sum_congr rfl fun j _ => ?_
    rw [if_pos (px_div cb j), mul_comm]
  rw [hnum]
  rfl

/-- The kernel's distance at the code of (column block cb, class k) is the distance of class k in block (rb, cb). -/
theorem l1_eq (X : Cert.Spec.SX.Idx → EReal) (L : Cert.Spec.SL.Idx → BitVec 32) (hL : Cert.Spec.Labelled L)
    (n : Fin 2) (rb : Fin 16) (x0 : Vec Ideal S3x1x256x8x128 .f32) (x1 : Vec Ideal S3x1x1x8x128 .i32)
    (hx0 : ∀ (f : Fin 3) (c : Fin 256) (i : Fin 8) (w : Fin 128),
      x0 (ix5 f 0 c i w) = X (ix5 f n c (Cert.Spec.px rb i) w))
    (hx1 : ∀ (f : Fin 3) (i : Fin 8) (w : Fin 128), x1 (ix5 f 0 0 i w) = L (ix5 f n 0 (Cert.Spec.px rb i) w))
    (cb : Fin 16) (k : Fin 19) :
    k0_pay11 (F := Ideal) (k0_pay5 (F := Ideal) x1) (k0_pay6 (F := Ideal) x0) (k0_pay7) (k0_pay8)
        (ix1 (Cert.Spec.cls cb k))
      = Cert.Spec.l1 X L n rb cb k := by
  rw [pay11_apply]
  refine congrArg (fun s => Ideal.div s (Ideal.ofBits .f32 0x43800000#32)) (Finset.sum_congr rfl fun c _ => ?_)
  rw [proto_eq X L hL n rb x0 x1 hx0 hx1 0, proto_eq X L hL n rb x0 x1 hx0 hx1 1,
    proto_eq X L hL n rb x0 x1 hx0 hx1 2]
  rfl

end Cert.KernelValue

end
-- ==== Proof.KernelRowBits.lean ====
import Idealize.ShloMosaic.PureOps.Ideal
import Idealize.ShloMosaic.PureOps.Ideal.Laws
import Idealize.ShloMosaic.Lib.ValueIdx

/-!
# Words and flags behind the row sums

Two small facts about machine words and their reading as extended reals.

* A one-bit flag widened to 32 bits and read as a signed integer is the real number 1 or 0; the
  conjunction of three strict positivity tests is the flag of "all three are positive".
* For a code e = 19 cb + k below 304 the signed quotient of e by 19, with the floor-division
  correction for operands of different sign, is cb: the dividend is never negative, so the
  correction never applies, and the signed quotient of two non-negative words is the quotient of the
  natural numbers they stand for.
-/

noncomputable section

namespace Cert.KernelValue

open Idealize.ShloMosaic Idealize.ShloMosaic.ValueIdx

/-- The strict comparison with zero is the flag of positivity. -/
theorem cmp_ogt_zero (a : EReal) : Ideal.cmp .ogt a 0 = if 0 < a then 1#1 else 0#1 := by
  unfold Ideal.cmp
  by_cases h : 0 < a <;> simp [h]

/-- A one-bit flag, widened and read as a signed integer, is 1 or 0. -/
theorem flag_toReal (p : Prop) [Decidable p] :
    (((((if p then 1#1 else 0#1 : BitVec 1).setWidth 32).toInt : ℤ) : ℝ) : EReal) = if p then 1 else 0 := by
  by_cases h : p
  · rw [if_pos h, if_pos h]
    have : ((1#1 : BitVec 1).setWidth 32).toInt = 1 := by decide
    rw [this]; norm_num
  · rw [if_neg h, if_neg h]
    have : ((0#1 : BitVec 1).setWidth 32).toInt = 0 := by decide
    rw [this]; norm_num

/-- The conjunction of two flags is the flag of the conjunction. -/
theorem flag_and (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

/-- Three positivity tests, conjoined, widened and converted: 1 when all three numbers are positive,
else 0. -/
theorem flag3_eq (a b c : EReal) :
    ((((IntOp.andi (IntOp.andi (Ideal.cmp .ogt a 0) (Ideal.cmp .ogt b 0)) (Ideal.cmp .ogt c 0)).setWidth 32).toInt : ℝ) : EReal)
      = if 0 < a ∧ 0 < b ∧ 0 < c then 1 else 0 := by
  rw [cmp_ogt_zero, cmp_ogt_zero, cmp_ogt_zero, flag_and, flag_and, flag_toReal]
  by_cases h : 0 < a ∧ 0 < b ∧ 0 < c
  · rw [if_pos h, if_pos ⟨⟨h.1, h.2.1⟩, h.2.2⟩]
  · rw [if_neg h, if_neg (fun h' => h ⟨h'.1.1, h'.1.2, h'.2⟩)]

/-- The word computation that decides whether code x belongs to column block y: the signed
quotient of x by 19, lowered by one when the operands' signs differ and the division is inexact,
compared with y; the outcome widened and converted. -/
def belongsWord (x y : BitVec 32) : EReal :=
  ((((IntOp.cmpi .eq
      (Scalar.select
        (IntOp.andi
          (IntOp.cmpi .ne
            (IntOp.subi ((IntOp.cmpi .sgt x 0#32).setWidth 32) ((IntOp.cmpi .slt x 0#32).setWidth 32))
            (Scalar.subi (Scalar.extui (Scalar.cmpi .sgt 19#32 0#32)) (Scalar.extui (Scalar.cmpi .slt 19#32 0#32))))
          (IntOp.cmpi .ne (IntOp.remsi .vector x 19#32) 0#32))
        (IntOp.subi (IntOp.divsi .vector x 19#32) 1#32)
        (IntOp.divsi .vector x 19#32))
      y).setWidth 32).toInt : ℝ) : EReal)

/-- A natural number below 304 as a 32-bit word: the word stands for the number, its sign bit is clear,
and it reads the same signed. -/
theorem word_small (e : Nat) (he : e < 304) :
    (BitVec.ofNat 32 e).toNat = e ∧ (BitVec.ofNat 32 e).msb = false ∧ (BitVec.ofNat 32 e).toInt = (e : ℤ) := by
  have h1 : (BitVec.ofNat 32 e).toNat = e := by
    rw [BitVec.toNat_ofNat]; exact Nat.mod_eq_of_lt (by omega)
  have h2 : (BitVec.ofNat 32 e).msb = false := by
    rw [BitVec.msb_eq_false_iff_two_mul_lt, h1]; omega
  exact ⟨h1, h2, by rw [BitVec.toInt_eq_toNat_of_msb h2, h1]⟩

/-- Dividing by the word 19 is never one of the signed division's exceptional cases. -/
theorem not_corner_19 (x : BitVec 32) : ¬ IntOp.SDivCorner x 19#32 := by
  rintro (h | ⟨_, h⟩)
  · exact absurd h (by decide)
  · exact absurd h (by decide)

/-- For a natural number e below 304 the signed quotient of its word by 19 is the word of e / 19:
both operands are non-negative, so the signed quotient is the unsigned one. -/
theorem divsi_19 (e : Nat) (he : e < 304) :
    IntOp.divsi .vector (BitVec.ofNat 32 e) 19#32 = BitVec.ofNat 32 (e / 19) := by
  obtain ⟨h1, h2, _⟩ := word_small e he
  unfold IntOp.divsi
  rw [if_neg (not_corner_19 _), BitVec.sdiv_eq, h2, (by decide : (19#32 : BitVec 32).msb = false)]
  apply BitVec.eq_of_toNat_eq
  show ((BitVec.ofNat 32 e).udiv 19#32).toNat = _
  rw [BitVec.udiv_eq, BitVec.toNat_udiv, h1, BitVec.toNat_ofNat]
  show e / 19 = e / 19 % 2 ^ 32
  omega

/-- Likewise the signed remainder is the word of e % 19. -/
theorem remsi_19 (e : Nat) (he : e < 304) :
    IntOp.remsi .vector (BitVec.ofNat 32 e) 19#32 = BitVec.ofNat 32 (e % 19) := by
  obtain ⟨h1, h2, _⟩ := word_small e he
  unfold IntOp.remsi
  rw [if_neg (not_corner_19 _), BitVec.srem_eq, h2, (by decide : (19#32 : BitVec 32).msb = false)]
  apply BitVec.eq_of_toNat_eq
  show ((BitVec.ofNat 32 e) % 19#32).toNat = _
  rw [BitVec.toNat_umod, h1, BitVec.toNat_ofNat]
  show e % 19 = e % 19 % 2 ^ 32
  omega

/-- The floor-division correction does not apply to a dividend below 304: a positive dividend has the
divisor's sign, and the dividend 0 leaves no remainder. -/
theorem no_correction (e : Nat) (he : e < 304) :
    IntOp.andi
      (IntOp.cmpi .ne
        (IntOp.subi ((IntOp.cmpi .sgt (BitVec.ofNat 32 e) 0#32).setWidth 32) ((IntOp.cmpi .slt (BitVec.ofNat 32 e) 0#32).setWidth 32))
        (Scalar.subi (Scalar.extui (Scalar.cmpi .sgt 19#32 0#32)) (Scalar.extui (Scalar.cmpi .slt 19#32 0#32))))
      (IntOp.cmpi .ne (IntOp.remsi .vector (BitVec.ofNat 32 e) 19#32) 0#32) = 0#1 := by
  obtain ⟨_, _, h3⟩ := word_small e he
  rcases Nat.eq_zero_or_pos e with h0 | hpos
  · subst h0
    rw [remsi_19 0 he]
    decide
  · have hsgt : IntOp.cmpi .sgt (BitVec.ofNat 32 e) 0#32 = 1#1 := by
      show BitVec.ofBool ((0#32 : BitVec 32).slt (BitVec.ofNat 32 e)) = 1#1
      rw [BitVec.slt_eq_decide, h3, (by decide : (0#32 : BitVec 32).toInt = 0),
        decide_eq_true (by exact_mod_cast hpos)]
      rfl
    have hslt : IntOp.cmpi .slt (BitVec.ofNat 32 e) 0#32 = 0#1 := by
      show BitVec.ofBool ((BitVec.ofNat 32 e).slt (0#32 : BitVec 32)) = 0#1
      rw [BitVec.slt_eq_decide, h3, (by decide : (0#32 : BitVec 32).toInt = 0),
        decide_eq_false (by omega)]
      rfl
    rw [hsgt, hslt]
    have hne : IntOp.cmpi .ne (IntOp.subi ((1#1 : BitVec 1).setWidth 32) ((0#1 : BitVec 1).setWidth 32))
        (Scalar.subi (Scalar.extui (Scalar.cmpi .sgt 19#32 0#32)) (Scalar.extui (Scalar.cmpi .slt 19#32 0#32))) = 0#1 := by
      decide
    rw [hne]
    unfold IntOp.andi
    exact BitVec.zero_and

/-- So the computation answers whether e / 19 is the column block. -/
theorem belongsWord_eq (e nb : Nat) (he : e < 304) (hnb : nb < 16) :
    belongsWord (BitVec.ofNat 32 e) (BitVec.ofNat 32 nb) = if e / 19 = nb then 1 else 0 := by
  unfold belongsWord
  rw [no_correction e he, select_zero, divsi_19 e he]
  have hcmp : IntOp.cmpi .eq (BitVec.ofNat 32 (e / 19)) (BitVec.ofNat 32 nb) = if e / 19 = nb then 1#1 else 0#1 := by
    show BitVec.ofBool (BitVec.ofNat 32 (e / 19) == BitVec.ofNat 32 nb) = _
    by_cases h : e / 19 = nb
    · rw [if_pos h, h]; simp
    · rw [if_neg h]
      have : BitVec.ofNat 32 (e / 19) ≠ BitVec.ofNat 32 nb := by
        intro hh
        have := congrArg BitVec.toNat hh
        rw [BitVec.toNat_ofNat, BitVec.toNat_ofNat] at this
        omega
      rw [beq_eq_false_iff_ne.mpr this]
      rfl
  rw [hcmp]
  exact flag_toReal _

end Cert.KernelValue

end
-- ==== Proof.KernelRowFlags.lean ====
import proofs.«155187_j89309549953719_2_alg».proof.Proof.Gen.KernelIdeal.Skeleton
import proofs.«155187_j89309549953719_2_alg».proof.Proof.Spec
import proofs.«155187_j89309549953719_2_alg».proof.Proof.KernelRowBits
import Idealize.ShloMosaic.Lib.ValueLayout
import Idealize.ShloMosaic.Lib.Pipeline.Value
import Idealize.ShloMosaic.PureOps.Ideal.Laws

/-!
# The validity flag and the membership matrix at an index

At one grid point the kernel holds a 3 x 304 table of counts: entry (f, 19 cb + k) is the number of
pixels of column block cb labelled k in frame f. From it the kernel forms, per code, the flag "the
count is positive in all three frames" as a float 0 or 1, and, independently of the data, the
304 x 16 matrix whose entry (e, nb) is 1 when code e belongs to column block nb and 0 otherwise.
This file reads both at an index.
-/

noncomputable section

namespace Cert.KernelValue

open Cert.KernelIdeal Cert.KernelIdeal.Gen Idealize.ShloMosaic Idealize.ShloMosaic.ValueIdx

/-- Row 0 of a 3 x 304 table, cut out and flattened, read at code e. -/
theorem row0_apply (C : FVec Ideal S3x304 .f32) (e : Fin 304) :
    shapeCast S304 (extractStridedSlice S1x304 ![0, 0] C slices_S3x304_o0_0_S1x304) shapeCasts_S1x304_S304 (ix1 e)
      = C (ix2 (0 : Fin 3) e) :=
  (shapeCast_1a_a_apply _ _ e).trans (slice2_axis0_apply 0 C _ (0 : Fin 1) e (0 : Fin 3) rfl)

/-- Row 1 likewise. -/
theorem row1_apply (C : FVec Ideal S3x304 .f32) (e : Fin 304) :
    shapeCast S304 (extractStridedSlice S1x304 ![1, 0] C slices_S3x304_o1_0_S1x304) shapeCasts_S1x304_S304 (ix1 e)
      = C (ix2 (1 : Fin 3) e) :=
  (shapeCast_1a_a_apply _ _ e).trans (slice2_axis0_apply 1 C _ (0 : Fin 1) e (1 : Fin 3) rfl)

/-- Row 2 likewise. -/
theorem row2_apply (C : FVec Ideal S3x304 .f32) (e : Fin 304) :
    shapeCast S304 (extractStridedSlice S1x304 ![2, 0] C slices_S3x304_o2_0_S1x304) shapeCasts_S1x304_S304 (ix1 e)
      = C (ix2 (2 : Fin 3) e) :=
  (shapeCast_1a_a_apply _ _ e).trans (slice2_axis0_apply 2 C _ (0 : Fin 1) e (2 : Fin 3) rfl)

/-- The flag at code 19 cb + k: 1 when class k occurs in column block cb in every frame, else 0. -/
theorem valid_eq (L : Cert.Spec.SL.Idx → BitVec 32) (n : Fin 2) (rb : Fin 16)
    (v6 : IVec S3x8x128 32) (v17 : IVec S8x128 32) (v36 : IVec S8x128 1)
    (h10 : ∀ (f : Fin 3) (cb : Fin 16) (k : Fin 19),
      k0_pay10 (F := Ideal) v6 v17 v36 (ix2 f (Cert.Spec.cls cb k)) = Cert.Spec.cnt L f n rb cb k)
    (cb : Fin 16) (k : Fin 19) :
    k0_pay14 (F := Ideal) (k0_pay10 (F := Ideal) v6 v17 v36) (k0_pay12 (F := Ideal) v6 v17 v36)
        (k0_pay13 (F := Ideal) v6 v17 v36) (ix1 (Cert.Spec.cls cb k))
      = Cert.Spec.valid L n rb cb k := by
  unfold k0_pay14 k0_pay12 k0_pay13
  generalize k0_pay10 (F := Ideal) v6 v17 v36 = C at h10 ⊢
  show ((((IntOp.andi (IntOp.andi
      (Ideal.cmp .ogt (shapeCast S304 (extractStridedSlice S1x304 ![0, 0] C slices_S3x304_o0_0_S1x304) shapeCasts_S1x304_S304 (ix1 (Cert.Spec.cls cb k))) (Ideal.ofBits .f32 0x00000000#32))
      (Ideal.cmp .ogt (shapeCast S304 (extractStridedSlice S1x304 ![1, 0] C slices_S3x304_o1_0_S1x304) shapeCasts_S1x304_S304 (ix1 (Cert.Spec.cls cb k))) (Ideal.ofBits .f32 0x00000000#32)))
      (Ideal.cmp .ogt (shapeCast S304 (extractStridedSlice S1x304 ![2, 0] C slices_S3x304_o2_0_S1x304) shapeCasts_S1x304_S304 (ix1 (Cert.Spec.cls cb k))) (Ideal.ofBits .f32 0x00000000#32))).setWidth 32).toInt : ℝ) : EReal) = _
  rw [row0_apply, row1_apply, row2_apply, Ideal.ofBits_zero_f32, flag3_eq, h10 0 cb k, h10 1 cb k, h10 2 cb k]
  unfold Cert.Spec.valid
  by_cases h : ∀ f : Fin 3, 0 < Cert.Spec.cnt L f n rb cb k
  · rw [if_pos h, if_pos ⟨h 0, h 1, h 2⟩]
  · have h' : ¬(0 < Cert.Spec.cnt L 0 n rb cb k ∧ 0 < Cert.Spec.cnt L 1 n rb cb k ∧ 0 < Cert.Spec.cnt L 2 n rb cb k) := by
      intro hh
      refine h fun f => ?_
      match f with
      | ⟨0, _⟩ => exact hh.1
      | ⟨1, _⟩ => exact hh.2.1
      | ⟨2, _⟩ => exact hh.2.2
    rw [if_neg h, if_neg h']

/-- The membership matrix is a word computation on its two coordinates. -/
theorem k0_pay15_apply (e : Fin 304) (nb : Fin 16) :
    k0_pay15 (F := Ideal) (ix2 e nb)
      = belongsWord (iota .tc S304x16 32 [0] iota_S304x16_d0_w32 (ix2 e nb))
          (iota .tc S304x16 32 [1] iota_S304x16_d1_w32 (ix2 e nb)) := rfl

/-- Code 19 cb + k belongs to column block nb exactly when cb = nb. -/
theorem belongs (cb nb : Fin 16) (k : Fin 19) :
    k0_pay15 (F := Ideal) (ix2 (Cert.Spec.cls cb k) nb) = if cb = nb then 1 else 0 := by
  rw [k0_pay15_apply, iota_single_apply, iota_single_apply]
  show belongsWord (BitVec.ofNat 32 (Cert.Spec.cls cb k).val) (BitVec.ofNat 32 nb.val) = _
  rw [belongsWord_eq _ _ (Cert.Spec.cls cb k).isLt nb.isLt]
  refine if_congr ?_ rfl rfl
  show (19 * cb.val + k.val) / 19 = nb.val ↔ cb = nb
  have hk := k.isLt
  constructor
  · intro h; apply Fin.ext; omega
  · intro h; subst h; omega

end Cert.KernelValue

end
-- ==== Proof.KernelRowDot.lean ====
import proofs.«155187_j89309549953719_2_alg».proof.Proof.Gen.KernelIdeal.Skeleton
import proofs.«155187_j89309549953719_2_alg».proof.Proof.Spec
import proofs.«155187_j89309549953719_2_alg».proof.Proof.KernelRowFlags
import Idealize.ShloMosaic.Lib.ValueLayout
import Idealize.ShloMosaic.Lib.Pipeline.Value
import Idealize.ShloMosaic.PureOps.Ideal.Laws
import proofs.«155187_j89309549953719_2_alg».proof.Proof.LibGridSum

/-!
# The two products with the membership matrix

The kernel multiplies a row vector over the 304 codes by the 304 x 16 membership matrix. Entry nb of
the product is the sum over all codes e of (the vector at e) times (1 if e belongs to column block nb,
else 0). Writing e = 19 cb + k splits the sum by column block; in the blocks other than nb every term
is something times zero, which is zero for every extended real, and in block nb the factor is one. So
entry nb is the sum of the vector over the 19 classes of column block nb: with the validity flags
as the vector this is the number of valid classes, with distance times flag it is the summed
distance of the valid classes.
-/

noncomputable section

namespace Cert.KernelValue

open Cert.KernelIdeal Cert.KernelIdeal.Gen Idealize.ShloMosaic Idealize.ShloMosaic.ValueIdx

/-- The left operand's index at output (u, nb): its row coordinate is the output's. -/
theorem lhs_row (j : S1x16.Idx) (q : dot_S1x304_S304x16_S1x16_1_0_0_1_n_n.contr.Idx) :
    (dot_S1x304_S304x16_S1x16_1_0_0_1_n_n.lhsIdx j q 0).val = (j 0).val := by
  unfold DotDims.lhsIdx
  rw [dif_neg (show ¬(0 : Fin S1x304.rank) ∈ dot_S1x304_S304x16_S1x16_1_0_0_1_n_n.lhsBatch by decide),
    dif_pos (show (0 : Fin S1x304.rank) ∈ dot_S1x304_S304x16_S1x16_1_0_0_1_n_n.lhsNonContracting by decide)]
  rfl

/-- Its column coordinate is the contraction position. -/
theorem lhs_col (j : S1x16.Idx) (q : dot_S1x304_S304x16_S1x16_1_0_0_1_n_n.contr.Idx) :
    (dot_S1x304_S304x16_S1x16_1_0_0_1_n_n.lhsIdx j q 1).val = (q ⟨0, by decide⟩).val :=
  dot_S1x304_S304x16_S1x16_1_0_0_1_n_n.lhsIdx_val_of_single rfl j q

/-- The right operand's row coordinate is the contraction position. -/
theorem rhs_row (j : S1x16.Idx) (q : dot_S1x304_S304x16_S1x16_1_0_0_1_n_n.contr.Idx) :
    (dot_S1x304_S304x16_S1x16_1_0_0_1_n_n.rhsIdx j q 0).val = (q ⟨0, by decide⟩).val :=
  dot_S1x304_S304x16_S1x16_1_0_0_1_n_n.rhsIdx_val_of_single rfl j q

/-- Its column coordinate is the output's. -/
theorem rhs_col (j : S1x16.Idx) (q : dot_S1x304_S304x16_S1x16_1_0_0_1_n_n.contr.Idx) :
    (dot_S1x304_S304x16_S1x16_1_0_0_1_n_n.rhsIdx j q 1).val = (j 1).val := by
  unfold DotDims.rhsIdx
  rw [dif_neg (show ¬(1 : Fin S304x16.rank) ∈ dot_S1x304_S304x16_S1x16_1_0_0_1_n_n.rhsBatch by decide),
    dif_pos (show (1 : Fin S304x16.rank) ∈ dot_S1x304_S304x16_S1x16_1_0_0_1_n_n.rhsNonContracting by decide)]
  rfl

/-- The product of a 1 x 304 row with a 304 x 16 matrix into the zero accumulator, at (u, nb): the
sum over the codes of row entry times matrix entry. -/
theorem dot_row (A : FVec Ideal S1x304 .f32) (B : FVec Ideal S304x16 .f32) (u : Fin 1) (nb : Fin 16) :
    FloatOps.matmul dot_S1x304_S304x16_S1x16_1_0_0_1_n_n (some .fp32) A B
        (constant (F := Ideal) S1x16 .f32 0x00000000#32) (ix2 u nb)
      = ∑ e : Fin 304, A (ix2 u e) * B (ix2 e nb) := by
  rw [Ideal.matmul_constant_zero_apply,
    ← Equiv.sum_comp (contrEquiv1 dot_S1x304_S304x16_S1x16_1_0_0_1_n_n 304 rfl rfl).symm]
  refine Finset.sum_congr rfl fun e _ => ?_
  have hk := contrEquiv1_symm_val dot_S1x304_S304x16_S1x16_1_0_0_1_n_n 304 rfl rfl e
  have el : dot_S1x304_S304x16_S1x16_1_0_0_1_n_n.lhsIdx (ix2 u nb)
      ((contrEquiv1 dot_S1x304_S304x16_S1x16_1_0_0_1_n_n 304 rfl rfl).symm e) = ix2 u e :=
    funext fun a => Fin.ext (by
      match a with
      | ⟨0, _⟩ => exact lhs_row _ _
      | ⟨1, _⟩ => exact (lhs_col _ _).trans hk)
  have er : dot_S1x304_S304x16_S1x16_1_0_0_1_n_n.rhsIdx (ix2 u nb)
      ((contrEquiv1 dot_S1x304_S304x16_S1x16_1_0_0_1_n_n 304 rfl rfl).symm e) = ix2 e nb :=
    funext fun a => Fin.ext (by
      match a with
      | ⟨0, _⟩ => exact (rhs_row _ _).trans hk
      | ⟨1, _⟩ => exact rhs_col _ _)
  rw [el, er]

/-- Code 19 cb + k as the pair (cb, k) in the row-major numbering of 16 x 19 pairs. -/
theorem pair_eq_cls (cb : Fin 16) (k : Fin 19) :
    (finProdFinEquiv (cb, k) : Fin (16 * 19)) = Cert.Spec.cls cb k := by
  apply Fin.ext
  simp only [finProdFinEquiv, Equiv.coe_fn_mk, Cert.Spec.cls]
  omega

/-- A sum over the codes of a term times the code's membership in column block nb is the sum of the
term over the 19 classes of that block. -/
theorem sum_belongs (V : Fin 304 → EReal) (nb : Fin 16) :
    ∑ e : Fin 304, V e * k0_pay15 (F := Ideal) (ix2 e nb) = ∑ k : Fin 19, V (Cert.Spec.cls nb k) := by
  refine (Cert.GridSum.sum_fin_mul (M := EReal) 16 19
    (fun e : Fin (16 * 19) => V e * k0_pay15 (F := Ideal) (ix2 e nb))).trans ?_
  rw [Finset.sum_eq_single nb]
  · refine Finset.sum_congr rfl fun k _ => ?_
    rw [pair_eq_cls, belongs, if_pos rfl, mul_one]
  · intro cb _ hne
    refine Finset.sum_eq_zero fun k _ => ?_
    rw [pair_eq_cls, belongs, if_neg hne, mul_zero]
  · intro h
    exact absurd (Finset.mem_univ _) h

/-- The product of the flags with the membership matrix, at (u, nb): the sum of the flags over the
classes of column block nb. -/
theorem pay17_apply (C : FVec Ideal S3x304 .f32) (v82 v86 : IVec S304 1) (u : Fin 1) (nb : Fin 16) :
    k0_pay17 (F := Ideal) C v82 v86 (ix2 u nb)
      = ∑ k : Fin 19, k0_pay14 (F := Ideal) C v82 v86 (ix1 (Cert.Spec.cls nb k)) := by
  unfold k0_pay17
  refine (dot_row _ _ u nb).trans ?_
  refine Eq.trans ?_ (sum_belongs (fun e => k0_pay14 (F := Ideal) C v82 v86 (ix1 e)) nb)
  refine Finset.sum_congr rfl fun e _ => ?_
  rw [shapeCast_a_1a_apply]

/-- The product of distance times flag with the membership matrix, at (u, nb). -/
theorem pay16_apply (C : FVec Ideal S3x304 .f32) (D : FVec Ideal S304 .f32) (v82 v86 : IVec S304 1)
    (u : Fin 1) (nb : Fin 16) :
    k0_pay16 (F := Ideal) C D v82 v86 (ix2 u nb)
      = ∑ k : Fin 19, D (ix1 (Cert.Spec.cls nb k)) * k0_pay14 (F := Ideal) C v82 v86 (ix1 (Cert.Spec.cls nb k)) := by
  unfold k0_pay16
  refine (dot_row _ _ u nb).trans ?_
  refine Eq.trans ?_ (sum_belongs (fun e => D (ix1 e) * k0_pay14 (F := Ideal) C v82 v86 (ix1 e)) nb)
  refine Finset.sum_congr rfl fun e _ => ?_
  rw [shapeCast_a_1a_apply, mulf_apply]

end Cert.KernelValue

end
-- ==== Proof.KernelRow.lean ====
import proofs.«155187_j89309549953719_2_alg».proof.Proof.Gen.KernelIdeal.Skeleton
import proofs.«155187_j89309549953719_2_alg».proof.Proof.Spec
import proofs.«155187_j89309549953719_2_alg».proof.Proof.KernelRowDot
import Idealize.ShloMosaic.Lib.ValueLayout
import Idealize.ShloMosaic.Lib.Pipeline.Value
import Idealize.ShloMosaic.PureOps.Ideal.Laws

/-!
# The kernel's block losses summed over a row of blocks

At one grid point (image n, row of blocks rb) the kernel has, per column block, the number of valid
classes and their summed distance. It turns them into the block's loss (the mean distance of the
valid classes, or nothing when there is none) and into the flag "the block has a valid class", sums
each over the 16 column blocks, and adds the sum to every element of an 8 x 128 accumulator tile.
This file proves that the tile gains exactly the row's summed block losses, respectively the row's
number of blocks with a valid class.
-/

noncomputable section

namespace Cert.KernelValue

open Cert.KernelIdeal Cert.KernelIdeal.Gen Idealize.ShloMosaic Idealize.ShloMosaic.ValueIdx

/-- A select on the flag of a proposition is the choice by that proposition. -/
theorem select_flag (p : Prop) [Decidable p] (a b : EReal) :
    Scalar.select (if p then 1#1 else 0#1) a b = if p then a else b := by
  by_cases h : p
  · rw [if_pos h, if_pos h, select_one]
  · rw [if_neg h, if_neg h, select_zero]

/-- The accumulator update shared by the two results: a 1 x 16 row W is summed over its 16 columns,
then over its single row, the total is spread over an 8 x 128 tile and added to the old tile. Every
element of the tile gains the sum of W. -/
theorem tile_add_rowsum (W : FVec Ideal S1x16 .f32) (T : Vec Ideal S1x8x128 .f32) (y : S1x8x128.Idx) :
    shapeCast S1x8x128
      (addf (shapeCast S8x128 T shapeCasts_S1x8x128_S8x128)
        (broadcastTo S8x128
          (shapeCast S1x1
            (shapeCast S1x1
              (multiReduction (F := Ideal) .add [0] S1
                (shapeCast S1x1
                  (multiReduction (F := Ideal) .add [1] S1 W 0x00000000#32 reduces_S1x16_S1 (.inl rfl) rfl)
                  shapeCasts_S1_S1x1)
                0x00000000#32 reduces_S1x1_S1 (.inl rfl) rfl)
              shapeCasts_S1_S1x1)
            shapeCasts_S1x1_S1x1)
          broadcasts_S1x1_S8x128))
      shapeCasts_S8x128_S1x8x128 y
    = T y + ∑ wb : Fin 16, W (ix2 (0 : Fin 1) wb) := by
  obtain ⟨u, i, j, rfl⟩ : ∃ (u : Fin 1) (i : Fin 8) (j : Fin 128), y = ix3 u i j :=
    ⟨y 0, y 1, y 2, eq_ix3 y⟩
  obtain rfl : u = 0 := Subsingleton.elim _ _
  refine (shapeCast_ab_1ab_apply _ _ 0 i j).trans ?_
  rw [addf_apply]
  refine congrArg₂ (· + ·) (shapeCast_1ab_ab_apply T _ i j) ?_
  refine (broadcastTo_apply _ _ (ix2 i j) (ix2 (0 : Fin 1) (0 : Fin 1)) (fun a => by
    match a with
    | ⟨0, _⟩ => rfl
    | ⟨1, _⟩ => rfl)).trans ?_
  rw [shapeCast_self]
  refine (shapeCast_a_1a_apply _ _ 0 0).trans ?_
  refine (Ideal.multiReduction_add_single _ 0x00000000#32 reduces_S1x1_S1 (.inl rfl) rfl (ix1 (0 : Fin 1))).trans ?_
  show ∑ r : Fin 1, _ = _
  rw [Fin.sum_univ_one]
  have hl0 : reduces_S1x1_S1.lift (ix1 (0 : Fin 1)) (0 : Fin 1) = ix2 (0 : Fin 1) (0 : Fin 1) :=
    funext fun a => Fin.ext (by
      match a with
      | ⟨0, _⟩ => rfl
      | ⟨1, _⟩ => rfl)
  refine (congrArg _ hl0).trans ?_
  refine (shapeCast_a_1a_apply _ _ 0 0).trans ?_
  refine (Ideal.multiReduction_add_single W 0x00000000#32 reduces_S1x16_S1 (.inl rfl) rfl (ix1 (0 : Fin 1))).trans ?_
  refine Finset.sum_congr rfl fun wb _ => congrArg W ?_
  funext a
  refine Fin.ext ?_
  match a with
  | ⟨0, _⟩ => rfl
  | ⟨1, _⟩ => rfl

section Point

variable (X : Cert.Spec.SX.Idx → EReal) (L : Cert.Spec.SL.Idx → BitVec 32) (n : Fin 2) (rb : Fin 16)
  (v6 : IVec S3x8x128 32) (v14 : FVec Ideal S3x256x8x128 .f32) (v17 : IVec S8x128 32) (v36 : IVec S8x128 1)

/-- Per column block: the product of the flags with the membership matrix is the number of valid
classes. -/
theorem ncls_eq
    (h10 : ∀ (f : Fin 3) (cb : Fin 16) (k : Fin 19),
      k0_pay10 (F := Ideal) v6 v17 v36 (ix2 f (Cert.Spec.cls cb k)) = Cert.Spec.cnt L f n rb cb k)
    (u : Fin 1) (wb : Fin 16) :
    k0_pay17 (F := Ideal) (k0_pay10 (F := Ideal) v6 v17 v36) (k0_pay12 (F := Ideal) v6 v17 v36)
        (k0_pay13 (F := Ideal) v6 v17 v36) (ix2 u wb)
      = Cert.Spec.ncls L n rb wb := by
  rw [pay17_apply]
  unfold Cert.Spec.ncls
  exact Finset.sum_congr rfl fun k _ => valid_eq L n rb v6 v17 v36 h10 wb k

/-- Per column block: the product of distance times flag with the membership matrix is the summed
distance of the valid classes. -/
theorem perProp_eq
    (h10 : ∀ (f : Fin 3) (cb : Fin 16) (k : Fin 19),
      k0_pay10 (F := Ideal) v6 v17 v36 (ix2 f (Cert.Spec.cls cb k)) = Cert.Spec.cnt L f n rb cb k)
    (h11 : ∀ (cb : Fin 16) (k : Fin 19),
      k0_pay11 (F := Ideal) v6 v14 v17 v36 (ix1 (Cert.Spec.cls cb k)) = Cert.Spec.l1 X L n rb cb k)
    (u : Fin 1) (wb : Fin 16) :
    k0_pay16 (F := Ideal) (k0_pay10 (F := Ideal) v6 v17 v36) (k0_pay11 (F := Ideal) v6 v14 v17 v36)
        (k0_pay12 (F := Ideal) v6 v17 v36) (k0_pay13 (F := Ideal) v6 v17 v36) (ix2 u wb)
      = Cert.Spec.perProp X L n rb wb := by
  rw [pay16_apply]
  unfold Cert.Spec.perProp
  refine Finset.sum_congr rfl fun k _ => ?_
  rw [h11 wb k, valid_eq L n rb v6 v17 v36 h10 wb k]

/-- Per column block: the divisor of the block's loss, the number of valid classes floored at one
(times one). -/
theorem pay18_eq
    (h10 : ∀ (f : Fin 3) (cb : Fin 16) (k : Fin 19),
      k0_pay10 (F := Ideal) v6 v17 v36 (ix2 f (Cert.Spec.cls cb k)) = Cert.Spec.cnt L f n rb cb k)
    (u : Fin 1) (wb : Fin 16) :
    k0_pay18 (F := Ideal) (k0_pay10 (F := Ideal) v6 v17 v36) (k0_pay12 (F := Ideal) v6 v17 v36)
        (k0_pay13 (F := Ideal) v6 v17 v36) (ix2 u wb)
      = max (Cert.Spec.ncls L n rb wb) Cert.Spec.one * Cert.Spec.one := by
  unfold k0_pay18
  show max (k0_pay17 (F := Ideal) (k0_pay10 (F := Ideal) v6 v17 v36) (k0_pay12 (F := Ideal) v6 v17 v36)
      (k0_pay13 (F := Ideal) v6 v17 v36) (ix2 u wb)) (Ideal.ofBits .f32 0x3F800000#32)
    * Ideal.ofBits .f32 0x3F800000#32 = _
  rw [ncls_eq L n rb v6 v17 v36 h10 u wb]
  rfl

/-- The row's summed block losses are added to every element of the loss accumulator. -/
theorem rowLoss_eq
    (h10 : ∀ (f : Fin 3) (cb : Fin 16) (k : Fin 19),
      k0_pay10 (F := Ideal) v6 v17 v36 (ix2 f (Cert.Spec.cls cb k)) = Cert.Spec.cnt L f n rb cb k)
    (h11 : ∀ (cb : Fin 16) (k : Fin 19),
      k0_pay11 (F := Ideal) v6 v14 v17 v36 (ix1 (Cert.Spec.cls cb k)) = Cert.Spec.l1 X L n rb cb k)
    (v150 : Vec Ideal S1x8x128 .f32) (y : S1x8x128.Idx) :
    k0_pay1 (F := Ideal)
        (k0_pay16 (k0_pay10 (F := Ideal) v6 v17 v36) (k0_pay11 (F := Ideal) v6 v14 v17 v36)
          (k0_pay12 (F := Ideal) v6 v17 v36) (k0_pay13 (F := Ideal) v6 v17 v36))
        (k0_pay17 (k0_pay10 (F := Ideal) v6 v17 v36) (k0_pay12 (F := Ideal) v6 v17 v36)
          (k0_pay13 (F := Ideal) v6 v17 v36))
        (k0_pay18 (k0_pay10 (F := Ideal) v6 v17 v36) (k0_pay12 (F := Ideal) v6 v17 v36)
          (k0_pay13 (F := Ideal) v6 v17 v36))
        (k0_pay19 (F := Ideal)) v150 y
      = v150 y + Cert.Spec.rowLoss X L n rb := by
  unfold k0_pay1
  refine (tile_add_rowsum _ v150 y).trans ?_
  refine congrArg (v150 y + ·) ?_
  unfold Cert.Spec.rowLoss
  refine Finset.sum_congr rfl fun wb _ => ?_
  show Scalar.select
      (Ideal.cmp .ogt
        (k0_pay17 (F := Ideal) (k0_pay10 (F := Ideal) v6 v17 v36) (k0_pay12 (F := Ideal) v6 v17 v36)
          (k0_pay13 (F := Ideal) v6 v17 v36) (ix2 (0 : Fin 1) wb))
        (Ideal.ofBits .f32 0x00000000#32))
      (Ideal.div
        (k0_pay16 (F := Ideal) (k0_pay10 (F := Ideal) v6 v17 v36) (k0_pay11 (F := Ideal) v6 v14 v17 v36)
          (k0_pay12 (F := Ideal) v6 v17 v36) (k0_pay13 (F := Ideal) v6 v17 v36) (ix2 (0 : Fin 1) wb))
        (k0_pay18 (F := Ideal) (k0_pay10 (F := Ideal) v6 v17 v36) (k0_pay12 (F := Ideal) v6 v17 v36)
          (k0_pay13 (F := Ideal) v6 v17 v36) (ix2 (0 : Fin 1) wb)))
      (Ideal.ofBits .f32 0x00000000#32)
    = Cert.Spec.blockLoss X L n rb wb
  rw [ncls_eq L n rb v6 v17 v36 h10, perProp_eq X L n rb v6 v14 v17 v36 h10 h11,
    pay18_eq L n rb v6 v17 v36 h10, Ideal.ofBits_zero_f32, cmp_ogt_zero, select_flag]
  unfold Cert.Spec.blockLoss
  rfl

/-- The row's number of blocks with a valid class is added to every element of the hit accumulator. -/
theorem rowHit_eq
    (h10 : ∀ (f : Fin 3) (cb : Fin 16) (k : Fin 19),
      k0_pay10 (F := Ideal) v6 v17 v36 (ix2 f (Cert.Spec.cls cb k)) = Cert.Spec.cnt L f n rb cb k)
    (v158 : Vec Ideal S1x8x128 .f32) (y : S1x8x128.Idx) :
    k0_pay2 (F := Ideal)
        (k0_pay17 (k0_pay10 (F := Ideal) v6 v17 v36) (k0_pay12 (F := Ideal) v6 v17 v36)
          (k0_pay13 (F := Ideal) v6 v17 v36))
        v158 y
      = v158 y + Cert.Spec.rowHit L n rb := by
  unfold k0_pay2
  refine (tile_add_rowsum _ v158 y).trans ?_
  refine congrArg (v158 y + ·) ?_
  unfold Cert.Spec.rowHit
  refine Finset.sum_congr rfl fun wb _ => ?_
  show (((((Ideal.cmp .ogt
        (k0_pay17 (F := Ideal) (k0_pay10 (F := Ideal) v6 v17 v36) (k0_pay12 (F := Ideal) v6 v17 v36)
          (k0_pay13 (F := Ideal) v6 v17 v36) (ix2 (0 : Fin 1) wb))
        (Ideal.ofBits .f32 0x00000000#32)).setWidth 32).toInt : ℤ) : ℝ) : EReal)
    = Cert.Spec.blockHit L n rb wb
  rw [ncls_eq L n rb v6 v17 v36 h10, Ideal.ofBits_zero_f32, cmp_ogt_zero, flag_toReal]
  unfold Cert.Spec.blockHit
  rfl

end Point

end Cert.KernelValue

end
-- ==== Proof.KernelPoint.lean ====
import proofs.«155187_j89309549953719_2_alg».proof.Proof.KernelAcc
import proofs.«155187_j89309549953719_2_alg».proof.Proof.KernelDist
import proofs.«155187_j89309549953719_2_alg».proof.Proof.KernelRow

/-!
# The two numbers of a grid point

For input blocks that hold image n's row of blocks rb, and labels that are class labels, the loss accumulator grows
by the row's summed block losses and the hit accumulator by the number of the row's blocks with a valid class: the
counts and prototype distances of the row's (column block, class) pairs are those of the specification, and the
sums over them regroup by column block.
-/

noncomputable section

open Idealize.ShloMosaic Idealize.ShloMosaic.ValueIdx

namespace Cert.KernelValue

open Cert.KernelIdeal Cert.KernelIdeal.Gen Cert.KernelIdeal.Pieces

theorem pointValues (X : Cert.Spec.SX.Idx → EReal) (L : Cert.Spec.SL.Idx → BitVec 32) (hL : Cert.Spec.Labelled L) :
    Cert.KernelIdeal.Acc.PointValues X L where
  loss n rb x0 x1 hx0 hx1 acc y :=
    rowLoss_eq X L n rb (k0_pay5 (F := Ideal) x1) (k0_pay6 (F := Ideal) x0) k0_pay7 k0_pay8
      (fun f cb k => cnt_eq L hL n rb x1 hx1 f cb k)
      (fun cb k => l1_eq X L hL n rb x0 x1 hx0 hx1 cb k) acc y
  hit n rb x1 hx1 acc y :=
    rowHit_eq L n rb (k0_pay5 (F := Ideal) x1) k0_pay7 k0_pay8
      (fun f cb k => cnt_eq L hL n rb x1 hx1 f cb k) acc y

end Cert.KernelValue

end
-- ==== Proof.PreLabels.lean ====
import proofs.«155187_j89309549953719_2_alg».proof.Proof.Spec
import proofs.«155187_j89309549953719_2_alg».proof.Pre_finite_inputs
import Idealize.ShloMosaic.Lib.ReduceAll
import Idealize.ShloMosaic.Lib.Pipeline.Value
import Idealize.ShloMosaic.Lib.ValueIdx

/-!
# The labels are class labels when the precondition holds

The precondition is the conjunction of two "for all" statements, each printed as an "and" over every entry of
an array of bits started from 1: every float is finite, and every label l satisfies 0 <= l and l < 19 as
signed 32-bit integers. An "and" that comes out 1 met only 1s, so every label's two comparisons hold. A
32-bit word whose signed value lies in [0, 19) has an unsigned value below 19 (a word with the top bit set
would be negative), hence it is the word of a number below 19.
-/

namespace Cert.PreValue

open Idealize.ShloMosaic Idealize.ShloMosaic.ValueIdx

/-- The scalar shape has one index. -/
instance : Subsingleton Cert.Pre_finite_inputs.S_.Idx := ⟨fun a b => funext fun d => d.elim0⟩

/-- A 32-bit word whose signed value is at least that of the word 0 and below that of the word 19 is the
word of a class number k < 19. -/
theorem class_of_range (l : BitVec 32) (h0 : (0#32 : BitVec 32).toInt ≤ l.toInt)
    (h1 : l.toInt < (19#32 : BitVec 32).toInt) : ∃ k : Fin 19, l = BitVec.ofNat 32 k.val := by
  have e0 : (0#32 : BitVec 32).toInt = 0 := by decide
  have e19 : (19#32 : BitVec 32).toInt = 19 := by decide
  rw [e0] at h0
  rw [e19] at h1
  have hl : l.toNat < 2 ^ 32 := l.isLt
  have hn : l.toNat < 19 := by
    have hc := BitVec.toInt_eq_toNat_cond l
    split at hc <;> omega
  refine ⟨⟨l.toNat, hn⟩, BitVec.eq_of_toNat_eq ?_⟩
  rw [BitVec.toNat_ofNat, Nat.mod_eq_of_lt hl]

/-- The array that repeats one 32-bit word at every label position holds that word at every index. -/
theorem splat_apply [Cert.Pre_finite_inputs.Facts] (c : BitVec 32) (i : Cert.Pre_finite_inputs.S3x2x1x128x128.Idx) :
    broadcastInDim Cert.Pre_finite_inputs.S3x2x1x128x128 ![] Cert.Pre_finite_inputs.Facts.bcast_S_S3x2x1x128x128
      (constantI Cert.Pre_finite_inputs.S_ 32 c) i = c :=
  broadcastInDim_apply _ _ _ i ValueIdx.ix0 (fun a => a.elim0)

/-- When the precondition holds, every label is one of the 19 classes. -/
theorem labelled_of_pre [Cert.Pre_finite_inputs.Facts]
    (X : Cert.Pre_finite_inputs.S3x2x256x128x128.Idx → EReal)
    (L : Cert.Pre_finite_inputs.S3x2x1x128x128.Idx → BitVec 32)
    (h : Cert.Pre_finite_inputs.fn (F := Ideal) X L = fun _ => 1#1) : Cert.Spec.Labelled L := by
  have h0 := congrFun h ValueIdx.ix0
  dsimp only [Cert.Pre_finite_inputs.fn] at h0
  -- the second half of the conjunction: the "and" over all labels of the two comparisons
  have h1 := (IntOp.andi_eq_one.1 h0).2
  intro i
  have h2 := Host.reduce_andi_all _ _ _ _ _ h1 i
  obtain ⟨ha, hb⟩ := IntOp.andi_eq_one.1 h2
  -- the arrays the labels are compared with hold the words 0 and 19 at every index
  have ha' : IntOp.cmpi .sge (L i) _ = 1#1 := ha
  have hb' : IntOp.cmpi .slt (L i) _ = 1#1 := hb
  rw [splat_apply] at ha' hb'
  exact class_of_range (L i) (IntOp.cmpi_sge.1 ha') (IntOp.cmpi_slt.1 hb')

end Cert.PreValue
-- ==== Proof.RefPixels.lean ====
import proofs.«155187_j89309549953719_2_alg».proof.Proof.RefRead
import proofs.«155187_j89309549953719_2_alg».proof.Proof.Spec
import Idealize.ShloMosaic.Lib.Pipeline.Value
import Idealize.ShloMosaic.Lib.ValueIdx
import Idealize.ShloMosaic.PureOps.Ideal.Laws

/-!
# The reference's block-ordered arrays read at a pixel

The reference scales every pixel's channel vector to unit length and then regroups the 128 x 128 pixel grid
into 16 x 16 blocks of 8 x 8 pixels: the array [F, n, C, 128, 128] is viewed as [F, n, C, 16, 8, 16, 8]
(row 8 hb + i, column 8 wb + j), its axes are permuted to [F, n, 16, 16, C, 8, 8], and that is viewed as
[F, n, 256, C, 64] (block 16 hb + wb, pixel 8 i + j of the block). The labels go the same way with a single
channel, which is dropped at the end.

A view of an array in another shape keeps every element at its row-major position, so each of the two views
is one identity between two mixed-radix numerals:

  ((((((f 2 + n) 256 + c) 16 + hb) 8 + i) 16 + wb) 8 + j  =  (((f 2 + n) 256 + c) 128 + (8 hb + i)) 128 + (8 wb + j)
  ((((((f 2 + n) 16 + hb) 16 + wb) 256 + c) 8 + i) 8 + j  =  (((f 2 + n) 256 + (16 hb + wb)) 256 + c) 64 + (8 i + j)

Hence the block-ordered feature array at (f, n, block (hb, wb), c, pixel (i, j)) is channel c of the unit
vector of pixel (8 hb + i, 8 wb + j), and the block-ordered label array there is that pixel's label.
-/

noncomputable section

namespace Cert.RefValue

open Cert.ReferenceIdeal Cert.ReferenceIdeal.Read Idealize.ShloMosaic Idealize.ShloMosaic.ValueIdx

/-! ## Seven axes -/

/-- The row-major position of an index with seven coordinates, as one mixed-radix numeral. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- An index with seven coordinates. -/
abbrev ix7 {n0 n1 n2 n3 n4 n5 n6 : Nat} (a : Fin n0) (b : Fin n1) (c : Fin n2) (d : Fin n3) (e : Fin n4)
    (f : Fin n5) (g : Fin n6) : (⟨7, ![n0, n1, n2, n3, n4, n5, n6]⟩ : Shape).Idx :=
  fun x => match x with
    | ⟨0, _⟩ => a | ⟨1, _⟩ => b | ⟨2, _⟩ => c | ⟨3, _⟩ => d | ⟨4, _⟩ => e | ⟨5, _⟩ => f | ⟨6, _⟩ => g

/-! ## The unit vectors -/

/-- Before the regrouping, the reference's feature array at pixel (h, w) is channel c of the pixel's unit vector:
    the squared entries are summed over the channels starting from zero, the square root is floored at the small
    positive constant, and the entry is divided by the result. -/
theorem unit_eq (X : S3x2x256x128x128.Idx → EReal) (f : Fin 3) (n : Fin 2) (c : Fin 256) (h w : Fin 128) :
    val_main_v4 (F := Ideal) X (ix5 f n c h w) = Cert.Spec.dir X f n c h w := by
  have hidx : ∀ k : Fin 256,
      idx_main_call0_v1 (idx_main_call0_v2 (idx_main_v3 (ix5 f n c h w))) k = ix5 f n k h w := fun k =>
    funext fun a => Fin.ext (by
      match a with | ⟨0, _⟩ => rfl | ⟨1, _⟩ => rfl | ⟨2, _⟩ => rfl | ⟨3, _⟩ => rfl | ⟨4, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hidx]
  unfold Cert.Spec.dir Cert.Spec.len Cert.Spec.eps
  simp only [Ideal.hostDivf_def, Ideal.maximumf_def, Ideal.hostUnary_sqrt_def, Ideal.ofBits_def, Ideal.mulf_def,
    Ideal.ofBits_zero_f32, zero_add]

/-! ## The regrouping into blocks -/

/-- The block-ordered feature array at (block (hb, wb), channel c, pixel (i, j)) is the array of unit vectors
    at channel c and pixel (8 hb + i, 8 wb + j): both views keep the row-major position, and the permutation
    in between carries (hb, wb, c, i, j) to (c, hb, i, wb, j). -/
theorem regroup_eq (X : S3x2x256x128x128.Idx → EReal) (f : Fin 3) (n : Fin 2) (hb wb : Fin 16) (c : Fin 256)
    (i j : Fin 8) :
    val_main_v7 (F := Ideal) X (ix5 f n (Cert.Spec.blk hb wb) c (Cert.Spec.pix i j))
      = val_main_v4 (F := Ideal) X (ix5 f n c (Cert.Spec.px hb i) (Cert.Spec.px wb j)) := by
  have hf := f.isLt; have hn := n.isLt; have hhb := hb.isLt; have hwb := wb.isLt; have hc := c.isLt
  have hi := i.isLt; have hj := j.isLt
  -- the second view: [F, n, 16, 16, C, 8, 8] as [F, n, 256, C, 64]
  have e7 : val_main_v7 (F := Ideal) X (ix5 f n (Cert.Spec.blk hb wb) c (Cert.Spec.pix i j))
      = val_main_v6 (F := Ideal) X (ix7 f n hb wb c i j) := by
    unfold val_main_v7
    refine shapeCast_apply _ _ _ (ix7 f n hb wb c i j) ?_
    rw [rowMajor_val_seven, Shape.rowMajor_val_five]
    show (((((f.val * 2 + n.val) * 16 + hb.val) * 16 + wb.val) * 256 + c.val) * 8 + i.val) * 8 + j.val
      = (((f.val * 2 + n.val) * 256 + (16 * hb.val + wb.val)) * 256 + c.val) * 64 + (8 * i.val + j.val)
    omega
  -- the permutation of the axes
  have e6 : idx_main_v6 (ix7 f n hb wb c i j) = ix7 f n c hb i wb j :=
    funext fun a => Fin.ext (by
      match a with
      | ⟨0, _⟩ => rfl | ⟨1, _⟩ => rfl | ⟨2, _⟩ => rfl | ⟨3, _⟩ => rfl | ⟨4, _⟩ => rfl | ⟨5, _⟩ => rfl | ⟨6, _⟩ => rfl)
  -- the first view: [F, n, C, 128, 128] as [F, n, C, 16, 8, 16, 8]
  have e5 : val_main_v5 (F := Ideal) X (ix7 f n c hb i wb j)
      = val_main_v4 (F := Ideal) X (ix5 f n c (Cert.Spec.px hb i) (Cert.Spec.px wb j)) := by
    unfold val_main_v5
    refine shapeCast_apply _ _ _
      (ix5 f n c (Cert.Spec.px hb i) (Cert.Spec.px wb j)) ?_
    rw [rowMajor_val_seven, Shape.rowMajor_val_five]
    show (((f.val * 2 + n.val) * 256 + c.val) * 128 + (8 * hb.val + i.val)) * 128 + (8 * wb.val + j.val)
      = (((((f.val * 2 + n.val) * 256 + c.val) * 16 + hb.val) * 8 + i.val) * 16 + wb.val) * 8 + j.val
    omega
  rw [e7, val_main_v6_apply, e6, e5]

/-- The block-ordered feature array holds the unit vectors of the block's pixels. -/
theorem dir_eq (X : S3x2x256x128x128.Idx → EReal) (f : Fin 3) (n : Fin 2) (hb wb : Fin 16) (c : Fin 256)
    (i j : Fin 8) :
    val_main_v7 (F := Ideal) X (ix5 f n (Cert.Spec.blk hb wb) c (Cert.Spec.pix i j))
      = Cert.Spec.dir X f n c (Cert.Spec.px hb i) (Cert.Spec.px wb j) :=
  (regroup_eq X f n hb wb c i j).trans (unit_eq X f n c _ _)

/-- The block-ordered label array at (block (hb, wb), pixel (i, j)) is the label of pixel (8 hb + i, 8 wb + j):
    the same two views and permutation with a single channel, whose axis of size one is dropped at the end. -/
theorem label_eq (L : S3x2x1x128x128.Idx → BitVec 32) (f : Fin 3) (n : Fin 2) (hb wb : Fin 16) (i j : Fin 8) :
    val_main_v11 (F := Ideal) L (ix4 f n (Cert.Spec.blk hb wb) (Cert.Spec.pix i j))
      = L (ix5 f n 0 (Cert.Spec.px hb i) (Cert.Spec.px wb j)) := by
  have hf := f.isLt; have hn := n.isLt; have hhb := hb.isLt; have hwb := wb.isLt
  have hi := i.isLt; have hj := j.isLt
  -- dropping the channel axis: [F, n, 256, 1, 64] as [F, n, 256, 64]
  have e11 : val_main_v11 (F := Ideal) L (ix4 f n (Cert.Spec.blk hb wb) (Cert.Spec.pix i j))
      = val_main_v10 (F := Ideal) L (ix5 f n (Cert.Spec.blk hb wb) 0 (Cert.Spec.pix i j)) := by
    unfold val_main_v11
    refine shapeCast_apply _ _ _ (ix5 f n (Cert.Spec.blk hb wb) 0 (Cert.Spec.pix i j)) ?_
    rw [Shape.rowMajor_val_five, Shape.rowMajor_val_four]
    show (((f.val * 2 + n.val) * 256 + (16 * hb.val + wb.val)) * 1 + 0) * 64 + (8 * i.val + j.val)
      = ((f.val * 2 + n.val) * 256 + (16 * hb.val + wb.val)) * 64 + (8 * i.val + j.val)
    omega
  -- the second view: [F, n, 16, 16, 1, 8, 8] as [F, n, 256, 1, 64]
  have e10 : val_main_v10 (F := Ideal) L (ix5 f n (Cert.Spec.blk hb wb) 0 (Cert.Spec.pix i j))
      = val_main_v9 (F := Ideal) L (ix7 f n hb wb 0 i j) := by
    unfold val_main_v10
    refine shapeCast_apply _ _ _ (ix7 f n hb wb 0 i j) ?_
    rw [rowMajor_val_seven, Shape.rowMajor_val_five]
    show (((((f.val * 2 + n.val) * 16 + hb.val) * 16 + wb.val) * 1 + 0) * 8 + i.val) * 8 + j.val
      = (((f.val * 2 + n.val) * 256 + (16 * hb.val + wb.val)) * 1 + 0) * 64 + (8 * i.val + j.val)
    omega
  -- the permutation of the axes
  have e9 : idx_main_v9 (ix7 f n hb wb (0 : Fin 1) i j) = ix7 f n (0 : Fin 1) hb i wb j :=
    funext fun a => Fin.ext (by
      match a with
      | ⟨0, _⟩ => rfl | ⟨1, _⟩ => rfl | ⟨2, _⟩ => rfl | ⟨3, _⟩ => rfl | ⟨4, _⟩ => rfl | ⟨5, _⟩ => rfl | ⟨6, _⟩ => rfl)
  -- the first view: [F, n, 1, 128, 128] as [F, n, 1, 16, 8, 16, 8]
  have e8 : val_main_v8 (F := Ideal) L (ix7 f n (0 : Fin 1) hb i wb j)
      = L (ix5 f n 0 (Cert.Spec.px hb i) (Cert.Spec.px wb j)) := by
    unfold val_main_v8
    refine shapeCast_apply _ _ _ (ix5 f n 0 (Cert.Spec.px hb i) (Cert.Spec.px wb j)) ?_
    rw [rowMajor_val_seven, Shape.rowMajor_val_five]
    show (((f.val * 2 + n.val) * 1 + 0) * 128 + (8 * hb.val + i.val)) * 128 + (8 * wb.val + j.val)
      = (((((f.val * 2 + n.val) * 1 + 0) * 16 + hb.val) * 8 + i.val) * 16 + wb.val) * 8 + j.val
    omega
  rw [e11, e10, val_main_v9_apply, e9, e8]

end Cert.RefValue

end
-- ==== Proof.RefBlocks1.lean ====
import proofs.«155187_j89309549953719_2_alg».proof.Proof.RefRead
import proofs.«155187_j89309549953719_2_alg».proof.Proof.Spec
import proofs.«155187_j89309549953719_2_alg».proof.Proof.LibGridSum
import Idealize.ShloMosaic.Lib.Affine

/-!
# The reference, block by block: one-hot labels and class counts

The reference cuts every frame into 256 blocks of 64 pixels and, for each of the 19 classes, marks the pixels of
a block that carry the class (a 0/1 array) and counts them.  Read at block (hb, wb), pixel (i, j) and class k these
are the indicator and the count of the specification, given that the blocked label array holds the label of pixel
(8 hb + i, 8 wb + j).
-/

noncomputable section

namespace Cert.RefValue

open Cert.ReferenceIdeal Cert.ReferenceIdeal.Gen Cert.ReferenceIdeal.Read Idealize.ShloMosaic Idealize.ShloMosaic.ValueIdx

/-- A one-bit word read as an unsigned number is 1 when the bit is set and 0 otherwise. -/
theorem uitofp_bit (b : BitVec 1) :
    FloatOps.uitofp (F := Ideal) .f32 b = if b = 1#1 then (1 : EReal) else 0 := by
  by_cases h : b = 1#1
  · subst h
    rw [if_pos rfl]
    show (((1#1 : BitVec 1).toNat : ℝ) : EReal) = 1
    simp
  · have h0 := eq_zero_of_ne_one h
    subst h0
    rw [if_neg h]
    show (((0#1 : BitVec 1).toNat : ℝ) : EReal) = 0
    simp

/-- Pixel (i, j) of a block, numbered row-major, is the pair (i, j) under the standard pairing of
8 x 8 with 64: both are the number 8 i + j. -/
theorem pix_eq_pair (i j : Fin 8) : (finProdFinEquiv (i, j) : Fin (8 * 8)) = Cert.Spec.pix i j := by
  apply Fin.ext
  simp only [Cert.Spec.pix, finProdFinEquiv, Equiv.coe_fn_mk]
  omega

/-- The one-hot array at block (hb, wb), pixel (i, j), class k: 1 when that pixel is labelled k. -/
theorem hot_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (f : Fin 3) (n : Fin 2) (hb wb : Fin 16) (i j : Fin 8) (k : Fin 19) :
    val_main_v18 (F := Ideal) L (ix5 f n (Cert.Spec.blk hb wb) (Cert.Spec.pix i j) k)
      = Cert.Spec.hot L f n (Cert.Spec.px hb i) (Cert.Spec.px wb j) k := by
  rw [val_main_v18_apply, val_main_v17_apply, val_main_v15_apply, val_main_v12_apply, val_main_v16_apply,
    val_main_v14_apply, val_main_v13_apply]
  have e1 : idx_main_v12 (idx_main_v15 (ix5 f n (Cert.Spec.blk hb wb) (Cert.Spec.pix i j) k))
      = ix4 f n (Cert.Spec.blk hb wb) (Cert.Spec.pix i j) :=
    funext fun a => Fin.ext (by match a with | ⟨0, _⟩ => rfl | ⟨1, _⟩ => rfl | ⟨2, _⟩ => rfl | ⟨3, _⟩ => rfl)
  rw [e1, h11, uitofp_bit]
  unfold Cert.Spec.hot
  simp only [IntOp.cmpi_eq]

/-- The initial value of the reference's sums is the zero word, which is the number 0. -/
theorem cst_0_zero : (val_main_cst_0 (F := Ideal)) (Shape.Idx.first h_S_) = 0 := by
  rw [val_main_cst_0_apply]
  exact Ideal.ofBits_zero_f32

/-- The count array at block (hb, wb) and class k: the number of the block's pixels labelled k. -/
theorem cnt_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (f : Fin 3) (n : Fin 2) (hb wb : Fin 16) (k : Fin 19) :
    val_main_v19 (F := Ideal) L (ix4 f n (Cert.Spec.blk hb wb) k) = Cert.Spec.cnt L f n hb wb k := by
  rw [val_main_v19_apply, cst_0_zero, zero_add]
  have e1 : ∀ q : Fin 64, idx_main_v19 (ix4 f n (Cert.Spec.blk hb wb) k) q = ix5 f n (Cert.Spec.blk hb wb) q k :=
    fun q => funext fun a => Fin.ext (by
      match a with | ⟨0, _⟩ => rfl | ⟨1, _⟩ => rfl | ⟨2, _⟩ => rfl | ⟨3, _⟩ => rfl | ⟨4, _⟩ => rfl)
  simp only [e1]
  refine (Cert.GridSum.sum_fin_mul 8 8
    (fun q : Fin (8 * 8) => val_main_v18 (F := Ideal) L (ix5 f n (Cert.Spec.blk hb wb) q k))).trans ?_
  unfold Cert.Spec.cnt
  refine Finset.sum_congr rfl fun i _ => Finset.sum_congr rfl fun j _ => ?_
  rw [pix_eq_pair]
  exact hot_eq L h11 f n hb wb i j k

end Cert.RefValue

end
-- ==== Proof.RefBlocks2.lean ====
import proofs.«155187_j89309549953719_2_alg».proof.Proof.RefBlocks1

/-!
# The reference, block by block: class sums and prototypes

For a frame, a block and a class the reference contracts the one-hot array with the blocked unit vectors over the
64 pixels of the block (the sum of the unit vectors of the pixels carrying the class) and divides by the class
count floored at one: the prototype of the specification.
-/

noncomputable section

namespace Cert.RefValue

open Cert.ReferenceIdeal Cert.ReferenceIdeal.Gen Cert.ReferenceIdeal.Read Idealize.ShloMosaic Idealize.ShloMosaic.ValueIdx

/-- The contraction at block (hb, wb), class k and channel c: the sum over the block's pixels of the indicator of
class k times channel c of the pixel's unit vector. -/
theorem psum_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (f : Fin 3) (n : Fin 2) (hb wb : Fin 16) (k : Fin 19) (c : Fin 256) :
    val_main_v20 (F := Ideal) X L (ix5 f n (Cert.Spec.blk hb wb) k c) = Cert.Spec.psum X L f n hb wb k c := by
  rw [val_main_v20_apply]
  have el : ∀ q : Fin 64, lidx_main_v20 (ix5 f n (Cert.Spec.blk hb wb) k c) q = ix5 f n (Cert.Spec.blk hb wb) q k :=
    fun q => funext fun a => Fin.ext (by
      match a with | ⟨0, _⟩ => rfl | ⟨1, _⟩ => rfl | ⟨2, _⟩ => rfl | ⟨3, _⟩ => rfl | ⟨4, _⟩ => rfl)
  have er : ∀ q : Fin 64, ridx_main_v20 (ix5 f n (Cert.Spec.blk hb wb) k c) q = ix5 f n (Cert.Spec.blk hb wb) c q :=
    fun q => funext fun a => Fin.ext (by
      match a with | ⟨0, _⟩ => rfl | ⟨1, _⟩ => rfl | ⟨2, _⟩ => rfl | ⟨3, _⟩ => rfl | ⟨4, _⟩ => rfl)
  simp only [el, er]
  refine (Cert.GridSum.sum_fin_mul 8 8
    (fun q : Fin (8 * 8) => val_main_v18 (F := Ideal) L (ix5 f n (Cert.Spec.blk hb wb) q k)
      * val_main_v7 (F := Ideal) X (ix5 f n (Cert.Spec.blk hb wb) c q))).trans ?_
  unfold Cert.Spec.psum
  refine Finset.sum_congr rfl fun i _ => Finset.sum_congr rfl fun j _ => ?_
  rw [pix_eq_pair, hot_eq L h11, h7]

/-- The prototype array at block (hb, wb), class k and channel c. -/
theorem proto_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (f : Fin 3) (n : Fin 2) (hb wb : Fin 16) (k : Fin 19) (c : Fin 256) :
    val_main_v25 (F := Ideal) X L (ix5 f n (Cert.Spec.blk hb wb) k c) = Cert.Spec.proto X L f n hb wb k c := by
  have e : idx_main_v23 (idx_main_v24 (ix5 f n (Cert.Spec.blk hb wb) k c)) = ix4 f n (Cert.Spec.blk hb wb) k :=
    funext fun a => Fin.ext (by match a with | ⟨0, _⟩ => rfl | ⟨1, _⟩ => rfl | ⟨2, _⟩ => rfl | ⟨3, _⟩ => rfl)
  rw [val_main_v25_apply, psum_eq X L h7 h11, val_main_v24_apply, val_main_v23_apply, e, val_main_v22_apply,
    cnt_eq L h11, val_main_v21_apply, val_main_cst_1_apply]
  rfl

end Cert.RefValue

end
-- ==== Proof.RefBlocks3.lean ====
import proofs.«155187_j89309549953719_2_alg».proof.Proof.RefBlocks1

/-!
# The reference, block by block: valid classes and their number

A class is kept for a block when its count there is positive in each of the three frames: the reference compares
every count with zero and folds the three one-bit answers by "and", starting from the set bit.  Read as a number
the folded bit is the specification's indicator of a valid class, and its sum over the 19 classes is the number of
valid classes of the block.
-/

noncomputable section

namespace Cert.RefValue

open Cert.ReferenceIdeal Cert.ReferenceIdeal.Gen Cert.ReferenceIdeal.Read Idealize.ShloMosaic Idealize.ShloMosaic.ValueIdx

/-- A fold by "and" from the set bit is set exactly when every folded bit is set. -/
theorem fold_andi_eq_one {ι : Type} [DecidableEq ι] (g : ι → BitVec 1) (s : Finset ι) :
    s.fold IntOp.andi 1#1 g = 1#1 ↔ ∀ a ∈ s, g a = 1#1 := by
  induction s using Finset.induction_on with
  | empty => simp
  | insert a s ha ih =>
    rw [Finset.fold_insert ha, IntOp.andi_eq_one, ih]
    constructor
    · rintro ⟨h1, h2⟩ b hb
      rcases Finset.mem_insert.1 hb with rfl | hb
      · exact h1
      · exact h2 b hb
    · intro h
      exact ⟨h a (Finset.mem_insert_self a s), fun b hb => h b (Finset.mem_insert_of_mem hb)⟩

/-- The ordered comparison "greater than" gives the set bit exactly when the second number is below the first. -/
theorem cmp_ogt_eq_one (x y : EReal) : Ideal.cmp .ogt x y = 1#1 ↔ y < x := by
  unfold Ideal.cmp
  by_cases h : y < x
  · simp [h]
  · simp [h]

/-- The comparison of a count with zero, at frame f, block (hb, wb) and class k: the bit is set exactly when
the count is positive. -/
theorem pos_bit_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (f : Fin 3) (n : Fin 2) (hb wb : Fin 16) (k : Fin 19) :
    val_main_v27 (F := Ideal) L (ix4 f n (Cert.Spec.blk hb wb) k) = 1#1 ↔ 0 < Cert.Spec.cnt L f n hb wb k := by
  rw [val_main_v27_apply, cnt_eq L h11, val_main_v26_apply, val_main_cst_2_apply, Ideal.cmpf_def,
    Ideal.ofBits_def, Ideal.ofBits_zero_f32]
  exact cmp_ogt_eq_one _ _

/-- The folded bit at block (hb, wb) and class k is set exactly when the class occurs in the block in every
frame. -/
theorem all_bit_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) (k : Fin 19) :
    val_main_v28 (F := Ideal) L (ix3 n (Cert.Spec.blk hb wb) k) = 1#1
      ↔ ∀ f : Fin 3, 0 < Cert.Spec.cnt L f n hb wb k := by
  unfold val_main_v28
  rw [Host.reduce_eq_fold_single IntOp.andi (val_main_v27 (F := Ideal) L) (val_main_c (F := Ideal))
    reducesTo_S3x2x256x19_S2x256x19_d0 (by decide) h_S_, val_main_c_apply, fold_andi_eq_one]
  have e : ∀ f : Fin 3, Shape.Reduces.lift (s := S3x2x256x19) (t := S2x256x19) (a := 0) (by decide)
      (ix3 n (Cert.Spec.blk hb wb) k) f = ix4 f n (Cert.Spec.blk hb wb) k :=
    fun f => funext fun a => Fin.ext (by
      match a with | ⟨0, _⟩ => rfl | ⟨1, _⟩ => rfl | ⟨2, _⟩ => rfl | ⟨3, _⟩ => rfl)
  constructor
  · intro h f
    have h2 : val_main_v27 (F := Ideal) L (Shape.Reduces.lift (s := S3x2x256x19) (t := S2x256x19) (a := 0) (by decide)
        (ix3 n (Cert.Spec.blk hb wb) k) f) = 1#1 := h f (Finset.mem_univ _)
    exact (pos_bit_eq L h11 f n hb wb k).1 ((congrArg (val_main_v27 (F := Ideal) L) (e f)).symm.trans h2)
  · intro h f _
    exact (congrArg (val_main_v27 (F := Ideal) L) (e f)).trans ((pos_bit_eq L h11 f n hb wb k).2 (h f))

/-- The valid-class array at block (hb, wb) and class k. -/
theorem valid_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) (k : Fin 19) :
    val_main_v29 (F := Ideal) L (ix3 n (Cert.Spec.blk hb wb) k) = Cert.Spec.valid L n hb wb k := by
  rw [val_main_v29_apply, uitofp_bit]
  unfold Cert.Spec.valid
  by_cases h : ∀ f : Fin 3, 0 < Cert.Spec.cnt L f n hb wb k
  · rw [if_pos ((all_bit_eq L h11 n hb wb k).2 h), if_pos h]
  · rw [if_neg (mt (all_bit_eq L h11 n hb wb k).1 h), if_neg h]

/-- The initial value of the sum over the classes is the zero word, the number 0. -/
theorem cst_8_zero : (val_main_cst_8 (F := Ideal)) (Shape.Idx.first h_S_) = 0 := by
  rw [val_main_cst_8_apply]
  exact Ideal.ofBits_zero_f32

/-- The number of valid classes of block (hb, wb). -/
theorem ncls_eq (L : S3x2x1x128x128.Idx → BitVec 32)
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) :
    val_main_v44 (F := Ideal) L (ix2 n (Cert.Spec.blk hb wb)) = Cert.Spec.ncls L n hb wb := by
  rw [val_main_v44_apply, cst_8_zero, zero_add]
  have e : ∀ k : Fin 19, idx_main_v44 (ix2 n (Cert.Spec.blk hb wb)) k = ix3 n (Cert.Spec.blk hb wb) k :=
    fun k => funext fun a => Fin.ext (by match a with | ⟨0, _⟩ => rfl | ⟨1, _⟩ => rfl | ⟨2, _⟩ => rfl)
  unfold Cert.Spec.ncls
  refine Finset.sum_congr rfl fun k _ => ?_
  rw [e k, valid_eq L h11]

end Cert.RefValue

end
-- ==== Proof.RefBlocks4.lean ====
import proofs.«155187_j89309549953719_2_alg».proof.Proof.RefBlocks2
import proofs.«155187_j89309549953719_2_alg».proof.Proof.RefBlocks3

/-!
# The reference, block by block: the second difference, its mean absolute value, and the block loss

The three frames' prototypes are cut out of the prototype array (frame 0, frame 1, frame 2), combined into
p0 - 2 p1 + p2, taken in absolute value, summed over the 256 channels and divided by 256.  A sum over the one
remaining frame pair adds nothing.  Weighted by the valid-class indicator and summed over the classes this is
the block's summed distance; divided by the number of valid classes (floored at one, times one) it is the block
loss where the block has a valid class, and zero elsewhere.
-/

noncomputable section

namespace Cert.RefValue

open Cert.ReferenceIdeal Cert.ReferenceIdeal.Gen Cert.ReferenceIdeal.Read Idealize.ShloMosaic Idealize.ShloMosaic.ValueIdx

/-- The second difference at block (hb, wb), class k and channel c. -/
theorem diff2_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) (k : Fin 19) (c : Fin 256) :
    val_main_v36 (F := Ideal) X L (ix5 0 n (Cert.Spec.blk hb wb) k c) = Cert.Spec.diff2 X L n hb wb k c := by
  have e0 : idx_main_v30 (ix5 0 n (Cert.Spec.blk hb wb) k c) = ix5 0 n (Cert.Spec.blk hb wb) k c :=
    funext fun a => Fin.ext (by
      match a with | ⟨0, _⟩ => rfl | ⟨1, _⟩ => rfl | ⟨2, _⟩ => rfl | ⟨3, _⟩ => rfl | ⟨4, _⟩ => rfl)
  have e1 : idx_main_v31 (ix5 0 n (Cert.Spec.blk hb wb) k c) = ix5 1 n (Cert.Spec.blk hb wb) k c :=
    funext fun a => Fin.ext (by
      match a with | ⟨0, _⟩ => rfl | ⟨1, _⟩ => rfl | ⟨2, _⟩ => rfl | ⟨3, _⟩ => rfl | ⟨4, _⟩ => rfl)
  have e2 : idx_main_v35 (ix5 0 n (Cert.Spec.blk hb wb) k c) = ix5 2 n (Cert.Spec.blk hb wb) k c :=
    funext fun a => Fin.ext (by
      match a with | ⟨0, _⟩ => rfl | ⟨1, _⟩ => rfl | ⟨2, _⟩ => rfl | ⟨3, _⟩ => rfl | ⟨4, _⟩ => rfl)
  rw [val_main_v36_apply, val_main_v34_apply, val_main_v33_apply, val_main_v30_apply, val_main_v31_apply,
    val_main_v35_apply, val_main_v32_apply, val_main_cst_3_apply, e0, e1, e2,
    proto_eq X L h7 h11 0, proto_eq X L h7 h11 1, proto_eq X L h7 h11 2]
  rfl

/-- The initial values of the sums over the channels and over the single frame pair are the number 0. -/
theorem cst_4_zero : (val_main_cst_4 (F := Ideal)) (Shape.Idx.first h_S_) = 0 := by
  rw [val_main_cst_4_apply]
  exact Ideal.ofBits_zero_f32

theorem cst_6_zero : (val_main_cst_6 (F := Ideal)) (Shape.Idx.first h_S_) = 0 := by
  rw [val_main_cst_6_apply]
  exact Ideal.ofBits_zero_f32

theorem cst_7_zero : (val_main_cst_7 (F := Ideal)) (Shape.Idx.first h_S_) = 0 := by
  rw [val_main_cst_7_apply]
  exact Ideal.ofBits_zero_f32

/-- The mean absolute second difference at block (hb, wb) and class k, before the sum over the one frame pair. -/
theorem l1_pair_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) (k : Fin 19) :
    val_main_v40 (F := Ideal) X L (ix4 0 n (Cert.Spec.blk hb wb) k) = Cert.Spec.l1 X L n hb wb k := by
  have e : ∀ c : Fin 256, idx_main_v38 (ix4 0 n (Cert.Spec.blk hb wb) k) c = ix5 0 n (Cert.Spec.blk hb wb) k c :=
    fun c => funext fun a => Fin.ext (by
      match a with | ⟨0, _⟩ => rfl | ⟨1, _⟩ => rfl | ⟨2, _⟩ => rfl | ⟨3, _⟩ => rfl | ⟨4, _⟩ => rfl)
  have hs : ∑ c : Fin 256, val_main_v37 (F := Ideal) X L (idx_main_v38 (ix4 0 n (Cert.Spec.blk hb wb) k) c)
      = ∑ c : Fin 256, max (Cert.Spec.diff2 X L n hb wb k c) (-Cert.Spec.diff2 X L n hb wb k c) := by
    refine Finset.sum_congr rfl fun c _ => ?_
    rw [e c, val_main_v37_apply, Ideal.hostAbsf_def, Ideal.absf_def, diff2_eq X L h7 h11]
  rw [val_main_v40_apply, val_main_v38_apply, cst_4_zero, zero_add, hs, val_main_v39_apply, val_main_cst_5_apply]
  rfl

/-- The sum over the one frame pair changes nothing. -/
theorem l1_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) (k : Fin 19) :
    val_main_v41 (F := Ideal) X L (ix3 n (Cert.Spec.blk hb wb) k) = Cert.Spec.l1 X L n hb wb k := by
  have e : idx_main_v41 (ix3 n (Cert.Spec.blk hb wb) k) 0 = ix4 0 n (Cert.Spec.blk hb wb) k :=
    funext fun a => Fin.ext (by match a with | ⟨0, _⟩ => rfl | ⟨1, _⟩ => rfl | ⟨2, _⟩ => rfl | ⟨3, _⟩ => rfl)
  rw [val_main_v41_apply, cst_6_zero, zero_add, Fin.sum_univ_one, e, l1_pair_eq X L h7 h11]

/-- The valid classes' summed distances at block (hb, wb). -/
theorem perProp_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) :
    val_main_v43 (F := Ideal) X L (ix2 n (Cert.Spec.blk hb wb)) = Cert.Spec.perProp X L n hb wb := by
  have e : ∀ k : Fin 19, idx_main_v43 (ix2 n (Cert.Spec.blk hb wb)) k = ix3 n (Cert.Spec.blk hb wb) k :=
    fun k => funext fun a => Fin.ext (by match a with | ⟨0, _⟩ => rfl | ⟨1, _⟩ => rfl | ⟨2, _⟩ => rfl)
  rw [val_main_v43_apply, cst_7_zero, zero_add]
  unfold Cert.Spec.perProp
  refine Finset.sum_congr rfl fun k _ => ?_
  rw [e k, val_main_v42_apply, l1_eq X L h7 h11, valid_eq L h11]
  rfl

/-- The block loss at block (hb, wb). -/
theorem blockLoss_eq (X : S3x2x256x128x128.Idx → EReal) (L : S3x2x1x128x128.Idx → BitVec 32)
    (h7 : ∀ (f : Fin 3) (n : Fin 2) (hb wb : Fin 16) (c : Fin 256) (i j : Fin 8), val_main_v7 (F := Ideal) X (ix5 f n (Cert.Spec.blk hb wb) c (Cert.Spec.pix i j)) = Cert.Spec.dir X f n c (Cert.Spec.px hb i) (Cert.Spec.px wb j))
    (h11 : ∀ (f : Fin 3) (n : Fin 2) (hb wb : Fin 16) (i j : Fin 8), val_main_v11 (F := Ideal) L (ix4 f n (Cert.Spec.blk hb wb) (Cert.Spec.pix i j)) = L (ix5 f n 0 (Cert.Spec.px hb i) (Cert.Spec.px wb j)))
    (n : Fin 2) (hb wb : Fin 16) :
    val_main_v52 (F := Ideal) X L (ix2 n (Cert.Spec.blk hb wb)) = Cert.Spec.blockLoss X L n hb wb := by
  rw [val_main_v52_apply, val_main_v50_apply, val_main_v51_apply, val_main_v48_apply, val_main_v46_apply,
    ncls_eq L h11, perProp_eq X L h7 h11, val_main_v45_apply, val_main_v47_apply, val_main_v49_apply,
    val_main_call1_v1_apply, val_main_call1_v0_apply, val_main_cst_9_apply, val_main_cst_10_apply,
    val_main_cst_11_apply, val_main_cst_12_apply, Ideal.cmpf_def]
  simp only [Ideal.ofBits_def, Ideal.ofBits_zero_f32]
  unfold Cert.Spec.blockLoss
  by_cases h : 0 < Cert.Spec.ncls L n hb wb
  · rw [(cmp_ogt_eq_one _ _).2 h, select_one, if_pos h]
    rfl
  · rw [eq_zero_of_ne_one (mt (cmp_ogt_eq_one _ _).1 h), select_zero, if_neg h]

end Cert.RefValue

end
-- ==== Proof.RefBlocks.lean ====
import proofs.«155187_j89309549953719_2_alg».proof.Proof.RefBlocks4

/-!
# The reference, block by block

The reference's block loss and its number of valid classes, read at a block, are the specification's
(`Cert.RefValue.blockLoss_eq`, `Cert.RefValue.ncls_eq`), given the blocked unit vectors and labels read at a pixel.
The steps: indicators and counts; class sums and prototypes; valid classes; second differences and the loss.
-/
-- ==== Proof.LibBitCount.lean ====
import Idealize.ShloMosaic.PureOps.Reduce
import Idealize.ShloMosaic.PureOps.Ideal

/-!
# Counting bits with 32-bit wrapping addition

Each one-bit word, widened to 32 bits, is the number `0` or `1`.  Adding fewer than `2 ^ 31` such
words with 32-bit wrapping addition therefore never wraps: the partial sums stay at most the number
of summands, which is below `2 ^ 31`.  Hence the wrapped total, read as a signed integer and then as
an extended real, equals the sum of the summands read the same way.
-/

namespace Cert.BitCount

open Idealize.ShloMosaic

/-- A one-bit word widened to 32 bits has value at most `1`. -/
theorem toNat_setWidth_bit_le_one (x : BitVec 1) : (x.setWidth 32).toNat ≤ 1 := by
  have h : x.toNat < 2 ^ 1 := x.isLt
  have h' : x.toNat % 2 ^ 32 ≤ x.toNat := Nat.mod_le _ _
  rw [BitVec.toNat_setWidth]
  omega

/-- A one-bit word widened to 32 bits is non-negative as a signed integer: its signed value is its
unsigned value. -/
theorem toInt_setWidth_bit (x : BitVec 1) : (x.setWidth 32).toInt = ((x.setWidth 32).toNat : ℤ) := by
  have h := toNat_setWidth_bit_le_one x
  exact BitVec.toInt_eq_toNat_of_lt (by omega)

/-- The unsigned values of widened one-bit words add up to at most the number of words. -/
theorem sum_toNat_bits_le_card {ι : Type*} (S : Finset ι) (b : ι → BitVec 1) :
    ∑ i ∈ S, ((b i).setWidth 32).toNat ≤ S.card := by
  calc ∑ i ∈ S, ((b i).setWidth 32).toNat
      ≤ ∑ _i ∈ S, 1 := Finset.sum_le_sum fun i _ => toNat_setWidth_bit_le_one (b i)
    _ = S.card := by simp

/-- The 32-bit wrapping sum of fewer than `2 ^ 32` widened one-bit words does not wrap: its unsigned
value is the sum of the unsigned values. -/
theorem toNat_fold_addi_bits {ι : Type*} (S : Finset ι) (b : ι → BitVec 1) (hS : S.card < 2 ^ 32) :
    (S.fold IntOp.addi 0#32 (fun i => (b i).setWidth 32)).toNat
      = ∑ i ∈ S, ((b i).setWidth 32).toNat := by
  classical
  induction S using Finset.induction_on with
  | empty => simp
  | insert a S ha ih =>
    have hcard : (insert a S).card = S.card + 1 := Finset.card_insert_of_notMem ha
    have ih' := ih (by omega)
    have hle := sum_toNat_bits_le_card (insert a S) b
    rw [Finset.sum_insert ha] at hle
    rw [Finset.fold_insert ha, Finset.sum_insert ha]
    show ((b a).setWidth 32 + S.fold IntOp.addi 0#32 (fun i => (b i).setWidth 32)).toNat = _
    rw [BitVec.toNat_add, ih']
    exact Nat.mod_eq_of_lt (by omega)

/-- The embedding of the reals in the extended reals commutes with finite sums. -/
theorem coe_sum_real {ι : Type*} (S : Finset ι) (g : ι → ℝ) :
    ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- The 32-bit wrapping sum of fewer than `2 ^ 31` widened one-bit words, read as a signed integer and
then as an extended real, is the sum of the summands read the same way. -/
theorem toInt_fold_addi_bits {ι : Type*} (S : Finset ι) (b : ι → BitVec 1) (hS : S.card < 2 ^ 31) :
    (((S.fold IntOp.addi 0#32 (fun i => (b i).setWidth 32)).toInt : ℝ) : EReal)
      = ∑ i ∈ S, ((((b i).setWidth 32).toInt : ℝ) : EReal) := by
  have hnat := toNat_fold_addi_bits S b (by omega)
  have hle := sum_toNat_bits_le_card S b
  have hint : (S.fold IntOp.addi 0#32 (fun i => (b i).setWidth 32)).toInt
      = ((∑ i ∈ S, ((b i).setWidth 32).toNat : ℕ) : ℤ) := by
    rw [← hnat]
    exact BitVec.toInt_eq_toNat_of_lt (by omega)
  rw [hint, ← coe_sum_real]
  congr 1
  push_cast
  exact Finset.sum_congr rfl fun i _ => by rw [toInt_setWidth_bit]; push_cast; rfl

end Cert.BitCount
-- ==== Proof.RefLoss.lean ====
import proofs.«155187_j89309549953719_2_alg».proof.Proof.RefRead
import proofs.«155187_j89309549953719_2_alg».proof.Proof.Spec
import proofs.«155187_j89309549953719_2_alg».proof.Proof.LibGridSum
import proofs.«155187_j89309549953719_2_alg».proof.Proof.LibBitCount
import Idealize.ShloMosaic.PureOps.Reduce
import Idealize.ShloMosaic.PureOps.Ideal.Laws
import Idealize.ShloMosaic.Lib.ValueIdx

/-!
# The reference's last stages: from the block losses to the loss

Given, for every image and block, the block's loss and its number of valid classes, the reference

* flags every block that has a valid class, widens the flag to a 32-bit word and adds the 512 words with
  wrapping addition — 512 words of value 0 or 1 never wrap, so the total, read as a signed integer and then
  as an extended real, is the number of flagged blocks;
* adds the 512 block losses;
* divides the second by the first floored at one when the first is positive, takes 0 otherwise, and
  multiplies by the word of 1.0.

A sum over the 2 x 256 (image, block) indices is the sum over the image, the row of blocks and the block in
the row, because block 16 hb + wb is the pair (hb, wb) in row-major order.
-/

noncomputable section

namespace Cert.RefValue

open Cert.ReferenceIdeal Cert.ReferenceIdeal.Read Idealize.ShloMosaic Idealize.ShloMosaic.ValueIdx

/-- The block numbered 16 hb + wb is the pair (hb, wb) in the row-major pairing of two indices below 16. -/
theorem pair_eq_blk (hb wb : Fin 16) :
    (finProdFinEquiv (hb, wb) : Fin (16 * 16)) = Cert.Spec.blk hb wb := by
  apply Fin.ext
  simp only [finProdFinEquiv, Equiv.coe_fn_mk, Cert.Spec.blk]
  omega

/-- A sum over the 2 x 256 (image, block) indices is the triple sum over the image, the row of blocks and
the block of the row. -/
theorem sum_blocks {M : Type*} [AddCommMonoid M] (g : S2x256.Idx → M) :
    ∑ j : S2x256.Idx, g j
      = ∑ n : Fin 2, ∑ hb : Fin 16, ∑ wb : Fin 16, g (ix2 n (Cert.Spec.blk hb wb)) := by
  refine (sum_idx2 g).trans ?_
  refine Finset.sum_congr rfl fun n _ => ?_
  refine (Cert.GridSum.sum_fin_mul 16 16 (fun b : Fin (16 * 16) => g (ix2 n (b : Fin 256)))).trans ?_
  refine Finset.sum_congr rfl fun hb _ => Finset.sum_congr rfl fun wb _ => ?_
  exact congrArg (fun b : Fin 256 => g (ix2 n b)) (pair_eq_blk hb wb)

/-- The scalar shape has one index. -/
instance : Subsingleton S_.Idx := ⟨fun a b => funext fun d => d.elim0⟩

/-- The flag "x is positive", widened to 32 bits, read as a signed integer and then as an extended real:
1 when x is positive, else 0. -/
theorem flag_value (x : EReal) :
    ((((Ideal.cmp .ogt x 0).setWidth 32).toInt : ℝ) : EReal) = if 0 < x then 1 else 0 := by
  by_cases h : 0 < x
  · simp [Ideal.cmp, h]
  · simp [Ideal.cmp, h]

/-- The flag "x is positive" as a bit. -/
theorem flag_bit (x : EReal) : Ideal.cmp .ogt x 0 = if 0 < x then 1#1 else 0#1 := by
  by_cases h : 0 < x
  · simp [Ideal.cmp, h]
  · simp [Ideal.cmp, h]

/-- There are 512 (image, block) indices: far fewer than 2 ^ 31. -/
theorem card_blocks : (Finset.univ : Finset S2x256.Idx).card < 2 ^ 31 := by
  rw [Finset.card_univ, Fintype.card_congr (idxEquiv2 (n0 := 2) (n1 := 256)), Fintype.card_prod,
    Fintype.card_fin, Fintype.card_fin]
  norm_num

section

variable (X : S3x2x256x128x128.Idx → EReal) (L : S3x2x1x128x128.Idx → BitVec 32)

/-- The integer total of the widened flags is their wrapping fold over all 512 indices from 0. -/
theorem count_fold (i : S_.Idx) :
    val_main_v56 (F := Ideal) L i
      = (Finset.univ : Finset S2x256.Idx).fold IntOp.addi 0#32
          (fun j => (val_main_v54 (F := Ideal) L j).setWidth 32) := by
  unfold val_main_v56
  rw [Host.reduce_eq_fold, Finset.filter_true_of_mem (fun j _ => Subsingleton.elim _ _)]
  rfl

/-- A block's flag compares its number of valid classes with 0. -/
theorem flag_eq (j : S2x256.Idx) :
    val_main_v54 (F := Ideal) L j = Ideal.cmp .ogt (val_main_v44 (F := Ideal) L j) 0 := by
  rw [val_main_v54_apply, val_main_v53_apply, val_main_cst_13_apply]
  show Ideal.cmp .ogt _ (Ideal.ofBits .f32 0x00000000#32) = _
  rw [Ideal.ofBits_zero_f32]

/-- The count of flagged blocks, as a float, is the number of blocks with a valid class. -/
theorem hits_eq
    (h44 : ∀ (n : Fin 2) (hb wb : Fin 16),
      val_main_v44 (F := Ideal) L (ix2 n (Cert.Spec.blk hb wb)) = Cert.Spec.ncls L n hb wb)
    (i : S_.Idx) : val_main_v57 (F := Ideal) L i = Cert.Spec.hits L := by
  show (((val_main_v56 (F := Ideal) L i).toInt : ℝ) : EReal) = _
  rw [count_fold L i, Cert.BitCount.toInt_fold_addi_bits _ _ card_blocks, sum_blocks]
  unfold Cert.Spec.hits Cert.Spec.rowHit Cert.Spec.blockHit
  refine Finset.sum_congr rfl fun n _ => Finset.sum_congr rfl fun hb _ => Finset.sum_congr rfl fun wb _ => ?_
  rw [flag_eq L, h44 n hb wb]
  exact flag_value _

/-- The float sum of the block losses is the total of the specification. -/
theorem total_eq
    (h52 : ∀ (n : Fin 2) (hb wb : Fin 16),
      val_main_v52 (F := Ideal) X L (ix2 n (Cert.Spec.blk hb wb)) = Cert.Spec.blockLoss X L n hb wb)
    (i : S_.Idx) : val_main_v59 (F := Ideal) X L i = Cert.Spec.total X L := by
  rw [val_main_v59_apply, val_main_cst_16_apply]
  show Ideal.ofBits .f32 0x00000000#32 + _ = _
  rw [Ideal.ofBits_zero_f32, zero_add, sum_blocks]
  unfold Cert.Spec.total Cert.Spec.rowLoss
  exact Finset.sum_congr rfl fun n _ => Finset.sum_congr rfl fun hb _ => Finset.sum_congr rfl fun wb _ =>
    h52 n hb wb

/-- The reference's result is the loss of the specification. -/
theorem loss_eq (X : S3x2x256x128x128.Idx → EReal) (L : S3x2x1x128x128.Idx → BitVec 32)
    (h52 : ∀ (n : Fin 2) (hb wb : Fin 16), val_main_v52 (F := Ideal) X L (ix2 n (Cert.Spec.blk hb wb)) = Cert.Spec.blockLoss X L n hb wb)
    (h44 : ∀ (n : Fin 2) (hb wb : Fin 16), val_main_v44 (F := Ideal) L (ix2 n (Cert.Spec.blk hb wb)) = Cert.Spec.ncls L n hb wb)
    (i : S_.Idx) : val_main_v63 (F := Ideal) X L i = Cert.Spec.loss X L := by
  have e : val_main_v63 (F := Ideal) X L i
      = Scalar.select (Ideal.cmp .ogt (val_main_v57 (F := Ideal) L i) (Ideal.ofBits .f32 0x00000000#32))
          (Ideal.div (val_main_v59 (F := Ideal) X L i)
            (max (val_main_v57 (F := Ideal) L i) (Ideal.ofBits .f32 0x3F800000#32)))
          (Ideal.ofBits .f32 0x00000000#32) * Ideal.ofBits .f32 0x3F800000#32 := rfl
  rw [e, hits_eq L h44 i, total_eq X L h52 i, Ideal.ofBits_zero_f32, flag_bit]
  unfold Cert.Spec.loss Cert.Spec.one
  by_cases h : 0 < Cert.Spec.hits L
  · rw [if_pos h, if_pos h, select_one]
  · rw [if_neg h, if_neg h, select_zero]

end

end Cert.RefValue

end
-- ==== Proof.Claims.lean ====
import proofs.«155187_j89309549953719_2_alg».proof.Defs
import proofs.«155187_j89309549953719_2_alg».proof.Proof.Gen.Kernel.Frame
import proofs.«155187_j89309549953719_2_alg».proof.Proof.Gen.Pre_finite_inputs
import proofs.«155187_j89309549953719_2_alg».proof.Proof.KernelTail
import proofs.«155187_j89309549953719_2_alg».proof.Proof.KernelPoint
import proofs.«155187_j89309549953719_2_alg».proof.Proof.PreLabels
import proofs.«155187_j89309549953719_2_alg».proof.Proof.RefRun
import proofs.«155187_j89309549953719_2_alg».proof.Proof.RefPixels
import proofs.«155187_j89309549953719_2_alg».proof.Proof.RefBlocks
import proofs.«155187_j89309549953719_2_alg».proof.Proof.RefLoss

/-!
# The five claims

Both programs compute the loss of Spec.lean from the same two arrays. The kernel does so for labels that are class
labels (the precondition says so): it visits the rows of blocks one by one, accumulates per image, and the lines after
the region take the guarded mean; the reference blockifies the arrays and computes every block at once. The frames of
the two kernel programs are the generated ones, the reference's frame is its run with the result dropped, and the one
rewrite of the idealization (a narrowing to bf16 and back, of the counts) is the identity on the extended reals.
-/

noncomputable section

open Idealize.ShloMosaic Idealize.ShloMosaic.TcCoe Idealize.SL.Sem Idealize.ShloMosaic.ValueIdx

namespace Cert.Proof.Claims

/-- The reference's result is the loss, for any arrays. -/
theorem ref_value (X : Cert.Spec.SX.Idx → EReal) (L : Cert.Spec.SL.Idx → BitVec 32) (i : Cert.ReferenceIdeal.S_.Idx) :
    Cert.ReferenceIdeal.Read.val_main_v63 (F := Ideal) X L i = Cert.Spec.loss X L :=
  Cert.RefValue.loss_eq X L
    (fun n hb wb => Cert.RefValue.blockLoss_eq X L (Cert.RefValue.dir_eq X) (Cert.RefValue.label_eq L) n hb wb)
    (fun n hb wb => Cert.RefValue.ncls_eq L (Cert.RefValue.label_eq L) n hb wb) i

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := IdealRules.truncf_extf.statement _ .f32 .bf16

open Cert.KernelIdeal Cert.KernelIdeal.Gen in
/-- The kernel's run: the result buffer ends at the loss of the argument arrays, which end unchanged. -/
theorem kernel_run (m : (ℓ : Loc nD τ sig) → Buf (Elt Ideal) ℓ) (ρ : Dev nD → PrngReg)
    (hL : ∀ c : Dev nD, Cert.Spec.Labelled (Cert.KernelIdeal.Acc.labels m c)) :
    θ_run defs (onTc (τ := τ) (main (F := Ideal))) ⟨m, fun _ => 0, ρ⟩ (fun r => ∀ c : Dev nD,
      r.2.mem ((c.tc : Thread nD τ).loc main_v11) = (fun _ => Cert.Spec.loss (Cert.KernelIdeal.Acc.feats m c) (Cert.KernelIdeal.Acc.labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have hv := Cert.KernelValue.pointValues (Cert.KernelIdeal.Acc.feats m c) (Cert.KernelIdeal.Acc.labels m c) (hL c)
    refine ⟨?_, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
    refine ((h c).2 main_v11 (Pipeline.mem_restRefs_of main_v11 rfl (by decide))).trans ?_
    rw [Cert.KernelIdeal.Tail.tail_run m c, Cert.KernelIdeal.Acc.final2 m c hv, Cert.KernelIdeal.Acc.final3 m c hv]
    funext i
    exact Cert.KernelIdeal.Tail.tail_value _ _ i) (run_main m ρ)

/-- From memories that agree on the two arrays, both programs end at the loss of those arrays. -/
theorem algebraic : Cert.algebraic_KernelIdeal_ReferenceIdeal := by
  intro m ρ m' ρ' hpre hagree
  have hL : ∀ c : Dev Cert.KernelIdeal.nD, Cert.Spec.Labelled (Cert.KernelIdeal.Acc.labels m c) := fun c =>
    Cert.PreValue.labelled_of_pre _ _ (hpre c)
  refine ⟨fun c _ => Cert.Spec.loss (Cert.KernelIdeal.Acc.feats m c) (Cert.KernelIdeal.Acc.labels m c), kernel_run m ρ hL, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  exact ref_value _ _ i

end Cert.Proof.Claims

end
-- ==== Proof.lean ====
/-
  A loss over three video frames: every pixel's 256-channel feature vector is scaled to unit length; the 128 x 128
  pixel grid is cut into 16 x 16 blocks of 8 x 8 pixels; in every block and frame the unit vectors of the pixels of a
  class are averaged to a prototype; a class counts in a block when it occurs there in all three frames; a block's loss
  is the mean over its classes of the mean absolute second difference in time of the three prototypes, and the result
  is the mean block loss over the blocks that have a class (Proof/Spec.lean states it).

  The kernel streams the rows of blocks: per row it builds the one-hot of the joint code 19 * (column block) + label,
  gets the counts and the prototype sums of all sixteen blocks of the row from one matrix product each, reduces them
  to the row's summed block loss and number of blocks with a class, and accumulates both per image; the lines after
  the region add the two images and take the guarded mean. The reference regroups the arrays block by block and does
  the same arithmetic on every block at once. A label outside the 19 classes would be counted by the kernel in a
  neighbouring column block and by the reference nowhere, so the labels are taken to be class labels: the
  precondition says 0 <= label < 19. On the extended reals every sum may be regrouped and a term with a zero factor
  vanishes, which is all the comparison needs; finiteness of the features is never used.

  Proof/Claims.lean assembles the five claims; the modules it imports read the two programs.
-/
import proofs.«155187_j89309549953719_2_alg».proof.Defs
import proofs.«155187_j89309549953719_2_alg».proof.Proof.Gen.Kernel
import proofs.«155187_j89309549953719_2_alg».proof.Proof.Gen.KernelIdeal
import proofs.«155187_j89309549953719_2_alg».proof.Proof.Gen.ReferenceIdeal
import proofs.«155187_j89309549953719_2_alg».proof.Proof.Gen.Pre_finite_inputs
import proofs.«155187_j89309549953719_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
